-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S32768x1024 : Shape := ⟨2, ![32768, 1024]⟩
abbrev S1024 : Shape := ⟨1, ![1024]⟩
abbrev S1024x128 : Shape := ⟨2, ![1024, 128]⟩
abbrev S1024x256 : Shape := ⟨2, ![1024, 256]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024 .f32) (main_arg13 : FVec F S1024 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024x128 .f32) (main_arg8 : FVec F S1024x256 .f32) (main_arg9 : FVec F S1024x1024 .f32) (main_arg10 : FVec F S1024 .f32) (main_arg11 : FVec F S1024 .f32) (main_arg12 : FVec F S1024 .f32) (main_arg13 : FVec F S1024 .f32) (main_arg14 : FVec F S1024 .f32) (main_v33 : IVec S_ 1) : IVec S_ 1 :=
  let main_v34 : FVec F S1024x128 .f32 := Host.absf main_arg7
  let main_cst_12 : FVec F S_ .f32 := constant S_ .f32 0x7F800000#32
  let main_v35 : FVec F S1024x128 .f32 := broadcastInDim S1024x128 ![] bcast_S_S1024x128 main_cst_12
  let main_v36 : IVec S1024x128 1 := cmpf .olt main_v34 main_v35
  let main_c_13 : IVec S_ 1 := constantI S_ 1 1#1
  let main_v37 : IVec S_ 1 := (fun x v => Host.reduce IntOp.andi x v reducesTo_S1024x128_S_d0_1 h_S_) main_v36 main_c_13
  let main_v38 : IVec S_ 1 := andi main_v33 main_v37
  let main_v39 : FVec F S1024x256 .f32 := Host.absf main_arg8
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x128 .f32) (main_arg8 : FVec F S1024x256 .f32) (main_arg9 : FVec F S1024x1024 .f32) (main_arg10 : FVec F S1024 .f32) (main_arg11 : FVec F S1024 .f32) (main_arg12 : FVec F S1024 .f32) (main_arg13 : FVec F S1024 .f32) (main_arg14 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1024x1024 .f32) (main_arg1 : FVec F S32768x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024x128 .f32) (main_arg8 : FVec F S1024x256 .f32) (main_arg9 : FVec F S1024x1024 .f32) (main_arg10 : FVec F S1024 .f32) (main_arg11 : FVec F S1024 .f32) (main_arg12 : FVec F S1024 .f32) (main_arg13 : FVec F S1024 .f32) (main_arg14 : FVec F S1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1024x1024 : Shape := ⟨2, ![1024, 1024]⟩
abbrev S32768x1024 : Shape := ⟨2, ![32768, 1024]⟩
abbrev S1024 : Shape := ⟨1, ![1024]⟩
abbrev S1024x128 : Shape := ⟨2, ![1024, 128]⟩
abbrev S1024x256 : Shape := ⟨2, ![1024, 256]⟩
abbrev S1x1024 : Shape := ⟨2, ![1, 1024]⟩
abbrev S256x128 : Shape := ⟨2, ![256, 128]⟩
abbrev S512x1024 : Shape := ⟨2, ![512, 1024]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S128x1024 : Shape := ⟨2, ![128, 1024]⟩
abbrev S1024x1 : Shape := ⟨2, ![1024, 1]⟩

abbrev nBuf : Space → Nat
  | .hbm => 32
  | .vmem => 27
  | .smem => 0
  | _ => 0

abbrev bufTy : (tb : Table) → Fin (tcTables nBuf tb) → BufTy
  | .hbm, ⟨0, _⟩ => ⟨S1024x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x128, .f32⟩
  | .hbm, ⟨8, _⟩ => ⟨S1024x256, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1024x1024, .bf16⟩
  | .hbm, ⟨23, _⟩ => ⟨S1024x1024, .bf16⟩
  | .hbm, ⟨24, _⟩ => ⟨S1024x128, .bf16⟩
  | .hbm, ⟨25, _⟩ => ⟨S1024x256, .bf16⟩
  | .hbm, ⟨26, _⟩ => ⟨S1024x1024, .bf16⟩
  | .hbm, ⟨27, _⟩ => ⟨S1024x1024, .bf16⟩
  | .hbm, ⟨28, _⟩ => ⟨S1024x1024, .f32⟩
  | .hbm, ⟨29, _⟩ => ⟨S256x128, .f32⟩
  | .hbm, ⟨30, _⟩ => ⟨S1024x1024, .f32⟩
  | .hbm, ⟨31, _⟩ => ⟨S32768x1024, .f32⟩
  | .local _ .vmem, ⟨0, _⟩ => ⟨S1024x1024, .f32⟩
  | .local _ .vmem, ⟨1, _⟩ => ⟨S1024x1024, .bf16⟩
  | .local _ .vmem, ⟨2, _⟩ => ⟨S1x1024, .f32⟩
  | .local _ .vmem, ⟨3, _⟩ => ⟨S1024x1024, .bf16⟩
  | .local _ .vmem, ⟨4, _⟩ => ⟨S1024x128, .bf16⟩
  | .local _ .vmem, ⟨5, _⟩ => ⟨S1024x256, .bf16⟩
  | .local _ .vmem, ⟨6, _⟩ => ⟨S1024x1024, .f32⟩
  | .local _ .vmem, ⟨7, _⟩ => ⟨S256x128, .f32⟩
  | .local _ .vmem, ⟨8, _⟩ => ⟨S512x1024, .f32⟩
  | .local _ .vmem, ⟨9, _⟩ => ⟨S512x1024, .f32⟩
  | .local _ .vmem, ⟨10, _⟩ => ⟨S256x128, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1024x1024, .f32⟩
  | .local _ .vmem, ⟨26, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S1024_S1x1024 : S1024.ShapeCasts S1x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S256x128_S256x128 : S256x128.ShapeCasts S256x128
  slices_S512x1024_o0_0_S512x128 : S512x1024.Slices ![0, 0] S512x128
  reduces_S512x256_S512 : S512x256.Reduces [1] S512
  shapeCasts_S512_S512x1 : S512.ShapeCasts S512x1
  broadcasts_S512x1_S512x256 : S512x1.Broadcasts S512x256
  inb_S1024x1024_S128x1024_0_0 : ∀ a, (![0, 0] : Fin 2 → Nat) a + S128x1024.size a ≤ S1024x1024.size a
  h_S128x1024 : 0 < S128x1024.numel
  shapeCasts_S128x1024_S128x1024 : S128x1024.ShapeCasts S128x1024
  slices_S512x1024_o0_128_S512x128 : S512x1024.Slices ![0, 128] S512x128
  inb_S1024x1024_S128x1024_128_0 : ∀ a, (![128, 0] : Fin 2 → Nat) a + S128x1024.size a ≤ S1024x1024.size a
  slices_S512x1024_o0_256_S512x128 : S512x1024.Slices ![0, 256] S512x128
  inb_S1024x1024_S128x1024_256_0 : ∀ a, (![256, 0] : Fin 2 → Nat) a + S128x1024.size a ≤ S1024x1024.size a
  slices_S512x1024_o0_384_S512x128 : S512x1024.Slices ![0, 384] S512x128
  inb_S1024x1024_S128x1024_384_0 : ∀ a, (![384, 0] : Fin 2 → Nat) a + S128x1024.size a ≤ S1024x1024.size a
  slices_S512x1024_o0_512_S512x128 : S512x1024.Slices ![0, 512] S512x128
  inb_S1024x1024_S128x1024_512_0 : ∀ a, (![512, 0] : Fin 2 → Nat) a + S128x1024.size a ≤ S1024x1024.size a
  slices_S512x1024_o0_640_S512x128 : S512x1024.Slices ![0, 640] S512x128
  inb_S1024x1024_S128x1024_640_0 : ∀ a, (![640, 0] : Fin 2 → Nat) a + S128x1024.size a ≤ S1024x1024.size a
  slices_S512x1024_o0_768_S512x128 : S512x1024.Slices ![0, 768] S512x128
  inb_S1024x1024_S128x1024_768_0 : ∀ a, (![768, 0] : Fin 2 → Nat) a + S128x1024.size a ≤ S1024x1024.size a
  slices_S512x1024_o0_896_S512x128 : S512x1024.Slices ![0, 896] S512x128
  inb_S1024x1024_S128x1024_896_0 : ∀ a, (![896, 0] : Fin 2 → Nat) a + S128x1024.size a ≤ S1024x1024.size a
  broadcasts_S1x1024_S512x1024 : S1x1024.Broadcasts S512x1024
  reduces_S512x1024_S512 : S512x1024.Reduces [1] S512
  broadcasts_S512x1_S512x1024 : S512x1.Broadcasts S512x1024
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  dot_S1024x256_S1024x128_S256x128_0_0_1_1_n_n_wf : DotDims.WF S1024x256 S1024x128 S256x128 [0] [0] [1] [1] [] []
  dot_S512x128_S256x128_S512x256_1_1_0_0_n_n_wf : DotDims.WF S512x128 S256x128 S512x256 [1] [1] [0] [0] [] []
  dot_S512x256_S256x128_S512x128_1_0_0_1_n_n_wf : DotDims.WF S512x256 S256x128 S512x128 [1] [0] [0] [1] [] []
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x256.size a
  hwx0_5 : ∀ i : grid0.Coords, EltTy.bits .bf16 = 32 ∨ (Rect.block (s := S1024x256) S1024x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .f32 = 32 ∨ (Rect.block (s := S1024x1024) S1024x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S1024x1024.size a
  hwx1_0 : ∀ i : grid1.Coords, EltTy.bits .f32 = 32 ∨ (Rect.block (s := S1024x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S1024x1024.size a
  hwx1_6 : ∀ i : grid1.Coords, EltTy.bits .f32 = 32 ∨ (Rect.block (s := S1024x1024) S512x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1024.size a ≤ S1024x1024.size a
  hwx1_7 : ∀ i : grid1.Coords, EltTy.bits .f32 = 32 ∨ (Rect.block (s := S1024x1024) S512x1024.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S32768x1024.size a
  hwx2_0 : ∀ i : grid2.Coords, EltTy.bits .f32 = 32 ∨ (Rect.block (s := S32768x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S32768x1024.size a
  hwx2_5 : ∀ i : grid2.Coords, EltTy.bits .f32 = 32 ∨ (Rect.block (s := S32768x1024) S1024x1024.size (cc2_transform_5 i) (hinb2_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x256_S1024x128_S256x128_0_0_1_1_n_n : DotDims S1024x256 S1024x128 S256x128 where
  lhsContracting := [0]
  rhsContracting := [0]
  lhsNonContracting := [1]
  rhsNonContracting := [1]
  lhsBatch := []
  rhsBatch := []
  wf := dot_S1024x256_S1024x128_S256x128_0_0_1_1_n_n_wf
def dot_S512x128_S256x128_S512x256_1_1_0_0_n_n : DotDims S512x128 S256x128 S512x256 where
  lhsContracting := [1]
  rhsContracting := [1]
  lhsNonContracting := [0]
  rhsNonContracting := [0]
  lhsBatch := []
  rhsBatch := []
  wf := dot_S512x128_S256x128_S512x256_1_1_0_0_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_arg0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13_0) S1024x1024.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_1) S256x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_1) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg0) S512x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v14) S512x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1024x1024 : Shape := ⟨2, ![1024, 1024]⟩
abbrev S32768x1024 : Shape := ⟨2, ![32768, 1024]⟩
abbrev S1024 : Shape := ⟨1, ![1024]⟩
abbrev S1024x128 : Shape := ⟨2, ![1024, 128]⟩
abbrev S1024x256 : Shape := ⟨2, ![1024, 256]⟩
abbrev S1x1024 : Shape := ⟨2, ![1, 1024]⟩
abbrev S256x128 : Shape := ⟨2, ![256, 128]⟩
abbrev S1024x8x128 : Shape := ⟨3, ![1024, 8, 128]⟩
abbrev S8x1024x128 : Shape := ⟨3, ![8, 1024, 128]⟩
abbrev S8x1024x256 : Shape := ⟨3, ![8, 1024, 256]⟩
abbrev S_ : Shape := ⟨0, ![]⟩
abbrev S8x1024 : Shape := ⟨2, ![8, 1024]⟩
abbrev S8x1024x1 : Shape := ⟨3, ![8, 1024, 1]⟩
abbrev S1024x1 : Shape := ⟨2, ![1024, 1]⟩
abbrev S32768 : Shape := ⟨1, ![32768]⟩
abbrev S32768x1 : Shape := ⟨2, ![32768, 1]⟩

abbrev nBuf : Space → Nat
  | .hbm => 113
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x128, .f32⟩
  | .hbm, ⟨8, _⟩ => ⟨S1024x256, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x128, .f32⟩
  | .hbm, ⟨21, _⟩ => ⟨S256x128, .f32⟩
  | .hbm, ⟨22, _⟩ => ⟨S1024x8x128, .f32⟩
  | .hbm, ⟨23, _⟩ => ⟨S8x1024x128, .f32⟩
  | .hbm, ⟨24, _⟩ => ⟨S8x1024x256, .f32⟩
  | .hbm, ⟨25, _⟩ => ⟨S_, .f32⟩
  | .hbm, ⟨26, _⟩ => ⟨S8x1024x256, .f32⟩
  | .hbm, ⟨27, _⟩ => ⟨S8x1024x256, .f32⟩
  | .hbm, ⟨28, _⟩ => ⟨S_, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024x1, .f32⟩
  | .hbm, ⟨34, _⟩ => ⟨S8x1024x256, .f32⟩
  | .hbm, ⟨35, _⟩ => ⟨S8x1024x256, .f32⟩
  | .hbm, ⟨36, _⟩ => ⟨S8x1024x256, .f32⟩
  | .hbm, ⟨37, _⟩ => ⟨S_, .f32⟩
  | .hbm, ⟨38, _⟩ => ⟨S8x1024, .f32⟩
  | .hbm, ⟨39, _⟩ => ⟨S8x1024x1, .f32⟩
  | .hbm, ⟨40, _⟩ => ⟨S8x1024x256, .f32⟩
  | .hbm, ⟨41, _⟩ => ⟨S8x1024x256, .f32⟩
  | .hbm, ⟨42, _⟩ => ⟨S8x1024x128, .f32⟩
  | .hbm, ⟨43, _⟩ => ⟨S1024x8x128, .f32⟩
  | .hbm, ⟨44, _⟩ => ⟨S1024x1024, .f32⟩
  | .hbm, ⟨45, _⟩ => ⟨S1024x1024, .f32⟩
  | .hbm, ⟨46, _⟩ => ⟨S1x1024, .f32⟩
  | .hbm, ⟨47, _⟩ => ⟨S1024x1024, .f32⟩
  | .hbm, ⟨48, _⟩ => ⟨S1024x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S1024, .f32⟩
  | .hbm, ⟨55, _⟩ => ⟨S1024x1, .f32⟩
  | .hbm, ⟨56, _⟩ => ⟨S_, .f32⟩
  | .hbm, ⟨57, _⟩ => ⟨S1024x1, .f32⟩
  | .hbm, ⟨58, _⟩ => ⟨S1024x1, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S_, .f32⟩
  | .hbm, ⟨63, _⟩ => ⟨S1024, .f32⟩
  | .hbm, ⟨64, _⟩ => ⟨S1024x1, .f32⟩
  | .hbm, ⟨65, _⟩ => ⟨S_, .f32⟩
  | .hbm, ⟨66, _⟩ => ⟨S1024x1, .f32⟩
  | .hbm, ⟨67, _⟩ => ⟨S1024x1, .f32⟩
  | .hbm, ⟨68, _⟩ => ⟨S1024x1024, .f32⟩
  | .hbm, ⟨69, _⟩ => ⟨S1024x1024, .f32⟩
  | .hbm, ⟨70, _⟩ => ⟨S_, .f32⟩
  | .hbm, ⟨71, _⟩ => ⟨S1024x1, .f32⟩
  | .hbm, ⟨72, _⟩ => ⟨S1024x1, .f32⟩
  | .hbm, ⟨73, _⟩ => ⟨S1024x1, .f32⟩
  | .hbm, ⟨74, _⟩ => ⟨S1024x1024, .f32⟩
  | .hbm, ⟨75, _⟩ => ⟨S1024x1024, .f32⟩
  | .hbm, ⟨76, _⟩ => ⟨S1x1024, .f32⟩
  | .hbm, ⟨77, _⟩ => ⟨S1024x1024, .f32⟩
  | .hbm, ⟨78, _⟩ => ⟨S1024x1024, .f32⟩
  | .hbm, ⟨79, _⟩ => ⟨S1x1024, .f32⟩
  | .hbm, ⟨80, _⟩ => ⟨S1024x1024, .f32⟩
  | .hbm, ⟨81, _⟩ => ⟨S1024x1024, .f32⟩
  | .hbm, ⟨82, _⟩ => ⟨S1024x1024, .f32⟩
  | .hbm, ⟨83, _⟩ => ⟨S_, .f32⟩
  | .hbm, ⟨84, _⟩ => ⟨S32768, .f32⟩
  | .hbm, ⟨85, _⟩ => ⟨S32768x1, .f32⟩
  | .hbm, ⟨86, _⟩ => ⟨S_, .f32⟩
  | .hbm, ⟨87, _⟩ => ⟨S32768x1, .f32⟩
  | .hbm, ⟨88, _⟩ => ⟨S32768x1, .f32⟩
  | .hbm, ⟨89, _⟩ => ⟨S32768x1024, .f32⟩
  | .hbm, ⟨90, _⟩ => ⟨S32768x1024, .f32⟩
  | .hbm, ⟨91, _⟩ => ⟨S32768x1024, .f32⟩
  | .hbm, ⟨92, _⟩ => ⟨S_, .f32⟩
  | .hbm, ⟨93, _⟩ => ⟨S32768, .f32⟩
  | .hbm, ⟨94, _⟩ => ⟨S32768x1, .f32⟩
  | .hbm, ⟨95, _⟩ => ⟨S_, .f32⟩
  | .hbm, ⟨96, _⟩ => ⟨S32768x1, .f32⟩
  | .hbm, ⟨97, _⟩ => ⟨S32768x1, .f32⟩
  | .hbm, ⟨98, _⟩ => ⟨S32768x1024, .f32⟩
  | .hbm, ⟨99, _⟩ => ⟨S32768x1024, .f32⟩
  | .hbm, ⟨100, _⟩ => ⟨S_, .f32⟩
  | .hbm, ⟨101, _⟩ => ⟨S32768x1, .f32⟩
  | .hbm, ⟨102, _⟩ => ⟨S32768x1, .f32⟩
  | .hbm, ⟨103, _⟩ => ⟨S32768x1, .f32⟩
  | .hbm, ⟨104, _⟩ => ⟨S32768x1024, .f32⟩
  | .hbm, ⟨105, _⟩ => ⟨S32768x1024, .f32⟩
  | .hbm, ⟨106, _⟩ => ⟨S1x1024, .f32⟩
  | .hbm, ⟨107, _⟩ => ⟨S32768x1024, .f32⟩
  | .hbm, ⟨108, _⟩ => ⟨S32768x1024, .f32⟩
  | .hbm, ⟨109, _⟩ => ⟨S1x1024, .f32⟩
  | .hbm, ⟨110, _⟩ => ⟨S32768x1024, .f32⟩
  | .hbm, ⟨111, _⟩ => ⟨S32768x1024, .f32⟩
  | .hbm, ⟨112, _⟩ => ⟨S32768x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  shapeCasts_S1024x1024_S1024x8x128 : S1024x1024.ShapeCasts S1024x8x128
  transposes_S1024x8x128_S8x1024x128_1_0_2 : S1024x8x128.Transposes [1, 0, 2] S8x1024x128
  bcast_S_S8x1024x256 : S_.BroadcastsInDim S8x1024x256 (![] : Fin 0 → Fin S8x1024x256.rank)
  reducesTo_S8x1024x256_S8x1024_d2 : S8x1024x256.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x256_0_1_2 : S8x1024x1.BroadcastsInDim S8x1024x256 (![0, 1, 2] : Fin 3 → Fin S8x1024x256.rank)
  transposes_S8x1024x128_S1024x8x128_1_0_2 : S8x1024x128.Transposes [1, 0, 2] S1024x8x128
  shapeCasts_S1024x8x128_S1024x1024 : S1024x8x128.ShapeCasts S1024x1024
  bcast_S1x1024_S32768x1024_0_1 : S1x1024.BroadcastsInDim S32768x1024 (![0, 1] : Fin 2 → Fin S32768x1024.rank)
  reducesTo_S1024x1024_S1024_d1 : S1024x1024.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  reducesTo_S32768x1024_S32768_d1 : S32768x1024.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  dot_S1024x256_S1024x128_S256x128_0_0_1_1_n_n_wf : DotDims.WF S1024x256 S1024x128 S256x128 [0] [0] [1] [1] [] []
  dot_S8x1024x128_S256x128_S8x1024x256_2_1_01_0_n_n_wf : DotDims.WF S8x1024x128 S256x128 S8x1024x256 [2] [1] [0, 1] [0] [] []
  dot_S8x1024x256_S256x128_S8x1024x128_2_0_01_1_n_n_wf : DotDims.WF S8x1024x256 S256x128 S8x1024x128 [2] [0] [0, 1] [1] [] []
  dot_S32768x1024_S1024x1024_S32768x1024_1_0_0_1_n_n_wf : DotDims.WF S32768x1024 S1024x1024 S32768x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x256_S1024x128_S256x128_0_0_1_1_n_n : DotDims S1024x256 S1024x128 S256x128 where
  lhsContracting := [0]
  rhsContracting := [0]
  lhsNonContracting := [1]
  rhsNonContracting := [1]
  lhsBatch := []
  rhsBatch := []
  wf := dot_S1024x256_S1024x128_S256x128_0_0_1_1_n_n_wf
def dot_S8x1024x128_S256x128_S8x1024x256_2_1_01_0_n_n : DotDims S8x1024x128 S256x128 S8x1024x256 where
  lhsContracting := [2]
  rhsContracting := [1]
  lhsNonContracting := [0, 1]
  rhsNonContracting := [0]
  lhsBatch := []
  rhsBatch := []
  wf := dot_S8x1024x128_S256x128_S8x1024x256_2_1_01_0_n_n_wf
def dot_S8x1024x256_S256x128_S8x1024x128_2_0_01_1_n_n : DotDims S8x1024x256 S256x128 S8x1024x128 where
  lhsContracting := [2]
  rhsContracting := [0]
  lhsNonContracting := [0, 1]
  rhsNonContracting := [1]
  lhsBatch := []
  rhsBatch := []
  wf := dot_S8x1024x256_S256x128_S8x1024x128_2_0_01_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.RunAll.lean ====
/-
  The idealized kernel's whole run with its two results NAMED: every weakly fair execution of @main terminates, the
  result buffers hold what the last region boundary's contents `W4` hold there (the fold through the host stretch and
  the three regions' write-backs), and the fifteen arguments are unchanged.
-/
import proofs.«163990_j74371653697775_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the three regions after the host stretch, with the last boundary's contents read at the two result
    buffers and at every argument. -/
theorem run_all : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v14 (by decide)),
       h c _ (mem_uc main_v15 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.RunAll

end
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.Spec.lean ====
/-
  The mathematics both programs compute, on the extended reals, one output ROW at a time.

  Node path.  xq = nf·Wq + bq;  q = xq·Wtq;  kv = xq·Wtk;  kp[k,e] = Σₙ pk[n,k]·kv[n,e]  (256 projected keys, shared as
  values).  For a node's row of q and head h (its 128 columns h·128 … h·128+127): score[k] = (Σₑ q[h·128+e]·kp[k,e])·scale,
  attn = softmax of the 256 scores (the maximum folded from −∞), headOut[e] = Σₖ attn[k]·kp[k,e].  The eight heads' outputs
  laid side by side are a row of 1024 entries (entry j is head j / 128, lane j % 128), which goes through Wo plus bo, a layer
  norm over the row (mean and variance as sums divided by 1024, rsqrt(var + eps)), scale gn, shift bn, and the node's own
  features are added.

  Edge path.  m = ef·We + be;  the same layer norm with its own scale and shift;  the edge's own features added.

  Every array entry depends on ONE row of the row operand, so a block of rows computes the rows of the whole array.
-/
import Idealize.ShloMosaic.PureOps.Ideal
import Idealize.ShloMosaic.Lib.ValueIdx
import proofs.«163990_j74371653697775_2_alg».proof.Proof.LibSoftmaxRow

noncomputable section

namespace Cert.Spec

open Idealize.ShloMosaic Idealize.ShloMosaic.ValueIdx

/-- A matrix of extended reals over the rank-2 shape `[n, d]`. -/
abbrev M2 (n d : ℕ) : Type := (⟨2, ![n, d]⟩ : Shape).Idx → EReal
/-- A vector of extended reals over the rank-1 shape `[d]`. -/
abbrev V1 (d : ℕ) : Type := (⟨1, ![d]⟩ : Shape).Idx → EReal

/-- The float words both programs carry: the layer norm's epsilon, the row length 1024, the score scale, −∞. -/
def eps : EReal := Ideal.ofBits .f32 0x3727C5AC#32
def cnt : EReal := Ideal.ofBits .f32 0x44800000#32
def scale : EReal := Ideal.ofBits .f32 0x3DB504F3#32
def negInf : EReal := Ideal.ofBits .f32 0xFF800000#32

/-- A function of (row, column) read as an array. -/
def ofRC {a b : ℕ} (f : Fin a → Fin b → EReal) : M2 a b := fun i => f (i 0) (i 1)

theorem ofRC_ix2 {a b : ℕ} (f : Fin a → Fin b → EReal) (r : Fin a) (c : Fin b) : ofRC f (ix2 r c) = f r c := rfl

/-- A row times a matrix, at column `c`. -/
def rowLin {K d : ℕ} (x : Fin K → EReal) (w : M2 K d) (c : Fin d) : EReal := ∑ k : Fin K, x k * w (ix2 k c)

/-- The mean and the variance of a row, as sums divided by the word of 1024. -/
def mean {d : ℕ} (v : Fin d → EReal) : EReal := Ideal.div (∑ k : Fin d, v k) cnt
def var {d : ℕ} (v : Fin d → EReal) : EReal := Ideal.div (∑ k : Fin d, (v k - mean v) * (v k - mean v)) cnt

/-- The layer norm of a row with scale `g` and shift `b`, at column `c`. -/
def lnRow {d : ℕ} (v g b : Fin d → EReal) (c : Fin d) : EReal :=
  ((v c - mean v) * Ideal.rsqrt (var v + eps)) * g c + b c

/-! ## The edge path -/

/-- An edge's output row from its feature row `x`. -/
def edgeRow (x : Fin 1024 → EReal) (w : M2 1024 1024) (b g be : Fin 1024 → EReal) (c : Fin 1024) : EReal :=
  lnRow (fun j => rowLin x w j + b j) g be c + x c

/-! ## The node path -/

def xq (nf wq : M2 1024 1024) (bq : V1 1024) (r j : Fin 1024) : EReal :=
  rowLin (fun k => nf (ix2 r k)) wq j + bq (ix1 j)

def q (nf wq : M2 1024 1024) (bq : V1 1024) (wtq : M2 1024 1024) (r j : Fin 1024) : EReal :=
  rowLin (fun k => xq nf wq bq r k) wtq j

def kv (nf wq : M2 1024 1024) (bq : V1 1024) (wtk : M2 1024 128) (r : Fin 1024) (e : Fin 128) : EReal :=
  rowLin (fun k => xq nf wq bq r k) wtk e

/-- The projected keys: the node axis contracted against `pk`. -/
def kp (pk : M2 1024 256) (kvf : Fin 1024 → Fin 128 → EReal) (k : Fin 256) (e : Fin 128) : EReal :=
  ∑ n : Fin 1024, pk (ix2 n k) * kvf n e

/-- Column `e` of head `h` in a row of 1024. -/
def hd (h : Fin 8) (e : Fin 128) : Fin 1024 := ⟨h.val * 128 + e.val, by omega⟩

/-- The head and the lane of a column of the row of 1024. -/
def hOf (j : Fin 1024) : Fin 8 := ⟨j.val / 128, by omega⟩
def eOf (j : Fin 1024) : Fin 128 := ⟨j.val % 128, Nat.mod_lt _ (by norm_num)⟩

def score (qr : Fin 1024 → EReal) (kpf : Fin 256 → Fin 128 → EReal) (h : Fin 8) (k : Fin 256) : EReal :=
  (∑ e : Fin 128, qr (hd h e) * kpf k e) * scale

def attn (qr : Fin 1024 → EReal) (kpf : Fin 256 → Fin 128 → EReal) (h : Fin 8) (k : Fin 256) : EReal :=
  Cert.LibSoftmaxRow.softmax negInf (score qr kpf h) k

def headOut (qr : Fin 1024 → EReal) (kpf : Fin 256 → Fin 128 → EReal) (h : Fin 8) (e : Fin 128) : EReal :=
  ∑ k : Fin 256, attn qr kpf h k * kpf k e

/-- The attention output through the output projection, at column `c`. -/
def xattn (qr : Fin 1024 → EReal) (kpf : Fin 256 → Fin 128 → EReal) (wo : M2 1024 1024) (bo : Fin 1024 → EReal)
    (c : Fin 1024) : EReal :=
  (∑ j : Fin 1024, headOut qr kpf (hOf j) (eOf j) * wo (ix2 j c)) + bo c

/-- A node's output row from its row of q and its feature row `x`. -/
def nodeRow (qr : Fin 1024 → EReal) (kpf : Fin 256 → Fin 128 → EReal) (wo : M2 1024 1024) (bo gn bn : Fin 1024 → EReal)
    (x : Fin 1024 → EReal) (c : Fin 1024) : EReal :=
  lnRow (xattn qr kpf wo bo) gn bn c + x c

/-! ## The two results as arrays of the fifteen arguments -/

/-- The projected keys of the arguments. -/
def kpA (nf wq : M2 1024 1024) (bq : V1 1024) (wtk : M2 1024 128) (pk : M2 1024 256) : Fin 256 → Fin 128 → EReal :=
  kp pk (kv nf wq bq wtk)

def nodeOut (nf wq : M2 1024 1024) (bq : V1 1024) (wtq : M2 1024 1024) (wtk : M2 1024 128) (pk : M2 1024 256)
    (wo : M2 1024 1024) (bo gn bn : V1 1024) : M2 1024 1024 :=
  ofRC fun r c => nodeRow (q nf wq bq wtq r) (kpA nf wq bq wtk pk) wo (fun j => bo (ix1 j)) (fun j => gn (ix1 j))
    (fun j => bn (ix1 j)) (fun k => nf (ix2 r k)) c

def edgeOut (ef : M2 32768 1024) (we : M2 1024 1024) (be ge bte : V1 1024) : M2 32768 1024 :=
  ofRC fun r c => edgeRow (fun k => ef (ix2 r k)) we (fun j => be (ix1 j)) (fun j => ge (ix1 j)) (fun j => bte (ix1 j)) c

end Cert.Spec

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.KprojKernel.lean ====
/-
  The first region's body, read at an index on the extended reals.  It computes xq = nf·Wq + bq (the bias a row [1,1024]
  spread down the rows), then q = xq·Wtq and kv = xq·Wtk, and the projected keys kp[k,e] = Σₙ pk[n,k]·kv[n,e]: a product
  that contracts the FIRST axis of both operands (the node axis).  A change of float format is the identity here and a
  matrix product into the zero accumulator is the plain row-by-column sum.
-/
import proofs.«163990_j74371653697775_2_alg».proof.Proof.Gen.KernelIdeal.Skeleton
import proofs.«163990_j74371653697775_2_alg».proof.Proof.Spec
import proofs.«163990_j74371653697775_2_alg».proof.Proof.LibDense
import Idealize.ShloMosaic.PureOps.Ideal.Laws
import Idealize.ShloMosaic.Lib.ValueIdx
import Idealize.ShloMosaic.Lib.Pipeline.Value

set_option maxRecDepth 16384

noncomputable section

namespace Cert.KprojKernel

open Cert.KernelIdeal Cert.KernelIdeal.Gen Idealize.ShloMosaic Idealize.ShloMosaic.ValueIdx Cert.Spec

/-- A row [1, d] spread down n rows, at (r, j), is the row's entry j. -/
theorem row_bcast {n d : ℕ} (v : (⟨2, ![1, d]⟩ : Shape).Idx → EReal) (h : (⟨2, ![1, d]⟩ : Shape).Broadcasts ⟨2, ![n, d]⟩)
    (r : Fin n) (j : Fin d) : broadcastTo ⟨2, ![n, d]⟩ v h (ix2 r j) = v (ix2 0 j) := by
  refine broadcastTo_apply _ h (ix2 r j) (ix2 0 j) (fun a => ?_)
  match a with
  | ⟨0, _⟩ => exact (if_pos rfl).symm
  | ⟨1, _⟩ =>
    show j.val = if d = 1 then 0 else j.val
    have hlt : j.val < d := j.isLt
    split
    · omega
    · rfl

/-- xq at (r, j): the row of nf against column j of Wq, plus the bias row's entry j. -/
theorem xq_apply (v0 : Vec Ideal S1024x1024 .f32) (v1 : Vec Ideal S1024x1024 .bf16) (v3 : Vec Ideal S1x1024 .f32) (r j : Fin 1024) :
    k0_pay1 (F := Ideal) v0 v1 v3 (ix2 r j) = rowLin (fun k => v0 (ix2 r k)) v1 j + v3 (ix2 0 j) := by
  unfold k0_pay1
  refine congrArg₂ (· + ·) ?_ ?_
  · refine (Cert.LibDense.matmul_plain (M := 1024) (K := 1024) (N := 1024) (φ₁ := .bf16) (φ₂ := .bf16) v0
      (shapeCast S1024x1024 v1 shapeCasts_S1024x1024_S1024x1024) (ix2 r j)).trans ?_
    rw [shapeCast_self]
    rfl
  · refine (row_bcast _ _ r j).trans ?_
    rw [shapeCast_self]

/-- q at (r, j). -/
theorem q_apply (v0 : Vec Ideal S1024x1024 .f32) (v1 : Vec Ideal S1024x1024 .bf16) (v3 : Vec Ideal S1x1024 .f32)
    (v9 : Vec Ideal S1024x1024 .bf16) (bq : V1 1024) (hb : ∀ j : Fin 1024, v3 (ix2 0 j) = bq (ix1 j)) (r j : Fin 1024) :
    k0_pay2 (F := Ideal) v0 v1 v3 v9 (ix2 r j) = Cert.Spec.q v0 v1 bq v9 r j := by
  unfold k0_pay2
  refine (Cert.LibDense.matmul_plain (M := 1024) (K := 1024) (N := 1024) (φ₁ := .bf16) (φ₂ := .bf16) (k0_pay1 (F := Ideal) v0 v1 v3)
    (shapeCast S1024x1024 v9 shapeCasts_S1024x1024_S1024x1024) (ix2 r j)).trans ?_
  rw [shapeCast_self]
  show ∑ k : Fin 1024, k0_pay1 (F := Ideal) v0 v1 v3 (ix2 r k) * v9 (ix2 k j) = ∑ k : Fin 1024, Cert.Spec.xq v0 v1 bq r k * v9 (ix2 k j)
  refine Finset.sum_congr rfl fun k _ => ?_
  rw [xq_apply, hb]
  rfl

/-- kv at (r, e). -/
theorem kv_apply (v0 : Vec Ideal S1024x1024 .f32) (v1 : Vec Ideal S1024x1024 .bf16) (v3 : Vec Ideal S1x1024 .f32)
    (v13 : Vec Ideal S1024x128 .bf16) (bq : V1 1024) (hb : ∀ j : Fin 1024, v3 (ix2 0 j) = bq (ix1 j)) (r : Fin 1024) (e : Fin 128) :
    FloatOps.matmul (F := Ideal) (φ₁ := .bf16) (φ₂ := .bf16) (DotDims.plain 1024 1024 128) none (k0_pay1 (F := Ideal) v0 v1 v3) v13
        (constant (F := Ideal) ⟨2, ![1024, 128]⟩ .f32 0x00000000#32) (ix2 r e)
      = Cert.Spec.kv v0 v1 bq v13 r e := by
  refine (Cert.LibDense.matmul_plain (M := 1024) (K := 1024) (N := 128) (φ₁ := .bf16) (φ₂ := .bf16) (k0_pay1 (F := Ideal) v0 v1 v3) v13 (ix2 r e)).trans ?_
  show ∑ k : Fin 1024, k0_pay1 (F := Ideal) v0 v1 v3 (ix2 r k) * v13 (ix2 k e) = ∑ k : Fin 1024, Cert.Spec.xq v0 v1 bq r k * v13 (ix2 k e)
  refine Finset.sum_congr rfl fun k _ => ?_
  rw [xq_apply, hb]
  rfl

/-! ## The product that contracts the first axis of both operands -/

/-- The printed record of that product: both operands contracted along axis 0. -/
abbrev dTN : DotDims S1024x256 S1024x128 S256x128 := dot_S1024x256_S1024x128_S256x128_0_0_1_1_n_n

theorem tn_lhs1 (i : S256x128.Idx) (q : dTN.contr.Idx) : (dTN.lhsIdx i q 1).val = (i 0).val := by
  unfold DotDims.lhsIdx
  rw [dif_neg (show ¬(1 : Fin S1024x256.rank) ∈ dTN.lhsBatch by decide),
    dif_pos (show (1 : Fin S1024x256.rank) ∈ dTN.lhsNonContracting by decide)]
  rfl

theorem tn_rhs1 (i : S256x128.Idx) (q : dTN.contr.Idx) : (dTN.rhsIdx i q 1).val = (i 1).val := by
  unfold DotDims.rhsIdx
  rw [dif_neg (show ¬(1 : Fin S1024x128.rank) ∈ dTN.rhsBatch by decide),
    dif_pos (show (1 : Fin S1024x128.rank) ∈ dTN.rhsNonContracting by decide)]
  rfl

/-- The sum over the product's contraction index, re-indexed by the 1024 nodes. -/
theorem tn_sum (x : M2 1024 256) (w : M2 1024 128) (k : Fin 256) (e : Fin 128) :
    ∑ q : dTN.contr.Idx, x (dTN.lhsIdx (ix2 k e) q) * w (dTN.rhsIdx (ix2 k e) q)
      = ∑ n : Fin 1024, x (ix2 n k) * w (ix2 n e) := by
  rw [← Equiv.sum_comp (contrEquiv1 dTN 1024 rfl rfl).symm]
  refine Finset.sum_congr rfl fun n _ => ?_
  have hk := contrEquiv1_symm_val dTN 1024 rfl rfl n
  have el : dTN.lhsIdx (ix2 k e) ((contrEquiv1 dTN 1024 rfl rfl).symm n) = ix2 n k :=
    funext fun a => Fin.ext (by
      match a with
      | ⟨0, _⟩ => exact (dTN.lhsIdx_val_of_single rfl (ix2 k e) _).trans hk
      | ⟨1, _⟩ => exact tn_lhs1 (ix2 k e) _)
  have er : dTN.rhsIdx (ix2 k e) ((contrEquiv1 dTN 1024 rfl rfl).symm n) = ix2 n e :=
    funext fun a => Fin.ext (by
      match a with
      | ⟨0, _⟩ => exact (dTN.rhsIdx_val_of_single rfl (ix2 k e) _).trans hk
      | ⟨1, _⟩ => exact tn_rhs1 (ix2 k e) _)
  exact congrArg₂ (· * ·) (congrArg x el) (congrArg w er)

/-- The projected keys at (k, e). -/
theorem kp_apply (v0 : Vec Ideal S1024x1024 .f32) (v1 : Vec Ideal S1024x1024 .bf16) (v3 : Vec Ideal S1x1024 .f32)
    (v13 : Vec Ideal S1024x128 .bf16) (v17 : Vec Ideal S1024x256 .bf16) (bq : V1 1024)
    (hb : ∀ j : Fin 1024, v3 (ix2 0 j) = bq (ix1 j)) (k : Fin 256) (e : Fin 128) :
    k0_pay3 (F := Ideal) v0 v1 v3 v13 v17 (ix2 k e) = Cert.Spec.kpA v0 v1 bq v13 v17 k e := by
  unfold k0_pay3
  refine (Ideal.matmul_constant_zero_apply dTN none _ _ (ix2 k e)).trans ?_
  rw [shapeCast_self, shapeCast_self]
  refine (tn_sum v17 _ k e).trans ?_
  show ∑ n : Fin 1024, v17 (ix2 n k) * _ = ∑ n : Fin 1024, v17 (ix2 n k) * Cert.Spec.kv v0 v1 bq v13 n e
  refine Finset.sum_congr rfl fun n _ => congrArg (v17 (ix2 n k) * ·) ?_
  exact kv_apply v0 v1 v3 v13 bq hb n e

end Cert.KprojKernel

end
-- ==== Proof.KprojArr.lean ====
/-
  The first region's two result arrays after its one grid point: q and the projected keys, as functions of the arrays
  the region finds (the node features, the three weight matrices, the projection and the bias row).  Every window's
  block is its whole array, the one write-back of each output covers it.
-/
import proofs.«163990_j74371653697775_2_alg».proof.Proof.Gen.KernelIdeal.Frame
import proofs.«163990_j74371653697775_2_alg».proof.Proof.Spec
import proofs.«163990_j74371653697775_2_alg».proof.Proof.KprojKernel
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KprojArr

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- q as the region leaves it. -/
def Gq (bq : Cert.Spec.V1 1024) (c : Dev nD) : S1024x1024.Idx → EReal :=
  Cert.Spec.ofRC (Cert.Spec.q (V c main_arg0 : S1024x1024.Idx → EReal) (V c main_v7 : S1024x1024.Idx → EReal) bq
    (V c main_v8 : S1024x1024.Idx → EReal))

/-- The projected keys as the region leaves them. -/
def Gkp (bq : Cert.Spec.V1 1024) (c : Dev nD) : S256x128.Idx → EReal :=
  Cert.Spec.ofRC (Cert.Spec.kpA (V c main_arg0 : S1024x1024.Idx → EReal) (V c main_v7 : S1024x1024.Idx → EReal) bq
    (V c main_v9 : S1024x128.Idx → EReal) (V c main_v10 : S1024x256.Idx → EReal))

/-- Every window of the one point sits at block (0, 0). -/
theorem idx_facts : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem hN : cfg0.N = 1 := by decide

theorem blk0 (c : Dev nD) (t : Fin cfg0.N) : (iblk0 V c 0 t : S1024x1024.Idx → EReal) = (V c main_arg0 : S1024x1024.Idx → EReal) := by
  obtain ⟨⟨e0, e1⟩, -⟩ := idx_facts t
  funext y
  show (V c main_arg0 : S1024x1024.Idx → EReal) (((cfg0.win 0).blk t).view.emb y) = _
  congr 1
  funext a; apply Fin.ext
  match a with
  | ⟨0, _⟩ => show win0_0.index t (0 : Fin 2) * 1024 + 1 * (y 0).val = (y 0).val; omega
  | ⟨1, _⟩ => show win0_0.index t (1 : Fin 2) * 1024 + 1 * (y 1).val = (y 1).val; omega

theorem blk1 (c : Dev nD) (t : Fin cfg0.N) : (iblk0 V c 1 t : S1024x1024.Idx → EReal) = (V c main_v7 : S1024x1024.Idx → EReal) := by
  obtain ⟨-, ⟨e0, e1⟩, -⟩ := idx_facts t
  funext y
  show (V c main_v7 : S1024x1024.Idx → EReal) (((cfg0.win 1).blk t).view.emb y) = _
  congr 1
  funext a; apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem blk2 (c : Dev nD) (t : Fin cfg0.N) : (iblk0 V c 2 t : S1x1024.Idx → EReal) = (V c main_v0 : S1x1024.Idx → EReal) := by
  obtain ⟨-, -, ⟨e0, e1⟩, -⟩ := idx_facts t
  funext y
  show (V c main_v0 : S1x1024.Idx → EReal) (((cfg0.win 2).blk t).view.emb y) = _
  congr 1
  funext a; apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega

theorem blk3 (c : Dev nD) (t : Fin cfg0.N) : (iblk0 V c 3 t : S1024x1024.Idx → EReal) = (V c main_v8 : S1024x1024.Idx → EReal) := by
  obtain ⟨-, -, -, ⟨e0, e1⟩, -⟩ := idx_facts t
  funext y
  show (V c main_v8 : S1024x1024.Idx → EReal) (((cfg0.win 3).blk t).view.emb y) = _
  congr 1
  funext a; apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

theorem blk4 (c : Dev nD) (t : Fin cfg0.N) : (iblk0 V c 4 t : S1024x128.Idx → EReal) = (V c main_v9 : S1024x128.Idx → EReal) := by
  obtain ⟨-, -, -, -, ⟨e0, e1⟩, -⟩ := idx_facts t
  funext y
  show (V c main_v9 : S1024x128.Idx → EReal) (((cfg0.win 4).blk t).view.emb y) = _
  congr 1
  funext a; apply Fin.ext
  match a with
  | ⟨0, _⟩ => show win0_4.index t (0 : Fin 2) * 1024 + 1 * (y 0).val = (y 0).val; omega
  | ⟨1, _⟩ => show win0_4.index t (1 : Fin 2) * 128 + 1 * (y 1).val = (y 1).val; omega

theorem blk5 (c : Dev nD) (t : Fin cfg0.N) : (iblk0 V c 5 t : S1024x256.Idx → EReal) = (V c main_v10 : S1024x256.Idx → EReal) := by
  obtain ⟨-, -, -, -, -, ⟨e0, e1⟩, -⟩ := idx_facts t
  funext y
  show (V c main_v10 : S1024x256.Idx → EReal) (((cfg0.win 5).blk t).view.emb y) = _
  congr 1
  funext a; apply Fin.ext
  match a with
  | ⟨0, _⟩ => show win0_5.index t (0 : Fin 2) * 1024 + 1 * (y 0).val = (y 0).val; omega
  | ⟨1, _⟩ => show win0_5.index t (1 : Fin 2) * 256 + 1 * (y 1).val = (y 1).val; omega

/-- The one point writes back q. -/
theorem flushed6 (bq : Cert.Spec.V1 1024) (c : Dev nD) (hb : ∀ j : Fin 1024, (V c main_v0 : S1x1024.Idx → EReal) (ix2 0 j) = bq (ix1 j))
    (t : Fin cfg0.N) : (dat0 V c).flushed 6 t = ((cfg0.win 6).blk t).view.read (Elt Ideal) (Gq V bq c) := by
  show (cfg0.win 6).cut (grid0.coords t) ((dat0 V c).after 6 t) = _
  rw [after0_6, blk0, blk1, blk2, blk3, blk4, blk5]
  unfold out0_6
  rw [View.canon_unit_zero hz]
  simp only [View.ld_unit_zero (S := S1024x1024) hz, View.ld_unit_zero (S := S1x1024) hz]
  obtain ⟨-, -, -, -, -, -, ⟨e0, e1⟩, -⟩ := idx_facts t
  funext j
  show k0_pay2 (F := Ideal) (V c main_arg0) (V c main_v7) (V c main_v0) (V c main_v8) (j : S1024x1024.Idx) = Gq V bq c (((cfg0.win 6).blk t).view.emb j)
  have hj : (j : S1024x1024.Idx) = ix2 (j 0) (j 1) := eq_ix2 (n0 := 1024) (n1 := 1024) j
  have he : ((cfg0.win 6).blk t).view.emb j = (ix2 (j 0 : Fin 1024) (j 1 : Fin 1024) : S1024x1024.Idx) := by
    funext a; apply Fin.ext
    match a with
    | ⟨0, _⟩ => show win0_6.index t (0 : Fin 2) * 1024 + 1 * (j 0).val = (j 0).val; omega
    | ⟨1, _⟩ => show win0_6.index t (1 : Fin 2) * 1024 + 1 * (j 1).val = (j 1).val; omega
  rw [he]
  refine (congrArg (fun y : S1024x1024.Idx => k0_pay2 (F := Ideal) (V c main_arg0) (V c main_v7) (V c main_v0) (V c main_v8) y) hj).trans ?_
  exact Cert.KprojKernel.q_apply _ _ _ _ bq hb (j 0) (j 1)

/-- The one point writes back the projected keys. -/
theorem flushed7 (bq : Cert.Spec.V1 1024) (c : Dev nD) (hb : ∀ j : Fin 1024, (V c main_v0 : S1x1024.Idx → EReal) (ix2 0 j) = bq (ix1 j))
    (t : Fin cfg0.N) : (dat0 V c).flushed 7 t = ((cfg0.win 7).blk t).view.read (Elt Ideal) (Gkp V bq c) := by
  show (cfg0.win 7).cut (grid0.coords t) ((dat0 V c).after 7 t) = _
  rw [after0_7, blk0, blk1, blk2, blk3, blk4, blk5]
  unfold out0_7
  rw [View.canon_unit_zero hz]
  simp only [View.ld_unit_zero (S := S1024x1024) hz, View.ld_unit_zero (S := S1x1024) hz, View.ld_unit_zero (S := S1024x128) hz,
    View.ld_unit_zero (S := S1024x256) hz]
  obtain ⟨-, -, -, -, -, -, -, ⟨e0, e1⟩⟩ := idx_facts t
  funext j
  show k0_pay3 (F := Ideal) (V c main_arg0) (V c main_v7) (V c main_v0) (V c main_v9) (V c main_v10) (j : S256x128.Idx) = Gkp V bq c (((cfg0.win 7).blk t).view.emb j)
  have hj : (j : S256x128.Idx) = ix2 (j 0) (j 1) := eq_ix2 (n0 := 256) (n1 := 128) j
  have he : ((cfg0.win 7).blk t).view.emb j = (ix2 (j 0 : Fin 256) (j 1 : Fin 128) : S256x128.Idx) := by
    funext a; apply Fin.ext
    match a with
    | ⟨0, _⟩ => show win0_7.index t (0 : Fin 2) * 256 + 1 * (j 0).val = (j 0).val; omega
    | ⟨1, _⟩ => show win0_7.index t (1 : Fin 2) * 128 + 1 * (j 1).val = (j 1).val; omega
  rw [he]
  refine (congrArg (fun y : S256x128.Idx => k0_pay3 (F := Ideal) (V c main_arg0) (V c main_v7) (V c main_v0) (V c main_v9) (V c main_v10) y) hj).trans ?_
  exact Cert.KprojKernel.kp_apply _ _ _ _ _ bq hb (j 0) (j 1)

theorem cover6 (c : Dev nD) (i : S1024x1024.Idx) :
    ∃ t : Fin cfg0.N, (cfg0.win 6).flush t = true ∧ i ∈ ((cfg0.win 6).blk t).view.set := by
  have h0 : (i 0 : Fin 1024).val < 1024 := (i 0).isLt
  have h1 : (i 1 : Fin 1024).val < 1024 := (i 1).isLt
  let t : Fin cfg0.N := ⟨0, by rw [hN]; omega⟩
  obtain ⟨-, -, -, -, -, -, ⟨e0, e1⟩, -⟩ := idx_facts t
  refine ⟨t, flush0_6 t, ?_⟩
  show i ∈ ((View.whole main_v13_0).slice (win0_6.rect t)).set
  rw [View.set_slice_whole, Rect.mem_set_unit]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

theorem cover7 (c : Dev nD) (i : S256x128.Idx) :
    ∃ t : Fin cfg0.N, (cfg0.win 7).flush t = true ∧ i ∈ ((cfg0.win 7).blk t).view.set := by
  have h0 : (i 0 : Fin 256).val < 256 := (i 0).isLt
  have h1 : (i 1 : Fin 128).val < 128 := (i 1).isLt
  let t : Fin cfg0.N := ⟨0, by rw [hN]; omega⟩
  obtain ⟨-, -, -, -, -, -, -, ⟨e0, e1⟩⟩ := idx_facts t
  refine ⟨t, flush0_7 t, ?_⟩
  show i ∈ ((View.whole main_v13_1).slice (win0_7.rect t)).set
  rw [View.set_slice_whole, Rect.mem_set_unit]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 128 ≤ (i 1).val ∧ (i 1).val < win0_7.index t (1 : Fin 2) * 128 + 128; omega

/-- The two result arrays after the region. -/
theorem final6 (bq : Cert.Spec.V1 1024) (c : Dev nD) (hb : ∀ j : Fin 1024, (V c main_v0 : S1x1024.Idx → EReal) (ix2 0 j) = bq (ix1 j)) :
    (dat0 V c).arrAt 6 cfg0.N = Gq V bq c :=
  (dat0 V c).arrAt_eq_of_cover 6 (Gq V bq c) (fun t _ => flushed6 V bq c hb t) (cover6 c)

theorem final7 (bq : Cert.Spec.V1 1024) (c : Dev nD) (hb : ∀ j : Fin 1024, (V c main_v0 : S1x1024.Idx → EReal) (ix2 0 j) = bq (ix1 j)) :
    (dat0 V c).arrAt 7 cfg0.N = Gkp V bq c :=
  (dat0 V c).arrAt_eq_of_cover 7 (Gkp V bq c) (fun t _ => flushed7 V bq c hb t) (cover7 c)

end Cert.KernelIdeal.KprojArr

end
-- ==== Proof.NodeArr.lean ====
/-
  The node attention region's result array after its two grid points.  Point t stages rows 512·t … 512·t + 511 of q and of
  the node features (and the whole projected keys, output projection and three rows) and writes back the same rows of the
  result; an entry of the body's stored block depends on ONE row of the q block and of the feature block, so the two
  blocks are the rows of one whole-array function, and they cover the array.
-/
import proofs.«163990_j74371653697775_2_alg».proof.Proof.Gen.KernelIdeal.Frame
import proofs.«163990_j74371653697775_2_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.NodeArr

open Cert.KernelIdeal Cert.KernelIdeal.Gen

/-- What the body leaves in the output block at (p, c) is the node row function of row p of its q block and of its
    feature block. -/
def PayOk : Prop :=
  ∀ (x0 : Vec Ideal S512x1024 .f32) (x1 : Vec Ideal S256x128 .f32) (x2 : Vec Ideal S1024x1024 .bf16) (x3 x4 x5 : Vec Ideal S1x1024 .f32)
    (x6 : Vec Ideal S512x1024 .f32) (p : Fin 512) (c : Fin 1024),
    out1_7 (F := Ideal) x0 x1 x2 x3 x4 x5 x6 (ix2 p c)
      = Cert.Spec.nodeRow (fun j => x0 (ix2 p j)) (fun k e => x1 (ix2 k e)) x2 (fun j => x3 (ix2 0 j)) (fun j => x4 (ix2 0 j)) (fun j => x5 (ix2 0 j)) (fun k => x6 (ix2 p k)) c

variable (V : (c : Dev nD) → (b : Ref sig .tc) → Buf (Elt Ideal) ((c : Thread nD τ).loc b))

/-- The node region's result array as a function of the arrays the region finds: row r from row r of q and of the
    node features, the projected keys, the output projection and the three rows. -/
def G (c : Dev nD) : S1024x1024.Idx → EReal :=
  Cert.Spec.ofRC fun r col => Cert.Spec.nodeRow (fun j => (V c main_v13_0 : S1024x1024.Idx → EReal) (ix2 r j))
    (fun k e => (V c main_v13_1 : S256x128.Idx → EReal) (ix2 k e)) (V c main_v11 : S1024x1024.Idx → EReal)
    (fun j => (V c main_v2 : S1x1024.Idx → EReal) (ix2 0 j)) (fun j => (V c main_v3 : S1x1024.Idx → EReal) (ix2 0 j))
    (fun j => (V c main_v4 : S1x1024.Idx → EReal) (ix2 0 j)) (fun k => (V c main_arg0 : S1024x1024.Idx → EReal) (ix2 r k)) col

theorem idx_facts : ∀ t : Fin cfg1.N, (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

theorem hN : cfg1.N = 2 := by decide

theorem blk0 (c : Dev nD) (t : Fin cfg1.N) (p : Fin 512) (k : Fin 1024) (r : Fin 1024) (hr : r.val = t.val * 512 + p.val) :
    (iblk1 V c 0 t : S512x1024.Idx → EReal) (ix2 p k) = (V c main_v13_0 : S1024x1024.Idx → EReal) (ix2 r k) := by
  obtain ⟨⟨e0, e1⟩, -⟩ := idx_facts t
  show (V c main_v13_0 : S1024x1024.Idx → EReal) (((cfg1.win 0).blk t).view.emb (ix2 p k)) = _
  congr 1
  funext a; apply Fin.ext
  match a with
  | ⟨0, _⟩ => show win1_0.index t (0 : Fin 2) * 512 + 1 * p.val = r.val; omega
  | ⟨1, _⟩ => show win1_0.index t (1 : Fin 2) * 1024 + 1 * k.val = k.val; omega

theorem blk6 (c : Dev nD) (t : Fin cfg1.N) (p : Fin 512) (k : Fin 1024) (r : Fin 1024) (hr : r.val = t.val * 512 + p.val) :
    (iblk1 V c 6 t : S512x1024.Idx → EReal) (ix2 p k) = (V c main_arg0 : S1024x1024.Idx → EReal) (ix2 r k) := by
  obtain ⟨-, -, -, -, -, -, ⟨e0, e1⟩, -⟩ := idx_facts t
  show (V c main_arg0 : S1024x1024.Idx → EReal) (((cfg1.win 6).blk t).view.emb (ix2 p k)) = _
  congr 1
  funext a; apply Fin.ext
  match a with
  | ⟨0, _⟩ => show win1_6.index t (0 : Fin 2) * 512 + 1 * p.val = r.val; omega
  | ⟨1, _⟩ => show win1_6.index t (1 : Fin 2) * 1024 + 1 * k.val = k.val; omega

theorem blk1 (c : Dev nD) (t : Fin cfg1.N) : (iblk1 V c 1 t : S256x128.Idx → EReal) = (V c main_v13_1 : S256x128.Idx → EReal) := by
  obtain ⟨-, ⟨e0, e1⟩, -⟩ := idx_facts t
  funext y
  show (V c main_v13_1 : S256x128.Idx → EReal) (((cfg1.win 1).blk t).view.emb y) = _
  congr 1
  funext a; apply Fin.ext
  match a with
  | ⟨0, _⟩ => show win1_1.index t (0 : Fin 2) * 256 + 1 * (y 0).val = (y 0).val; omega
  | ⟨1, _⟩ => show win1_1.index t (1 : Fin 2) * 128 + 1 * (y 1).val = (y 1).val; omega

theorem blk2 (c : Dev nD) (t : Fin cfg1.N) : (iblk1 V c 2 t : S1024x1024.Idx → EReal) = (V c main_v11 : S1024x1024.Idx → EReal) := by
  obtain ⟨-, -, ⟨e0, e1⟩, -⟩ := idx_facts t
  funext y
  show (V c main_v11 : S1024x1024.Idx → EReal) (((cfg1.win 2).blk t).view.emb y) = _
  congr 1
  funext a; apply Fin.ext
  match a with
  | ⟨0, _⟩ => show win1_2.index t (0 : Fin 2) * 1024 + 1 * (y 0).val = (y 0).val; omega
  | ⟨1, _⟩ => show win1_2.index t (1 : Fin 2) * 1024 + 1 * (y 1).val = (y 1).val; omega

theorem blk3 (c : Dev nD) (t : Fin cfg1.N) : (iblk1 V c 3 t : S1x1024.Idx → EReal) = (V c main_v2 : S1x1024.Idx → EReal) := by
  obtain ⟨-, -, -, ⟨e0, e1⟩, -⟩ := idx_facts t
  funext y
  show (V c main_v2 : S1x1024.Idx → EReal) (((cfg1.win 3).blk t).view.emb y) = _
  congr 1
  funext a; apply Fin.ext
  match a with
  | ⟨0, _⟩ => show win1_3.index t (0 : Fin 2) * 1 + 1 * (y 0).val = (y 0).val; omega
  | ⟨1, _⟩ => show win1_3.index t (1 : Fin 2) * 1024 + 1 * (y 1).val = (y 1).val; omega

theorem blk4 (c : Dev nD) (t : Fin cfg1.N) : (iblk1 V c 4 t : S1x1024.Idx → EReal) = (V c main_v3 : S1x1024.Idx → EReal) := by
  obtain ⟨-, -, -, -, ⟨e0, e1⟩, -⟩ := idx_facts t
  funext y
  show (V c main_v3 : S1x1024.Idx → EReal) (((cfg1.win 4).blk t).view.emb y) = _
  congr 1
  funext a; apply Fin.ext
  match a with
  | ⟨0, _⟩ => show win1_4.index t (0 : Fin 2) * 1 + 1 * (y 0).val = (y 0).val; omega
  | ⟨1, _⟩ => show win1_4.index t (1 : Fin 2) * 1024 + 1 * (y 1).val = (y 1).val; omega

theorem blk5 (c : Dev nD) (t : Fin cfg1.N) : (iblk1 V c 5 t : S1x1024.Idx → EReal) = (V c main_v4 : S1x1024.Idx → EReal) := by
  obtain ⟨-, -, -, -, -, ⟨e0, e1⟩, -⟩ := idx_facts t
  funext y
  show (V c main_v4 : S1x1024.Idx → EReal) (((cfg1.win 5).blk t).view.emb y) = _
  congr 1
  funext a; apply Fin.ext
  match a with
  | ⟨0, _⟩ => show win1_5.index t (0 : Fin 2) * 1 + 1 * (y 0).val = (y 0).val; omega
  | ⟨1, _⟩ => show win1_5.index t (1 : Fin 2) * 1024 + 1 * (y 1).val = (y 1).val; omega

/-- What point `t` writes back is block `t` of `G`. -/
theorem flushed_eq (hpay : PayOk) (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7, blk1, blk2, blk3, blk4, blk5]
  obtain ⟨-, -, -, -, -, -, -, ⟨e0, e1⟩⟩ := idx_facts t
  have ht : t.val < 2 := hN ▸ t.isLt
  funext j
  show out1_7 (F := Ideal) (iblk1 V c 0 t) _ _ _ _ _ (iblk1 V c 6 t) (j : S512x1024.Idx) = G V c (((cfg1.win 7).blk t).view.emb j)
  have hj : (j : S512x1024.Idx) = ix2 (j 0) (j 1) := eq_ix2 (n0 := 512) (n1 := 1024) j
  have hp : (j 0 : Fin 512).val < 512 := (j 0).isLt
  have he : ((cfg1.win 7).blk t).view.emb j = (ix2 (⟨t.val * 512 + (j 0 : Fin 512).val, by omega⟩ : Fin 1024) (j 1 : Fin 1024) : S1024x1024.Idx) := by
    funext a; apply Fin.ext
    match a with
    | ⟨0, _⟩ => show win1_7.index t (0 : Fin 2) * 512 + 1 * (j 0).val = t.val * 512 + (j 0).val; omega
    | ⟨1, _⟩ => show win1_7.index t (1 : Fin 2) * 1024 + 1 * (j 1).val = (j 1).val; omega
  rw [he]
  refine (congrArg (fun y : S512x1024.Idx => out1_7 (F := Ideal) (iblk1 V c 0 t) (V c main_v13_1) (V c main_v11) (V c main_v2) (V c main_v3) (V c main_v4) (iblk1 V c 6 t) y) hj).trans ?_
  refine (hpay _ _ _ _ _ _ _ _ _).trans ?_
  exact congrArg₂ (fun f g => Cert.Spec.nodeRow f (fun k e => (V c main_v13_1 : S256x128.Idx → EReal) (ix2 k e)) (V c main_v11 : S1024x1024.Idx → EReal)
      (fun j' => (V c main_v2 : S1x1024.Idx → EReal) (ix2 0 j')) (fun j' => (V c main_v3 : S1x1024.Idx → EReal) (ix2 0 j'))
      (fun j' => (V c main_v4 : S1x1024.Idx → EReal) (ix2 0 j')) g (j 1))
    (funext fun k => blk0 V c t (j 0) k _ rfl) (funext fun k => blk6 V c t (j 0) k _ rfl)

/-- Every row of the array is in the block of the point its row number names. -/
theorem cover (c : Dev nD) (i : S1024x1024.Idx) :
    ∃ t : Fin cfg1.N, (cfg1.win 7).flush t = true ∧ i ∈ ((cfg1.win 7).blk t).view.set := by
  have h0 : (i 0 : Fin 1024).val < 1024 := (i 0).isLt
  have h1 : (i 1 : Fin 1024).val < 1024 := (i 1).isLt
  let t : Fin cfg1.N := ⟨(i 0 : Fin 1024).val / 512, by rw [hN]; omega⟩
  obtain ⟨-, -, -, -, -, -, -, ⟨e0, e1⟩⟩ := idx_facts t
  have e0' : win1_7.index t (0 : Fin 2) = (i 0 : Fin 1024).val / 512 := e0
  refine ⟨t, flush1_7 t, ?_⟩
  show i ∈ ((View.whole main_v14).slice (win1_7.rect t)).set
  rw [View.set_slice_whole, Rect.mem_set_unit]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 1024 ≤ (i 1).val ∧ (i 1).val < win1_7.index t (1 : Fin 2) * 1024 + 1024; omega

/-- The result array after the region. -/
theorem final (hpay : PayOk) (c : Dev nD) : (dat1 V c).arrAt 7 cfg1.N = G V c :=
  (dat1 V c).arrAt_eq_of_cover 7 (G V c) (fun t _ => flushed_eq V hpay c t) (cover c)

/-- When the region finds q and the projected keys of the arguments, the output projection through the identity format
    change, the three vectors as rows and the node features, its result is the node output of the arguments. -/
theorem G_eq (c : Dev nD) (nf wq : Cert.Spec.M2 1024 1024) (bq : Cert.Spec.V1 1024) (wtq : Cert.Spec.M2 1024 1024)
    (wtk : Cert.Spec.M2 1024 128) (pk : Cert.Spec.M2 1024 256) (wo : Cert.Spec.M2 1024 1024) (bo gn bn : Cert.Spec.V1 1024)
    (hq : (V c main_v13_0 : S1024x1024.Idx → EReal) = Cert.Spec.ofRC (Cert.Spec.q nf wq bq wtq))
    (hkp : (V c main_v13_1 : S256x128.Idx → EReal) = Cert.Spec.ofRC (Cert.Spec.kpA nf wq bq wtk pk))
    (hwo : (V c main_v11 : S1024x1024.Idx → EReal) = wo)
    (hbo : ∀ j : Fin 1024, (V c main_v2 : S1x1024.Idx → EReal) (ix2 0 j) = bo (ix1 j))
    (hgn : ∀ j : Fin 1024, (V c main_v3 : S1x1024.Idx → EReal) (ix2 0 j) = gn (ix1 j))
    (hbn : ∀ j : Fin 1024, (V c main_v4 : S1x1024.Idx → EReal) (ix2 0 j) = bn (ix1 j))
    (hnf : (V c main_arg0 : S1024x1024.Idx → EReal) = nf) :
    G V c = Cert.Spec.nodeOut nf wq bq wtq wtk pk wo bo gn bn := by
  unfold G Cert.Spec.nodeOut
  rw [hq, hkp, hwo, hnf]
  simp only [hbo, hgn, hbn, Cert.Spec.ofRC_ix2]

end Cert.KernelIdeal.NodeArr

end
-- ==== Proof.EdgeArr.lean ====
/-
  The edge region's result array after its 32 grid points.  Point t stages rows 1024·t … 1024·t + 1023 of the edge features
  (and the whole weight and the three rows), and writes back the same rows of the result; an entry of the body's stored
  block depends on ONE row of the feature block, so the blocks are the rows of one whole-array function, and they cover
  the array.
-/
import proofs.«163990_j74371653697775_2_alg».proof.Proof.Gen.KernelIdeal.Frame
import proofs.«163990_j74371653697775_2_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.EdgeArr

open Cert.KernelIdeal Cert.KernelIdeal.Gen

/-- The body's stored value at (p, c) is the edge row function of row p of its feature block. -/
def PayOk : Prop :=
  ∀ (x0 : Vec Ideal S1024x1024 .f32) (x1 : Vec Ideal S1024x1024 .bf16) (x2 x3 x4 : Vec Ideal S1x1024 .f32) (p c : Fin 1024),
    k2_pay1 (F := Ideal) x0 x1 x2 x3 x4 (ix2 p c)
      = Cert.Spec.edgeRow (fun k => x0 (ix2 p k)) x1 (fun j => x2 (ix2 0 j)) (fun j => x3 (ix2 0 j)) (fun j => x4 (ix2 0 j)) c

variable (V : (c : Dev nD) → (b : Ref sig .tc) → Buf (Elt Ideal) ((c : Thread nD τ).loc b))

theorem hz : (![0, 0] : Fin 2 → Nat) = fun _ => 0 := funext fun a => by fin_cases a <;> rfl

/-- The edge region's result array as a function of the arrays the region finds. -/
def G (c : Dev nD) : S32768x1024.Idx → EReal :=
  Cert.Spec.ofRC fun r col => Cert.Spec.edgeRow (fun k => (V c main_arg1 : S32768x1024.Idx → EReal) (ix2 r k))
    (V c main_v12 : S1024x1024.Idx → EReal)
    (fun j => (V c main_v1 : S1x1024.Idx → EReal) (ix2 0 j)) (fun j => (V c main_v5 : S1x1024.Idx → EReal) (ix2 0 j))
    (fun j => (V c main_v6 : S1x1024.Idx → EReal) (ix2 0 j)) col

theorem idx_facts : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem hN : cfg2.N = 32 := by decide

theorem blk0 (c : Dev nD) (t : Fin cfg2.N) (p k : Fin 1024) (r : Fin 32768) (hr : r.val = t.val * 1024 + p.val) :
    (iblk2 V c 0 t : S1024x1024.Idx → EReal) (ix2 p k) = (V c main_arg1 : S32768x1024.Idx → EReal) (ix2 r k) := by
  obtain ⟨e0, e1, -⟩ := idx_facts t
  show (V c main_arg1 : S32768x1024.Idx → EReal) (((cfg2.win 0).blk t).view.emb (ix2 p k)) = _
  congr 1
  funext a; apply Fin.ext
  match a with
  | ⟨0, _⟩ => show win2_0.index t (0 : Fin 2) * 1024 + 1 * p.val = r.val; omega
  | ⟨1, _⟩ => show win2_0.index t (1 : Fin 2) * 1024 + 1 * k.val = k.val; omega

theorem blk1 (c : Dev nD) (t : Fin cfg2.N) : (iblk2 V c 1 t : S1024x1024.Idx → EReal) = (V c main_v12 : S1024x1024.Idx → EReal) := by
  obtain ⟨-, -, -, -, e0, e1, -⟩ := idx_facts t
  funext y
  show (V c main_v12 : S1024x1024.Idx → EReal) (((cfg2.win 1).blk t).view.emb y) = _
  congr 1
  funext a; apply Fin.ext
  match a with
  | ⟨0, _⟩ => show win2_1.index t (0 : Fin 2) * 1024 + 1 * (y 0).val = (y 0).val; omega
  | ⟨1, _⟩ => show win2_1.index t (1 : Fin 2) * 1024 + 1 * (y 1).val = (y 1).val; omega

theorem blk2 (c : Dev nD) (t : Fin cfg2.N) : (iblk2 V c 2 t : S1x1024.Idx → EReal) = (V c main_v1 : S1x1024.Idx → EReal) := by
  obtain ⟨-, -, -, -, -, -, e0, e1, -⟩ := idx_facts t
  funext y
  show (V c main_v1 : S1x1024.Idx → EReal) (((cfg2.win 2).blk t).view.emb y) = _
  congr 1
  funext a; apply Fin.ext
  match a with
  | ⟨0, _⟩ => show win2_2.index t (0 : Fin 2) * 1 + 1 * (y 0).val = (y 0).val; omega
  | ⟨1, _⟩ => show win2_2.index t (1 : Fin 2) * 1024 + 1 * (y 1).val = (y 1).val; omega

theorem blk3 (c : Dev nD) (t : Fin cfg2.N) : (iblk2 V c 3 t : S1x1024.Idx → EReal) = (V c main_v5 : S1x1024.Idx → EReal) := by
  obtain ⟨-, -, -, -, -, -, -, -, e0, e1, -⟩ := idx_facts t
  funext y
  show (V c main_v5 : S1x1024.Idx → EReal) (((cfg2.win 3).blk t).view.emb y) = _
  congr 1
  funext a; apply Fin.ext
  match a with
  | ⟨0, _⟩ => show win2_3.index t (0 : Fin 2) * 1 + 1 * (y 0).val = (y 0).val; omega
  | ⟨1, _⟩ => show win2_3.index t (1 : Fin 2) * 1024 + 1 * (y 1).val = (y 1).val; omega

theorem blk4 (c : Dev nD) (t : Fin cfg2.N) : (iblk2 V c 4 t : S1x1024.Idx → EReal) = (V c main_v6 : S1x1024.Idx → EReal) := by
  obtain ⟨-, -, -, -, -, -, -, -, -, -, e0, e1⟩ := idx_facts t
  funext y
  show (V c main_v6 : S1x1024.Idx → EReal) (((cfg2.win 4).blk t).view.emb y) = _
  congr 1
  funext a; apply Fin.ext
  match a with
  | ⟨0, _⟩ => show win2_4.index t (0 : Fin 2) * 1 + 1 * (y 0).val = (y 0).val; omega
  | ⟨1, _⟩ => show win2_4.index t (1 : Fin 2) * 1024 + 1 * (y 1).val = (y 1).val; omega

/-- What point `t` writes back is block `t` of `G`. -/
theorem flushed_eq (hpay : PayOk) (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S1024x1024) hz, View.ld_unit_zero (S := S1x1024) hz]
  rw [blk1, blk2, blk3, blk4]
  obtain ⟨-, -, e0, e1, -⟩ := idx_facts t
  have ht : t.val < 32 := hN ▸ t.isLt
  funext j
  show k2_pay1 (F := Ideal) (iblk2 V c 0 t) _ _ _ _ (j : S1024x1024.Idx) = G V c (((cfg2.win 5).blk t).view.emb j)
  have hj : (j : S1024x1024.Idx) = ix2 (j 0) (j 1) := eq_ix2 (n0 := 1024) (n1 := 1024) j
  have hp : (j 0 : Fin 1024).val < 1024 := (j 0).isLt
  have he : ((cfg2.win 5).blk t).view.emb j = (ix2 (⟨t.val * 1024 + (j 0 : Fin 1024).val, by omega⟩ : Fin 32768) (j 1 : Fin 1024) : S32768x1024.Idx) := by
    funext a; apply Fin.ext
    match a with
    | ⟨0, _⟩ => show win2_5.index t (0 : Fin 2) * 1024 + 1 * (j 0).val = t.val * 1024 + (j 0).val; omega
    | ⟨1, _⟩ => show win2_5.index t (1 : Fin 2) * 1024 + 1 * (j 1).val = (j 1).val; omega
  rw [he]
  refine (congrArg (fun y : S1024x1024.Idx => k2_pay1 (F := Ideal) (iblk2 V c 0 t) (V c main_v12) (V c main_v1) (V c main_v5) (V c main_v6) y) hj).trans ?_
  refine (hpay _ _ _ _ _ _ _).trans ?_
  exact congrArg (fun f => Cert.Spec.edgeRow f (V c main_v12 : S1024x1024.Idx → EReal)
      (fun j' => (V c main_v1 : S1x1024.Idx → EReal) (ix2 0 j')) (fun j' => (V c main_v5 : S1x1024.Idx → EReal) (ix2 0 j'))
      (fun j' => (V c main_v6 : S1x1024.Idx → EReal) (ix2 0 j')) (j 1))
    (funext fun k => blk0 V c t (j 0) k _ rfl)

/-- Every row of the array is in the block of the point its row number names. -/
theorem cover (c : Dev nD) (i : S32768x1024.Idx) :
    ∃ t : Fin cfg2.N, (cfg2.win 5).flush t = true ∧ i ∈ ((cfg2.win 5).blk t).view.set := by
  have h0 : (i 0 : Fin 32768).val < 32768 := (i 0).isLt
  have h1 : (i 1 : Fin 1024).val < 1024 := (i 1).isLt
  let t : Fin cfg2.N := ⟨(i 0 : Fin 32768).val / 1024, by rw [hN]; omega⟩
  obtain ⟨-, -, e0, e1, -⟩ := idx_facts t
  have e0' : win2_5.index t (0 : Fin 2) = (i 0 : Fin 32768).val / 1024 := e0
  refine ⟨t, flush2_5 t, ?_⟩
  show i ∈ ((View.whole main_v15).slice (win2_5.rect t)).set
  rw [View.set_slice_whole, Rect.mem_set_unit]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 1024 ≤ (i 1).val ∧ (i 1).val < win2_5.index t (1 : Fin 2) * 1024 + 1024; omega

/-- The result array after the region. -/
theorem final (hpay : PayOk) (c : Dev nD) : (dat2 V c).arrAt 5 cfg2.N = G V c :=
  (dat2 V c).arrAt_eq_of_cover 5 (G V c) (fun t _ => flushed_eq V hpay c t) (cover c)

/-- When the region finds the arguments (the weight through the identity format change, the three vectors as rows), its
    result is the edge output of the arguments. -/
theorem G_eq (c : Dev nD) (a1 : Cert.Spec.M2 32768 1024) (a4 : Cert.Spec.M2 1024 1024) (a5 a13 a14 : Cert.Spec.V1 1024)
    (h1 : (V c main_arg1 : S32768x1024.Idx → EReal) = a1) (h4 : (V c main_v12 : S1024x1024.Idx → EReal) = a4)
    (h5 : ∀ j : Fin 1024, (V c main_v1 : S1x1024.Idx → EReal) (ix2 0 j) = a5 (ix1 j))
    (h13 : ∀ j : Fin 1024, (V c main_v5 : S1x1024.Idx → EReal) (ix2 0 j) = a13 (ix1 j))
    (h14 : ∀ j : Fin 1024, (V c main_v6 : S1x1024.Idx → EReal) (ix2 0 j) = a14 (ix1 j)) :
    G V c = Cert.Spec.edgeOut a1 a4 a5 a13 a14 := by
  unfold G Cert.Spec.edgeOut
  rw [h1, h4]
  simp only [h5, h13, h14]

end Cert.KernelIdeal.EdgeArr

end
-- ==== Proof.Whole.lean ====
/-
  The idealized kernel's two results as functions of its fifteen arguments.  The run leaves each result buffer at the
  last region boundary's contents.  Read backwards: the edge result is the third region's array, whose entry arrays are
  the arguments (the weight through the identity change of float format, the three vectors reshaped to rows); the node
  result is the second region's array, whose entry arrays are the first region's two results (q and the projected keys
  of the arguments), the output projection, three rows and the node features.
-/
import proofs.«163990_j74371653697775_2_alg».proof.Proof.RunAll
import proofs.«163990_j74371653697775_2_alg».proof.Proof.KprojArr
import proofs.«163990_j74371653697775_2_alg».proof.Proof.NodeArr
import proofs.«163990_j74371653697775_2_alg».proof.Proof.EdgeArr
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx Idealize.ShloMosaic.StableHlo

namespace Cert.KernelIdeal.Whole

open Cert.KernelIdeal Cert.KernelIdeal.Gen

variable (m : (ℓ : Loc nD τ sig) → Buf (Elt Ideal) ℓ) (ρ : Dev nD → PrngReg)

/-- A vector cast to one row, at (0, j), is its entry j. -/
theorem row_of_vec (x : Cert.Spec.V1 1024) (h : (⟨1, ![1024]⟩ : Shape).ShapeCasts ⟨2, ![1, 1024]⟩) (j : Fin 1024) :
    shapeCast ⟨2, ![1, 1024]⟩ x h (ix2 0 j) = x (ix1 j) := by
  refine (shapeCast_addUnit_apply ![1024] x h _).trans (congrArg x (funext fun a => ?_))
  match a with
  | ⟨0, _⟩ => rfl

/-! ## After the host stretch: seven vectors as rows, six matrices through the identity change of format -/

theorem W1_v0 (c : Dev nD) (j : Fin 1024) : (W1 m ρ c (Proc.devRef .tc main_v0) : S1x1024.Idx → EReal) (ix2 0 j)
    = (m ((c : Thread nD τ).loc main_arg3) : S1024.Idx → EReal) (ix1 j) := by
  have e : (W1 m ρ c (Proc.devRef .tc main_v0) : S1x1024.Idx → EReal)
      = shapeCast S1x1024 (m ((c : Thread nD τ).loc main_arg3)) shapeCasts_S1024_S1x1024 := by
    show StableHlo.after hostOps0 (W0 m ρ c) (Proc.devRef .tc main_v0) = _
    after_results
    rfl
  rw [e]
  exact row_of_vec _ _ j
theorem W1_v1 (c : Dev nD) (j : Fin 1024) : (W1 m ρ c (Proc.devRef .tc main_v1) : S1x1024.Idx → EReal) (ix2 0 j)
    = (m ((c : Thread nD τ).loc main_arg5) : S1024.Idx → EReal) (ix1 j) := by
  have e : (W1 m ρ c (Proc.devRef .tc main_v1) : S1x1024.Idx → EReal)
      = shapeCast S1x1024 (m ((c : Thread nD τ).loc main_arg5)) shapeCasts_S1024_S1x1024 := by
    show StableHlo.after hostOps0 (W0 m ρ c) (Proc.devRef .tc main_v1) = _
    after_results
    rfl
  rw [e]
  exact row_of_vec _ _ j
theorem W1_v2 (c : Dev nD) (j : Fin 1024) : (W1 m ρ c (Proc.devRef .tc main_v2) : S1x1024.Idx → EReal) (ix2 0 j)
    = (m ((c : Thread nD τ).loc main_arg10) : S1024.Idx → EReal) (ix1 j) := by
  have e : (W1 m ρ c (Proc.devRef .tc main_v2) : S1x1024.Idx → EReal)
      = shapeCast S1x1024 (m ((c : Thread nD τ).loc main_arg10)) shapeCasts_S1024_S1x1024 := by
    show StableHlo.after hostOps0 (W0 m ρ c) (Proc.devRef .tc main_v2) = _
    after_results
    rfl
  rw [e]
  exact row_of_vec _ _ j
theorem W1_v3 (c : Dev nD) (j : Fin 1024) : (W1 m ρ c (Proc.devRef .tc main_v3) : S1x1024.Idx → EReal) (ix2 0 j)
    = (m ((c : Thread nD τ).loc main_arg11) : S1024.Idx → EReal) (ix1 j) := by
  have e : (W1 m ρ c (Proc.devRef .tc main_v3) : S1x1024.Idx → EReal)
      = shapeCast S1x1024 (m ((c : Thread nD τ).loc main_arg11)) shapeCasts_S1024_S1x1024 := by
    show StableHlo.after hostOps0 (W0 m ρ c) (Proc.devRef .tc main_v3) = _
    after_results
    rfl
  rw [e]
  exact row_of_vec _ _ j
theorem W1_v4 (c : Dev nD) (j : Fin 1024) : (W1 m ρ c (Proc.devRef .tc main_v4) : S1x1024.Idx → EReal) (ix2 0 j)
    = (m ((c : Thread nD τ).loc main_arg12) : S1024.Idx → EReal) (ix1 j) := by
  have e : (W1 m ρ c (Proc.devRef .tc main_v4) : S1x1024.Idx → EReal)
      = shapeCast S1x1024 (m ((c : Thread nD τ).loc main_arg12)) shapeCasts_S1024_S1x1024 := by
    show StableHlo.after hostOps0 (W0 m ρ c) (Proc.devRef .tc main_v4) = _
    after_results
    rfl
  rw [e]
  exact row_of_vec _ _ j
theorem W1_v5 (c : Dev nD) (j : Fin 1024) : (W1 m ρ c (Proc.devRef .tc main_v5) : S1x1024.Idx → EReal) (ix2 0 j)
    = (m ((c : Thread nD τ).loc main_arg13) : S1024.Idx → EReal) (ix1 j) := by
  have e : (W1 m ρ c (Proc.devRef .tc main_v5) : S1x1024.Idx → EReal)
      = shapeCast S1x1024 (m ((c : Thread nD τ).loc main_arg13)) shapeCasts_S1024_S1x1024 := by
    show StableHlo.after hostOps0 (W0 m ρ c) (Proc.devRef .tc main_v5) = _
    after_results
    rfl
  rw [e]
  exact row_of_vec _ _ j
theorem W1_v6 (c : Dev nD) (j : Fin 1024) : (W1 m ρ c (Proc.devRef .tc main_v6) : S1x1024.Idx → EReal) (ix2 0 j)
    = (m ((c : Thread nD τ).loc main_arg14) : S1024.Idx → EReal) (ix1 j) := by
  have e : (W1 m ρ c (Proc.devRef .tc main_v6) : S1x1024.Idx → EReal)
      = shapeCast S1x1024 (m ((c : Thread nD τ).loc main_arg14)) shapeCasts_S1024_S1x1024 := by
    show StableHlo.after hostOps0 (W0 m ρ c) (Proc.devRef .tc main_v6) = _
    after_results
    rfl
  rw [e]
  exact row_of_vec _ _ j
theorem W1_v7 (c : Dev nD) : (W1 m ρ c (Proc.devRef .tc main_v7) : S1024x1024.Idx → EReal)
    = (m ((c : Thread nD τ).loc main_arg2) : S1024x1024.Idx → EReal) := by
  show StableHlo.after hostOps0 (W0 m ρ c) (Proc.devRef .tc main_v7) = _
  after_results
  rfl
theorem W1_v8 (c : Dev nD) : (W1 m ρ c (Proc.devRef .tc main_v8) : S1024x1024.Idx → EReal)
    = (m ((c : Thread nD τ).loc main_arg6) : S1024x1024.Idx → EReal) := by
  show StableHlo.after hostOps0 (W0 m ρ c) (Proc.devRef .tc main_v8) = _
  after_results
  rfl
theorem W1_v9 (c : Dev nD) : (W1 m ρ c (Proc.devRef .tc main_v9) : S1024x128.Idx → EReal)
    = (m ((c : Thread nD τ).loc main_arg7) : S1024x128.Idx → EReal) := by
  show StableHlo.after hostOps0 (W0 m ρ c) (Proc.devRef .tc main_v9) = _
  after_results
  rfl
theorem W1_v10 (c : Dev nD) : (W1 m ρ c (Proc.devRef .tc main_v10) : S1024x256.Idx → EReal)
    = (m ((c : Thread nD τ).loc main_arg8) : S1024x256.Idx → EReal) := by
  show StableHlo.after hostOps0 (W0 m ρ c) (Proc.devRef .tc main_v10) = _
  after_results
  rfl
theorem W1_v11 (c : Dev nD) : (W1 m ρ c (Proc.devRef .tc main_v11) : S1024x1024.Idx → EReal)
    = (m ((c : Thread nD τ).loc main_arg9) : S1024x1024.Idx → EReal) := by
  show StableHlo.after hostOps0 (W0 m ρ c) (Proc.devRef .tc main_v11) = _
  after_results
  rfl
theorem W1_v12 (c : Dev nD) : (W1 m ρ c (Proc.devRef .tc main_v12) : S1024x1024.Idx → EReal)
    = (m ((c : Thread nD τ).loc main_arg4) : S1024x1024.Idx → EReal) := by
  show StableHlo.after hostOps0 (W0 m ρ c) (Proc.devRef .tc main_v12) = _
  after_results
  rfl
theorem W1_arg0 (c : Dev nD) : (W1 m ρ c (Proc.devRef .tc main_arg0) : S1024x1024.Idx → EReal)
    = (m ((c : Thread nD τ).loc main_arg0) : S1024x1024.Idx → EReal) := by
  show StableHlo.after hostOps0 (W0 m ρ c) (Proc.devRef .tc main_arg0) = _
  after_results
theorem W1_arg1 (c : Dev nD) : (W1 m ρ c (Proc.devRef .tc main_arg1) : S32768x1024.Idx → EReal)
    = (m ((c : Thread nD τ).loc main_arg1) : S32768x1024.Idx → EReal) := by
  show StableHlo.after hostOps0 (W0 m ρ c) (Proc.devRef .tc main_arg1) = _
  after_results

/-! ## The first region's results -/

theorem V2_q (c : Dev nD) : (V2 m ρ c main_v13_0 : S1024x1024.Idx → EReal)
    = Cert.Spec.ofRC (Cert.Spec.q (m ((c : Thread nD τ).loc main_arg0)) (m ((c : Thread nD τ).loc main_arg2))
        (m ((c : Thread nD τ).loc main_arg3)) (m ((c : Thread nD τ).loc main_arg6))) := by
  refine (W2_arr m ρ c 6).trans ?_
  refine (KprojArr.final6 (V1 m ρ) (m ((c : Thread nD τ).loc main_arg3)) c (fun j => W1_v0 m ρ c j)).trans ?_
  unfold KprojArr.Gq
  rw [show (V1 m ρ c main_arg0 : S1024x1024.Idx → EReal) = _ from W1_arg0 m ρ c,
    show (V1 m ρ c main_v7 : S1024x1024.Idx → EReal) = _ from W1_v7 m ρ c,
    show (V1 m ρ c main_v8 : S1024x1024.Idx → EReal) = _ from W1_v8 m ρ c]

theorem V2_kp (c : Dev nD) : (V2 m ρ c main_v13_1 : S256x128.Idx → EReal)
    = Cert.Spec.ofRC (Cert.Spec.kpA (m ((c : Thread nD τ).loc main_arg0)) (m ((c : Thread nD τ).loc main_arg2))
        (m ((c : Thread nD τ).loc main_arg3)) (m ((c : Thread nD τ).loc main_arg7)) (m ((c : Thread nD τ).loc main_arg8))) := by
  refine (W2_arr m ρ c 7).trans ?_
  refine (KprojArr.final7 (V1 m ρ) (m ((c : Thread nD τ).loc main_arg3)) c (fun j => W1_v0 m ρ c j)).trans ?_
  unfold KprojArr.Gkp
  rw [show (V1 m ρ c main_arg0 : S1024x1024.Idx → EReal) = _ from W1_arg0 m ρ c,
    show (V1 m ρ c main_v7 : S1024x1024.Idx → EReal) = _ from W1_v7 m ρ c,
    show (V1 m ρ c main_v9 : S1024x128.Idx → EReal) = _ from W1_v9 m ρ c,
    show (V1 m ρ c main_v10 : S1024x256.Idx → EReal) = _ from W1_v10 m ρ c]

/-- The first region leaves its input arrays as it found them. -/
theorem V2_arg0 (c : Dev nD) : (V2 m ρ c main_arg0 : S1024x1024.Idx → EReal) = (m ((c : Thread nD τ).loc main_arg0) : S1024x1024.Idx → EReal) :=
  ((W2_arr m ρ c 0).trans (((dat0 (V1 m ρ) c).arrAt_in 0 rfl _).trans (A_eq0 (V1 m ρ) c 0))).trans (W1_arg0 m ρ c)

/-! ## The second region's result: the node output -/

theorem W3_v14 (hN : NodeArr.PayOk) (c : Dev nD) : (W3 m ρ c (Proc.devRef .tc main_v14) : S1024x1024.Idx → EReal)
    = Cert.Spec.nodeOut (m ((c : Thread nD τ).loc main_arg0)) (m ((c : Thread nD τ).loc main_arg2)) (m ((c : Thread nD τ).loc main_arg3))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) := by
  refine (W3_arr m ρ c 7).trans ?_
  refine (NodeArr.final (V2 m ρ) hN c).trans ?_
  exact NodeArr.G_eq (V2 m ρ) c _ _ _ _ _ _ _ _ _ _ (V2_q m ρ c) (V2_kp m ρ c)
    ((W2_of_ne m ρ c main_v11 (by decide)).trans (W1_v11 m ρ c))
    (fun j => (congrFun (W2_of_ne m ρ c main_v2 (by decide)) (ix2 0 j)).trans (W1_v2 m ρ c j))
    (fun j => (congrFun (W2_of_ne m ρ c main_v3 (by decide)) (ix2 0 j)).trans (W1_v3 m ρ c j))
    (fun j => (congrFun (W2_of_ne m ρ c main_v4 (by decide)) (ix2 0 j)).trans (W1_v4 m ρ c j))
    (V2_arg0 m ρ c)

/-! ## The third region's result: the edge output -/

theorem W4_v15 (hE : EdgeArr.PayOk) (c : Dev nD) : (W4 m ρ c (Proc.devRef .tc main_v15) : S32768x1024.Idx → EReal)
    = Cert.Spec.edgeOut (m ((c : Thread nD τ).loc main_arg1)) (m ((c : Thread nD τ).loc main_arg4)) (m ((c : Thread nD τ).loc main_arg5))
        (m ((c : Thread nD τ).loc main_arg13)) (m ((c : Thread nD τ).loc main_arg14)) := by
  refine (W4_arr m ρ c 5).trans ?_
  refine (EdgeArr.final (V3 m ρ) hE c).trans ?_
  exact EdgeArr.G_eq (V3 m ρ) c _ _ _ _ _
    (((W3_of_ne m ρ c main_arg1 (by decide)).trans (W2_of_ne m ρ c main_arg1 (by decide))).trans (W1_arg1 m ρ c))
    (((W3_of_ne m ρ c main_v12 (by decide)).trans (W2_of_ne m ρ c main_v12 (by decide))).trans (W1_v12 m ρ c))
    (fun j => (congrFun ((W3_of_ne m ρ c main_v1 (by decide)).trans (W2_of_ne m ρ c main_v1 (by decide))) (ix2 0 j)).trans (W1_v1 m ρ c j))
    (fun j => (congrFun ((W3_of_ne m ρ c main_v5 (by decide)).trans (W2_of_ne m ρ c main_v5 (by decide))) (ix2 0 j)).trans (W1_v5 m ρ c j))
    (fun j => (congrFun ((W3_of_ne m ρ c main_v6 (by decide)).trans (W2_of_ne m ρ c main_v6 (by decide))) (ix2 0 j)).trans (W1_v6 m ρ c j))

/-! ## The run -/

/-- Every weakly fair execution of the idealized kernel terminates with the node result at the node output of the
    arguments, the edge result at the edge output of the arguments, and the arguments unchanged. -/
theorem run (hN : NodeArr.PayOk) (hE : EdgeArr.PayOk) :
    θ_run defs (onTc (τ := τ) (main (F := Ideal))) ⟨m, fun _ => 0, ρ⟩ (fun r => ∀ c : Dev nD,
      r.2.mem ((c.tc : Thread nD τ).loc main_v14)
        = Cert.Spec.nodeOut (m ((c : Thread nD τ).loc main_arg0)) (m ((c : Thread nD τ).loc main_arg2)) (m ((c : Thread nD τ).loc main_arg3))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11))
            (m ((c : Thread nD τ).loc main_arg12))
      ∧ r.2.mem ((c.tc : Thread nD τ).loc main_v15)
        = Cert.Spec.edgeOut (m ((c : Thread nD τ).loc main_arg1)) (m ((c : Thread nD τ).loc main_arg4)) (m ((c : Thread nD τ).loc main_arg5))
            (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c).1.trans ((W4_of_ne m ρ c main_v14 (by decide)).trans (W3_v14 m ρ hN c)),
     (h c).2.1.trans (W4_v15 m ρ hE c), (h c).2.2⟩)
    (RunAll.run_all (F := Ideal) m ρ)

end Cert.KernelIdeal.Whole

end
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.HeadSum.lean ====
/-
  A row of 1024 entries is eight heads of 128 lanes laid side by side: entry j belongs to head j / 128 at lane j % 128,
  and head h's lane e is entry h·128 + e.  So a sum over the 1024 entries of a function of (head, lane) is the sum over
  the heads of the sums over the lanes; and eight such lane sums added one after another to the zero word (which is 0)
  give that same total.  Only commutativity and associativity of addition on the extended reals are used.
-/
import proofs.«163990_j74371653697775_2_alg».proof.Proof.Spec
import proofs.«163990_j74371653697775_2_alg».proof.Proof.LibSumBlocks
import Idealize.ShloMosaic.PureOps.Ideal.Laws

noncomputable section

namespace Cert.HeadSum

open Idealize.ShloMosaic Cert.Spec

/-- The head of entry h·128 + e is h. -/
theorem hOf_hd (h : Fin 8) (e : Fin 128) : hOf (hd h e) = h := Fin.ext (by
  show (h.val * 128 + e.val) / 128 = h.val
  have := e.isLt
  omega)

/-- The lane of entry h·128 + e is e. -/
theorem eOf_hd (h : Fin 8) (e : Fin 128) : eOf (hd h e) = e := Fin.ext (by
  show (h.val * 128 + e.val) % 128 = e.val
  have := e.isLt
  omega)

/-- Entry j is lane j % 128 of head j / 128. -/
theorem hd_hOf_eOf (j : Fin 1024) : hd (hOf j) (eOf j) = j := Fin.ext (by
  show j.val / 128 * 128 + j.val % 128 = j.val
  omega)

/-- A sum over the 1024 entries of a function of (head, lane) is the double sum over heads and lanes. -/
theorem sum_heads (F : Fin 8 → Fin 128 → EReal) :
    ∑ j : Fin 1024, F (hOf j) (eOf j) = ∑ h : Fin 8, ∑ e : Fin 128, F h e := by
  rw [Cert.SumBlocks.sum_fin_blocks 8 128 (by norm_num : 1024 = 8 * 128) (fun j => F (hOf j) (eOf j))]
  refine Finset.sum_congr rfl fun h _ => Finset.sum_congr rfl fun e _ => ?_
  show F (hOf (hd h e)) (eOf (hd h e)) = F h e
  rw [hOf_hd, eOf_hd]

/-- Eight terms added one after another to the zero word are their sum. -/
theorem acc8 (P : Fin 8 → EReal) :
    ((((((((Ideal.ofBits .f32 0x00000000#32 + P 0) + P 1) + P 2) + P 3) + P 4) + P 5) + P 6) + P 7)
      = ∑ h : Fin 8, P h := by
  rw [Ideal.ofBits_zero_f32, zero_add, Fin.sum_univ_eight]

/-- Eight heads' lane sums added one after another to the zero word are the sum over the row of 1024. -/
theorem acc_eq (F : Fin 8 → Fin 128 → EReal) :
    ((((((((Ideal.ofBits .f32 0x00000000#32 + ∑ e, F 0 e) + ∑ e, F 1 e) + ∑ e, F 2 e) + ∑ e, F 3 e) + ∑ e, F 4 e)
        + ∑ e, F 5 e) + ∑ e, F 6 e) + ∑ e, F 7 e)
      = ∑ j : Fin 1024, F (hOf j) (eOf j) := by
  rw [sum_heads]
  exact acc8 fun h => ∑ e, F h e

end Cert.HeadSum

end
-- ==== Proof.NodeTail.lean ====
/-
  The node kernel's last stored value, read one entry at a time: the layer norm that ends the node path.

  The block X holds the attention output through the output projection, S its row sums kept as a column.  For the row p
  the mean is S[p] divided by the word of 1024, the row is centred, the sum of the squares of the centred row is divided
  by the same word, rsqrt(var + eps) is spread back over the row, then come the scale row, the shift row and the node's
  own features.  Each stage is a function of the arrays before it; read at the entry (p, c), with S[p] the sum of row p of
  X, they are the specification's row functions of that row.
-/
import proofs.«163990_j74371653697775_2_alg».proof.Proof.Gen.KernelIdeal.Skeleton
import proofs.«163990_j74371653697775_2_alg».proof.Proof.Spec
import proofs.«163990_j74371653697775_2_alg».proof.Proof.LibSoftmaxRow
import Idealize.ShloMosaic.Lib.ValueLayout

noncomputable section

namespace Cert.NodeTail

open Idealize.ShloMosaic Idealize.ShloMosaic.ValueIdx Cert.KernelIdeal Cert.KernelIdeal.Gen Cert.Spec

/-! ## The stages as functions of the arrays before them -/

/-- The column of row sums divided by the word of 1024. -/
def avgCol (S : FVec Ideal S512x1 .f32) : FVec Ideal S512x1 .f32 :=
  divf S (broadcast S512x1 (Scalar.ofBits (F := Ideal) .f32 0x44800000#32))

/-- The block minus each row's mean. -/
def centred (X : FVec Ideal S512x1024 .f32) (S : FVec Ideal S512x1 .f32) : FVec Ideal S512x1024 .f32 :=
  subf X (broadcastTo S512x1024 (avgCol S) broadcasts_S512x1_S512x1024)

/-- Each row's variance: the sum of the squared centred row, kept as a column, divided by the word of 1024. -/
def varCol (X : FVec Ideal S512x1024 .f32) (S : FVec Ideal S512x1 .f32) : FVec Ideal S512x1 .f32 :=
  divf (shapeCast S512x1 (multiReduction (F := Ideal) .add [1] S512 (mulf (centred X S) (centred X S)) 0x00000000#32
      reduces_S512x1024_S512 (.inl rfl) rfl) shapeCasts_S512_S512x1)
    (broadcast S512x1 (Scalar.ofBits (F := Ideal) .f32 0x44800000#32))

/-- The reciprocal square root of each row's variance plus epsilon. -/
def rstdCol (X : FVec Ideal S512x1024 .f32) (S : FVec Ideal S512x1 .f32) : FVec Ideal S512x1 .f32 :=
  rsqrt (addf (varCol X S) (broadcast S512x1 (Scalar.ofBits (F := Ideal) .f32 0x3727C5AC#32)))

/-- The layer norm of the block with scale row `v7` and shift row `v9`, plus `v235`. -/
def outV (v7 v9 : FVec Ideal S1x1024 .f32) (X : FVec Ideal S512x1024 .f32) (S : FVec Ideal S512x1 .f32)
    (v235 : FVec Ideal S512x1024 .f32) : FVec Ideal S512x1024 .f32 :=
  addf (addf (mulf (mulf (centred X S) (broadcastTo S512x1024 (rstdCol X S) broadcasts_S512x1_S512x1024))
        (broadcastTo S512x1024 v7 broadcasts_S1x1024_S512x1024))
      (broadcastTo S512x1024 v9 broadcasts_S1x1024_S512x1024)) v235

/-- The stored value is the stages composed. -/
theorem pay_eq (v7 v9 : FVec Ideal S1x1024 .f32) (X : FVec Ideal S512x1024 .f32) (S : FVec Ideal S512x1 .f32)
    (v235 : Vec Ideal S512x1024 .f32) :
    k1_pay1 (F := Ideal) v7 v9 X S v235 = outV v7 v9 X S v235 := rfl

/-! ## The stages at an entry, the column `S` holding the row sums of `X` -/

section
variable (X : FVec Ideal S512x1024 .f32) (S : FVec Ideal S512x1 .f32)
  (hS : ∀ p : Fin 512, S (ix2 p 0) = ∑ k : Fin 1024, X (ix2 p k))
include hS

/-- Row p's mean. -/
theorem avgCol_apply (p : Fin 512) : avgCol S (ix2 p 0) = mean (fun k => X (ix2 p k)) := by
  unfold avgCol
  rw [divf_apply, hS]
  rfl

/-- The centred block at (p, c). -/
theorem centred_apply (p : Fin 512) (c : Fin 1024) :
    centred X S (ix2 p c) = X (ix2 p c) - mean (fun k => X (ix2 p k)) := by
  unfold centred
  rw [subf_apply, Cert.LibSoftmaxRow.broadcastTo_a1_ab_apply, avgCol_apply X S hS]

/-- Row p's variance. -/
theorem varCol_apply (p : Fin 512) : varCol X S (ix2 p 0) = var (fun k => X (ix2 p k)) := by
  unfold varCol
  rw [divf_apply]
  have hsum : shapeCast S512x1 (multiReduction (F := Ideal) .add [1] S512 (mulf (centred X S) (centred X S)) 0x00000000#32
        reduces_S512x1024_S512 (.inl rfl) rfl) shapeCasts_S512_S512x1 (ix2 p 0)
      = ∑ k : Fin 1024, mulf (centred X S) (centred X S) (ix2 p k) :=
    (Cert.LibSoftmaxRow.shapeCast_a_a1_apply _ shapeCasts_S512_S512x1 p 0).trans
      (Cert.LibSoftmaxRow.multiReduction_add_row (mulf (centred X S) (centred X S)) _ reduces_S512x1024_S512 (.inl rfl) rfl p)
  rw [hsum]
  show Ideal.div (∑ k : Fin 1024, mulf (centred X S) (centred X S) (ix2 p k)) cnt
    = Ideal.div (∑ k : Fin 1024, (X (ix2 p k) - mean (fun j => X (ix2 p j))) * (X (ix2 p k) - mean (fun j => X (ix2 p j)))) cnt
  refine congrArg (fun s => Ideal.div s cnt) (Finset.sum_congr rfl fun k _ => ?_)
  rw [mulf_apply, centred_apply X S hS]

/-- The reciprocal square root of row p's variance plus epsilon. -/
theorem rstdCol_apply (p : Fin 512) :
    rstdCol X S (ix2 p 0) = Ideal.rsqrt (var (fun k => X (ix2 p k)) + eps) := by
  unfold rstdCol
  show Ideal.rsqrt (varCol X S (ix2 p 0) + eps) = _
  rw [varCol_apply X S hS]

/-- The last stage at (p, c): the layer norm of row p of `X`, plus `v235` there. -/
theorem outV_apply (v7 v9 : FVec Ideal S1x1024 .f32) (v235 : FVec Ideal S512x1024 .f32) (p : Fin 512) (c : Fin 1024) :
    outV v7 v9 X S v235 (ix2 p c)
      = lnRow (fun k => X (ix2 p k)) (fun j => v7 (ix2 0 j)) (fun j => v9 (ix2 0 j)) c + v235 (ix2 p c) := by
  unfold outV
  rw [addf_apply, addf_apply, mulf_apply, mulf_apply, centred_apply X S hS, Cert.LibSoftmaxRow.broadcastTo_a1_ab_apply,
    rstdCol_apply X S hS, broadcastTo_1b_ab_apply, broadcastTo_1b_ab_apply]
  rfl

end

/-! ## The stored value at an entry -/

/-- The node kernel's last stored value at (p, c) is the layer norm of row p of `X` at column c plus the node's own
    feature there, when the column `S` holds the row sums of `X`. -/
theorem tail_apply (v7 v9 : FVec Ideal S1x1024 .f32) (X : FVec Ideal S512x1024 .f32) (S : FVec Ideal S512x1 .f32)
    (v235 : Vec Ideal S512x1024 .f32)
    (hS : ∀ p : Fin 512, S (ValueIdx.ix2 p 0) = ∑ k : Fin 1024, X (ValueIdx.ix2 p k)) (p : Fin 512) (c : Fin 1024) :
    Cert.KernelIdeal.Gen.k1_pay1 (F := Ideal) v7 v9 X S v235 (ValueIdx.ix2 p c)
      = Cert.Spec.lnRow (fun k => X (ValueIdx.ix2 p k)) (fun j => v7 (ValueIdx.ix2 0 j)) (fun j => v9 (ValueIdx.ix2 0 j)) c
        + v235 (ValueIdx.ix2 p c) := by
  rw [pay_eq]
  exact outV_apply X S hS v7 v9 v235 p c

end Cert.NodeTail

end
-- ==== Proof.NodeLoads.lean ====
/-
  The node-attention body's loads, read.

  A load through a unit-stride rectangle reads the array at the rectangle's offset plus the local index. The body's loads
  of its whole blocks (rectangles at offset zero that span the array) therefore read the arrays themselves, and its eight
  loads of 128-row bands of the output-projection matrix read rows off + e of it, off = 0, 128, …, 896. With the one
  store spanning the output block, what the body leaves there is its payload chain applied to the arrays and the eight
  bands.
-/
import proofs.«163990_j74371653697775_2_alg».proof.Proof.Gen.KernelIdeal.Frame
import Idealize.ShloMosaic.Lib.Pipeline.Value
import Idealize.ShloMosaic.Lib.ValueIdx

noncomputable section

namespace Cert.NodeLoads

open Cert.KernelIdeal Cert.KernelIdeal.Gen Idealize.ShloMosaic Idealize.ShloMosaic.ValueIdx

/-! ## The eight bands of the output-projection matrix -/

/-- A 128-row band at row offset `off`: entry (e, c) of the load is entry (off + e, c) of the matrix. -/
theorem band (off : Nat) (hoff : off + 128 ≤ 1024)
    (inb : ∀ a, (![off, 0] : Fin 2 → Nat) a + S128x1024.size a ≤ S1024x1024.size a)
    (x2 : Vec Ideal S1024x1024 .bf16) (e : Fin 128) (c : Fin 1024) :
    View.ld x2 (Rect.unit (s := S1024x1024) ![off, 0] S128x1024.size inb) (ix2 e c)
      = x2 (ix2 (⟨off + e.val, by omega⟩ : Fin 1024) c) := by
  refine congrArg x2 (funext fun a => Fin.ext ?_)
  match a with
  | ⟨0, _⟩ => show off + 1 * e.val = off + e.val; rw [Nat.one_mul]
  | ⟨1, _⟩ => show 0 + 1 * c.val = c.val; rw [Nat.one_mul, Nat.zero_add]

theorem band3 (x2 : Vec Ideal S1024x1024 .bf16) (e : Fin 128) (c : Fin 1024) :
    View.ld x2 r1_3 (ix2 e c) = x2 (ix2 (⟨0 + e.val, by omega⟩ : Fin 1024) c) :=
  band 0 (by omega) _ x2 e c
theorem band4 (x2 : Vec Ideal S1024x1024 .bf16) (e : Fin 128) (c : Fin 1024) :
    View.ld x2 r1_4 (ix2 e c) = x2 (ix2 (⟨128 + e.val, by omega⟩ : Fin 1024) c) :=
  band 128 (by omega) _ x2 e c
theorem band5 (x2 : Vec Ideal S1024x1024 .bf16) (e : Fin 128) (c : Fin 1024) :
    View.ld x2 r1_5 (ix2 e c) = x2 (ix2 (⟨256 + e.val, by omega⟩ : Fin 1024) c) :=
  band 256 (by omega) _ x2 e c
theorem band6 (x2 : Vec Ideal S1024x1024 .bf16) (e : Fin 128) (c : Fin 1024) :
    View.ld x2 r1_6 (ix2 e c) = x2 (ix2 (⟨384 + e.val, by omega⟩ : Fin 1024) c) :=
  band 384 (by omega) _ x2 e c
theorem band7 (x2 : Vec Ideal S1024x1024 .bf16) (e : Fin 128) (c : Fin 1024) :
    View.ld x2 r1_7 (ix2 e c) = x2 (ix2 (⟨512 + e.val, by omega⟩ : Fin 1024) c) :=
  band 512 (by omega) _ x2 e c
theorem band8 (x2 : Vec Ideal S1024x1024 .bf16) (e : Fin 128) (c : Fin 1024) :
    View.ld x2 r1_8 (ix2 e c) = x2 (ix2 (⟨640 + e.val, by omega⟩ : Fin 1024) c) :=
  band 640 (by omega) _ x2 e c
theorem band9 (x2 : Vec Ideal S1024x1024 .bf16) (e : Fin 128) (c : Fin 1024) :
    View.ld x2 r1_9 (ix2 e c) = x2 (ix2 (⟨768 + e.val, by omega⟩ : Fin 1024) c) :=
  band 768 (by omega) _ x2 e c
theorem band10 (x2 : Vec Ideal S1024x1024 .bf16) (e : Fin 128) (c : Fin 1024) :
    View.ld x2 r1_10 (ix2 e c) = x2 (ix2 (⟨896 + e.val, by omega⟩ : Fin 1024) c) :=
  band 896 (by omega) _ x2 e c

/-! ## The output block after the body -/

/-- The zero offsets, however spelt. -/
theorem hz : (![0, 0] : Fin 2 → Nat) = fun _ => 0 := by
  funext a; fin_cases a <;> rfl

/-- What the body leaves in the output block: its payload chain on the whole arrays and the eight bands. -/
theorem out_open (x0 : Vec Ideal S512x1024 .f32) (x1 : Vec Ideal S256x128 .f32) (x2 : Vec Ideal S1024x1024 .bf16)
    (x3 x4 x5 : Vec Ideal S1x1024 .f32) (x6 : Vec Ideal S512x1024 .f32) :
    out1_7 (F := Ideal) x0 x1 x2 x3 x4 x5 x6
      = k1_pay1 (k1_pay5 x4) (k1_pay6 x5) (k1_pay18 (k1_pay2 x0) (k1_pay3 x1) (k1_pay4 x3) (k1_pay15 (k1_pay2 x0) (k1_pay3 x1) (k1_pay12 (k1_pay2 x0) (k1_pay3 x1) (k1_pay10 (k1_pay3 x1) (k1_pay7 x0 x1 (View.ld x2 r1_3)) (k1_pay8 x1) (k1_pay9 x0) (View.ld x2 r1_4)) (k1_pay11 (k1_pay2 x0) (k1_pay3 x1)) (View.ld x2 r1_5) (View.ld x2 r1_6)) (k1_pay13 (k1_pay2 x0) (k1_pay3 x1)) (k1_pay14 (k1_pay2 x0) (k1_pay3 x1)) (View.ld x2 r1_7) (View.ld x2 r1_8)) (k1_pay16 (k1_pay2 x0) (k1_pay3 x1)) (k1_pay17 (k1_pay2 x0) (k1_pay3 x1)) (View.ld x2 r1_9) (View.ld x2 r1_10)) (k1_pay19 (k1_pay2 x0) (k1_pay3 x1) (k1_pay4 x3) (k1_pay15 (k1_pay2 x0) (k1_pay3 x1) (k1_pay12 (k1_pay2 x0) (k1_pay3 x1) (k1_pay10 (k1_pay3 x1) (k1_pay7 x0 x1 (View.ld x2 r1_3)) (k1_pay8 x1) (k1_pay9 x0) (View.ld x2 r1_4)) (k1_pay11 (k1_pay2 x0) (k1_pay3 x1)) (View.ld x2 r1_5) (View.ld x2 r1_6)) (k1_pay13 (k1_pay2 x0) (k1_pay3 x1)) (k1_pay14 (k1_pay2 x0) (k1_pay3 x1)) (View.ld x2 r1_7) (View.ld x2 r1_8)) (k1_pay16 (k1_pay2 x0) (k1_pay3 x1)) (k1_pay17 (k1_pay2 x0) (k1_pay3 x1)) (View.ld x2 r1_9) (View.ld x2 r1_10)) x6 := by
  unfold out1_7
  rw [View.canon_unit_zero hz]
  simp only [View.ld_unit_zero (S := S512x1024) hz, View.ld_unit_zero (S := S256x128) hz,
    View.ld_unit_zero (S := S1x1024) hz]

/-! ## The same, with the repeated sub-terms named -/

/-- The chain through its payload 10: fed by the bands at row offsets 0 and 128. -/
abbrev s10 (x0 : Vec Ideal S512x1024 .f32) (x1 : Vec Ideal S256x128 .f32) (x2 : Vec Ideal S1024x1024 .bf16) :=
  k1_pay10 (k1_pay3 x1) (k1_pay7 x0 x1 (View.ld x2 r1_3)) (k1_pay8 x1) (k1_pay9 x0) (View.ld x2 r1_4)

/-- The chain through its payload 12: the bands at row offsets 256 and 384 enter. -/
abbrev s12 (x0 : Vec Ideal S512x1024 .f32) (x1 : Vec Ideal S256x128 .f32) (x2 : Vec Ideal S1024x1024 .bf16) :=
  k1_pay12 (k1_pay2 x0) (k1_pay3 x1) (s10 x0 x1 x2) (k1_pay11 (k1_pay2 x0) (k1_pay3 x1)) (View.ld x2 r1_5) (View.ld x2 r1_6)

/-- The chain through its payload 15: the bands at row offsets 512 and 640 enter. -/
abbrev s15 (x0 : Vec Ideal S512x1024 .f32) (x1 : Vec Ideal S256x128 .f32) (x2 : Vec Ideal S1024x1024 .bf16) :=
  k1_pay15 (k1_pay2 x0) (k1_pay3 x1) (s12 x0 x1 x2) (k1_pay13 (k1_pay2 x0) (k1_pay3 x1)) (k1_pay14 (k1_pay2 x0) (k1_pay3 x1))
    (View.ld x2 r1_7) (View.ld x2 r1_8)

/-- The chain through its payload 18: the bands at row offsets 768 and 896 enter, and the third row vector. -/
abbrev s18 (x0 : Vec Ideal S512x1024 .f32) (x1 : Vec Ideal S256x128 .f32) (x2 : Vec Ideal S1024x1024 .bf16)
    (x3 : Vec Ideal S1x1024 .f32) :=
  k1_pay18 (k1_pay2 x0) (k1_pay3 x1) (k1_pay4 x3) (s15 x0 x1 x2) (k1_pay16 (k1_pay2 x0) (k1_pay3 x1))
    (k1_pay17 (k1_pay2 x0) (k1_pay3 x1)) (View.ld x2 r1_9) (View.ld x2 r1_10)

/-- Payload 19 on the same operands as payload 18. -/
abbrev s19 (x0 : Vec Ideal S512x1024 .f32) (x1 : Vec Ideal S256x128 .f32) (x2 : Vec Ideal S1024x1024 .bf16)
    (x3 : Vec Ideal S1x1024 .f32) :=
  k1_pay19 (k1_pay2 x0) (k1_pay3 x1) (k1_pay4 x3) (s15 x0 x1 x2) (k1_pay16 (k1_pay2 x0) (k1_pay3 x1))
    (k1_pay17 (k1_pay2 x0) (k1_pay3 x1)) (View.ld x2 r1_9) (View.ld x2 r1_10)

/-- What the body leaves in the output block, with the sub-terms named. -/
theorem out_open_named (x0 : Vec Ideal S512x1024 .f32) (x1 : Vec Ideal S256x128 .f32) (x2 : Vec Ideal S1024x1024 .bf16)
    (x3 x4 x5 : Vec Ideal S1x1024 .f32) (x6 : Vec Ideal S512x1024 .f32) :
    out1_7 (F := Ideal) x0 x1 x2 x3 x4 x5 x6
      = k1_pay1 (k1_pay5 x4) (k1_pay6 x5) (s18 x0 x1 x2 x3) (s19 x0 x1 x2 x3) x6 :=
  out_open x0 x1 x2 x3 x4 x5 x6

end Cert.NodeLoads

end
-- ==== Proof.NodeKernel.lean ====
/-
  The node attention kernel's stored block, entry by entry, is the node row of the specification.

  For a block of 512 rows of q, the 256 projected keys kp (shared as values), the output projection wo in eight bands
  of 128 rows, the rows bo, gn, bn and the block's own node features: for each head h the scores of a row are the
  row's 128 columns of that head against each key, scaled; the attention is the softmax of the 256 scores with the
  maximum folded from −∞; the head's output is the attention against kp; the accumulator, started at the zero word,
  gains the head's output through band h of wo.  The eight contributions add up to the sum over all 1024 rows of wo of
  (head j / 128, lane j % 128 of the head outputs) times wo: a sum on the extended reals is a sum in a commutative
  monoid, so the grouping by bands does not matter and nothing need be finite.  Then bo is added, the row goes through
  the layer norm (mean and variance as sums divided by the word of 1024, the reciprocal square root of variance plus
  epsilon), is scaled by gn, shifted by bn, and the row of node features is added.
-/
import proofs.«163990_j74371653697775_2_alg».proof.Proof.Gen.KernelIdeal.Frame
import proofs.«163990_j74371653697775_2_alg».proof.Proof.Spec
import proofs.«163990_j74371653697775_2_alg».proof.Proof.LibDense
import proofs.«163990_j74371653697775_2_alg».proof.Proof.LibDotNT
import proofs.«163990_j74371653697775_2_alg».proof.Proof.LibSoftmaxRow
import proofs.«163990_j74371653697775_2_alg».proof.Proof.HeadSum
import proofs.«163990_j74371653697775_2_alg».proof.Proof.NodeTail
import proofs.«163990_j74371653697775_2_alg».proof.Proof.NodeLoads
import Idealize.ShloMosaic.Lib.ValueLayout

noncomputable section

namespace Cert.NodeKernel

open Idealize.ShloMosaic Idealize.ShloMosaic.ValueIdx Cert.KernelIdeal Cert.KernelIdeal.Gen
open Cert.LibSoftmaxRow (rowMax expShift softmax)

/-! ## The vector unit's steps of one head, each read at an entry -/

/-- The scaled scores: rows of `a` against rows of `b`, times the scale word. -/
def scoreV (a : FVec Ideal S512x128 .bf16) (b : FVec Ideal S256x128 .bf16) : FVec Ideal S512x256 .f32 :=
  mulf (matmul dot_S512x128_S256x128_S512x256_1_1_0_0_n_n none a b (constant S512x256 .f32 0x00000000#32))
    (broadcast S512x256 (Scalar.ofBits .f32 0x3DB504F3#32))

theorem scoreV_apply (a : FVec Ideal S512x128 .bf16) (b : FVec Ideal S256x128 .bf16) (p : Fin 512) (k : Fin 256) :
    scoreV a b (ix2 p k) = (∑ e : Fin 128, a (ix2 p e) * b (ix2 k e)) * Spec.scale :=
  congrArg (· * Spec.scale) (Cert.LibDotNT.matmul_tr (M := 512) (K := 128) (N := 256) a b (ix2 p k))

/-- The row maximum folded from −∞. -/
def maxV (s : FVec Ideal S512x256 .f32) : FVec Ideal S512 .f32 :=
  maximumf (broadcast S512 (Scalar.ofBits .f32 0xFF800000#32))
    (multiReduction .maximumf [1] S512 s 0xFF800000#32 reduces_S512x256_S512 (.inl rfl) rfl)

theorem maxV_apply (s : FVec Ideal S512x256 .f32) (p : Fin 512) :
    maxV s (ix1 p) = rowMax Spec.negInf fun k : Fin 256 => s (ix2 p k) :=
  (congrArg (max (Ideal.ofBits .f32 0xFF800000#32))
    (Cert.LibSoftmaxRow.multiReduction_max_row (a := 512) (n := 256) s 0xFF800000#32 reduces_S512x256_S512 (.inl rfl) rfl p)).trans
    (Cert.LibSoftmaxRow.max_negInf _)

/-- The scores shifted by the row maximum, exponentiated. -/
def expV (s : FVec Ideal S512x256 .f32) (m : FVec Ideal S512 .f32) : FVec Ideal S512x256 .f32 :=
  exp (subf s (broadcastTo S512x256 (shapeCast S512x1 m shapeCasts_S512_S512x1) broadcasts_S512x1_S512x256))

theorem expV_apply (s : FVec Ideal S512x256 .f32) (m : FVec Ideal S512 .f32) (p : Fin 512) (k : Fin 256) :
    expV s m (ix2 p k) = Ideal.exp (s (ix2 p k) - m (ix1 p)) :=
  congrArg (fun t => Ideal.exp (s (ix2 p k) - t))
    ((Cert.LibSoftmaxRow.broadcastTo_a1_ab_apply (a := 512) (b := 256) _ broadcasts_S512x1_S512x256 p k).trans
      (Cert.LibSoftmaxRow.shapeCast_a_a1_apply (a := 512) m shapeCasts_S512_S512x1 p 0))

/-- The row sum of the exponentials, spread back over the row. -/
def sumV (e : FVec Ideal S512x256 .f32) : FVec Ideal S512x256 .f32 :=
  broadcastTo S512x256
    (shapeCast S512x1 (multiReduction .add [1] S512 e 0x00000000#32 reduces_S512x256_S512 (.inl rfl) rfl) shapeCasts_S512_S512x1)
    broadcasts_S512x1_S512x256

theorem sumV_apply (e : FVec Ideal S512x256 .f32) (p : Fin 512) (k : Fin 256) :
    sumV e (ix2 p k) = ∑ k' : Fin 256, e (ix2 p k') :=
  (Cert.LibSoftmaxRow.broadcastTo_a1_ab_apply (a := 512) (b := 256) _ broadcasts_S512x1_S512x256 p k).trans
    ((Cert.LibSoftmaxRow.shapeCast_a_a1_apply (a := 512) _ shapeCasts_S512_S512x1 p 0).trans
      (Cert.LibSoftmaxRow.multiReduction_add_row (a := 512) (n := 256) e 0x00000000#32 reduces_S512x256_S512 (.inl rfl) rfl p))

/-- The attention against the projected keys as values. -/
def outV (a : FVec Ideal S512x256 .f32) (kp : FVec Ideal S256x128 .f32) : FVec Ideal S512x128 .f32 :=
  matmul dot_S512x256_S256x128_S512x128_1_0_0_1_n_n none (truncf .bf16 a bitsLt_bf16_f32) (truncf .bf16 kp bitsLt_bf16_f32)
    (constant S512x128 .f32 0x00000000#32)

theorem outV_apply (a : FVec Ideal S512x256 .f32) (kp : FVec Ideal S256x128 .f32) (p : Fin 512) (e : Fin 128) :
    outV a kp (ix2 p e) = ∑ k : Fin 256, a (ix2 p k) * kp (ix2 k e) :=
  Cert.LibDense.matmul_plain (M := 512) (K := 256) (N := 128) (φ₁ := .bf16) (φ₂ := .bf16)
    (truncf .bf16 a bitsLt_bf16_f32) (truncf .bf16 kp bitsLt_bf16_f32) (ix2 p e)

/-- A head's output through its band of the output projection. -/
def projV (o : FVec Ideal S512x128 .f32) (w : Vec Ideal S128x1024 .bf16) : FVec Ideal S512x1024 .f32 :=
  matmul dot_S512x128_S128x1024_S512x1024_1_0_0_1_n_n none (truncf .bf16 o bitsLt_bf16_f32)
    (shapeCast S128x1024 w shapeCasts_S128x1024_S128x1024 : FVec Ideal S128x1024 .bf16) (constant S512x1024 .f32 0x00000000#32)

theorem projV_apply (o : FVec Ideal S512x128 .f32) (w : Vec Ideal S128x1024 .bf16) (p : Fin 512) (c : Fin 1024) :
    projV o w (ix2 p c) = ∑ e : Fin 128, o (ix2 p e) * w (ix2 e c) := by
  unfold projV
  rw [shapeCast_self]
  exact Cert.LibDense.matmul_plain (M := 512) (K := 128) (N := 1024) (φ₁ := .bf16) (φ₂ := .bf16)
    (truncf .bf16 o bitsLt_bf16_f32) (w : FVec Ideal S128x1024 .bf16) (ix2 p c)

/-- The attention of a head from its scaled scores. -/
def attnV (s : FVec Ideal S512x256 .f32) : FVec Ideal S512x256 .f32 :=
  divf (expV s (maxV s)) (sumV (expV s (maxV s)))

/-! ## One head of one row, against the specification -/

section Head

variable (qr : Fin 1024 → EReal) (kpf : Fin 256 → Fin 128 → EReal) (h : Fin 8) (p : Fin 512)

theorem score_row (a : FVec Ideal S512x128 .bf16) (b : FVec Ideal S256x128 .bf16)
    (ha : ∀ e : Fin 128, a (ix2 p e) = qr (Spec.hd h e)) (hb : ∀ (k : Fin 256) (e : Fin 128), b (ix2 k e) = kpf k e)
    (k : Fin 256) : scoreV a b (ix2 p k) = Spec.score qr kpf h k :=
  (scoreV_apply a b p k).trans
    (congrArg (· * Spec.scale) (Finset.sum_congr rfl fun e _ => congrArg₂ (· * ·) (ha e) (hb k e)))

theorem max_row (s : FVec Ideal S512x256 .f32) (hs : ∀ k : Fin 256, s (ix2 p k) = Spec.score qr kpf h k) :
    maxV s (ix1 p) = rowMax Spec.negInf (Spec.score qr kpf h) :=
  (maxV_apply s p).trans (congrArg (rowMax Spec.negInf) (funext hs))

theorem exp_row (s : FVec Ideal S512x256 .f32) (m : FVec Ideal S512 .f32)
    (hs : ∀ k : Fin 256, s (ix2 p k) = Spec.score qr kpf h k)
    (hm : m (ix1 p) = rowMax Spec.negInf (Spec.score qr kpf h)) (k : Fin 256) :
    expV s m (ix2 p k) = expShift Spec.negInf (Spec.score qr kpf h) k :=
  (expV_apply s m p k).trans (congrArg₂ (fun x y => Ideal.exp (x - y)) (hs k) hm)

theorem sum_row (e : FVec Ideal S512x256 .f32)
    (he : ∀ k : Fin 256, e (ix2 p k) = expShift Spec.negInf (Spec.score qr kpf h) k) (k : Fin 256) :
    sumV e (ix2 p k) = ∑ k' : Fin 256, expShift Spec.negInf (Spec.score qr kpf h) k' :=
  (sumV_apply e p k).trans (Finset.sum_congr rfl fun k' _ => he k')

theorem attn_row (e d : FVec Ideal S512x256 .f32)
    (he : ∀ k : Fin 256, e (ix2 p k) = expShift Spec.negInf (Spec.score qr kpf h) k)
    (hd : ∀ k : Fin 256, d (ix2 p k) = ∑ k' : Fin 256, expShift Spec.negInf (Spec.score qr kpf h) k') (k : Fin 256) :
    divf e d (ix2 p k) = Spec.attn qr kpf h k :=
  congrArg₂ Ideal.div (he k) (hd k)

theorem attnV_row (s : FVec Ideal S512x256 .f32) (hs : ∀ k : Fin 256, s (ix2 p k) = Spec.score qr kpf h k) (k : Fin 256) :
    attnV s (ix2 p k) = Spec.attn qr kpf h k :=
  attn_row qr kpf h p _ _ (exp_row qr kpf h p s _ hs (max_row qr kpf h p s hs))
    (sum_row qr kpf h p _ (exp_row qr kpf h p s _ hs (max_row qr kpf h p s hs))) k

theorem out_row (a : FVec Ideal S512x256 .f32) (kp : FVec Ideal S256x128 .f32)
    (ha : ∀ k : Fin 256, a (ix2 p k) = Spec.attn qr kpf h k) (hkp : ∀ (k : Fin 256) (e : Fin 128), kp (ix2 k e) = kpf k e)
    (e : Fin 128) : outV a kp (ix2 p e) = Spec.headOut qr kpf h e :=
  (outV_apply a kp p e).trans (Finset.sum_congr rfl fun k _ => congrArg₂ (· * ·) (ha k) (hkp k e))

theorem proj_row (o : FVec Ideal S512x128 .f32) (w : FVec Ideal S128x1024 .bf16)
    (ho : ∀ e : Fin 128, o (ix2 p e) = Spec.headOut qr kpf h e) (c : Fin 1024) :
    projV o w (ix2 p c) = ∑ e : Fin 128, Spec.headOut qr kpf h e * w (ix2 e c) :=
  (projV_apply o w p c).trans (Finset.sum_congr rfl fun e _ => congrArg (· * w (ix2 e c)) (ho e))

/-- The 128 columns of head `h` cut out of a block of rows, at an entry. -/
theorem slice_row (off : ℕ) (hsl : S512x1024.Slices ![0, off] S512x128) (v : FVec Ideal S512x1024 .f32)
    (hoff : off = h.val * 128) (e : Fin 128) :
    (truncf .bf16 (extractStridedSlice S512x128 ![0, off] v hsl) bitsLt_bf16_f32 : FVec Ideal S512x128 .bf16) (ix2 p e)
      = v (ix2 p (Spec.hd h e)) :=
  slice2_axis1_apply (n0 := 512) (n1 := 1024) (m := 128) off v hsl p e (Spec.hd h e) (by subst hoff; rfl)

end Head

/-! ## A whole head from the block of rows -/

/-- The 128 columns from `off` of a block of rows, narrowed. -/
def sliceV (off : ℕ) (hsl : S512x1024.Slices ![0, off] S512x128) (v : FVec Ideal S512x1024 .f32) : FVec Ideal S512x128 .bf16 :=
  truncf .bf16 (extractStridedSlice S512x128 ![0, off] v hsl) bitsLt_bf16_f32

/-- A head's scaled scores from the block of rows and the projected keys. -/
def headS (off : ℕ) (hsl : S512x1024.Slices ![0, off] S512x128) (v1 : FVec Ideal S512x1024 .f32)
    (v3 : FVec Ideal S256x128 .f32) : FVec Ideal S512x256 .f32 :=
  scoreV (sliceV off hsl v1) (truncf .bf16 v3 bitsLt_bf16_f32)

/-- A head's whole contribution to the accumulator. -/
def headP (off : ℕ) (hsl : S512x1024.Slices ![0, off] S512x128) (v1 : FVec Ideal S512x1024 .f32)
    (v3 : FVec Ideal S256x128 .f32) (w : Vec Ideal S128x1024 .bf16) : FVec Ideal S512x1024 .f32 :=
  projV (outV (attnV (headS off hsl v1 v3)) v3) w

section Block

variable (qr : Fin 1024 → EReal) (kpf : Fin 256 → Fin 128 → EReal) (p : Fin 512)
variable (v1 : FVec Ideal S512x1024 .f32) (v3 : FVec Ideal S256x128 .f32)
variable (hq : ∀ j : Fin 1024, v1 (ix2 p j) = qr j) (hk : ∀ (k : Fin 256) (e : Fin 128), v3 (ix2 k e) = kpf k e)

include hq in
theorem sliceV_row (h : Fin 8) (off : ℕ) (hsl : S512x1024.Slices ![0, off] S512x128) (hoff : off = h.val * 128)
    (e : Fin 128) : sliceV off hsl v1 (ix2 p e) = qr (Spec.hd h e) :=
  (slice_row h p off hsl v1 hoff e).trans (hq _)

include hq hk in
theorem headS_row (h : Fin 8) (off : ℕ) (hsl : S512x1024.Slices ![0, off] S512x128) (hoff : off = h.val * 128)
    (k : Fin 256) : headS off hsl v1 v3 (ix2 p k) = Spec.score qr kpf h k :=
  score_row qr kpf h p _ _ (sliceV_row qr p v1 hq h off hsl hoff) hk k

include hq hk in
theorem headP_row (h : Fin 8) (off : ℕ) (hsl : S512x1024.Slices ![0, off] S512x128) (hoff : off = h.val * 128)
    (w : FVec Ideal S128x1024 .bf16) (c : Fin 1024) :
    headP off hsl v1 v3 w (ix2 p c) = ∑ e : Fin 128, Spec.headOut qr kpf h e * w (ix2 e c) :=
  proj_row qr kpf h p _ w
    (out_row qr kpf h p _ v3 (attnV_row qr kpf h p _ (headS_row qr kpf p v1 v3 hq hk h off hsl hoff)) hk) c

end Block

/-! ## The stored value's pieces, spelt with these steps -/

theorem pay7_eq (v0 : Vec Ideal S512x1024 .f32) (v2 : Vec Ideal S256x128 .f32) (v31 : Vec Ideal S128x1024 .bf16) :
    k1_pay7 (F := Ideal) v0 v2 v31
      = addf (broadcast S512x1024 (Scalar.ofBits .f32 0x00000000#32))
          (headP 0 slices_S512x1024_o0_0_S512x128 (k1_pay2 v0) (k1_pay3 v2) v31) := rfl

theorem pay8_eq (v2 : Vec Ideal S256x128 .f32) :
    k1_pay8 (F := Ideal) v2 = truncf .bf16 (k1_pay3 v2) bitsLt_bf16_f32 := rfl

theorem pay9_eq (v0 : Vec Ideal S512x1024 .f32) :
    k1_pay9 (F := Ideal) v0 = sliceV 128 slices_S512x1024_o0_128_S512x128 (k1_pay2 v0) := rfl

theorem pay10_eq (v3 : FVec Ideal S256x128 .f32) (v35 : FVec Ideal S512x1024 .f32) (v37 : FVec Ideal S256x128 .bf16)
    (v38 : FVec Ideal S512x128 .bf16) (v56 : Vec Ideal S128x1024 .bf16) :
    k1_pay10 (F := Ideal) v3 v35 v37 v38 v56 = addf v35 (projV (outV (attnV (scoreV v38 v37)) v3) v56) := rfl

theorem pay11_eq (v1 : FVec Ideal S512x1024 .f32) (v3 : FVec Ideal S256x128 .f32) :
    k1_pay11 (F := Ideal) v1 v3 = outV (attnV (headS 256 slices_S512x1024_o0_256_S512x128 v1 v3)) v3 := rfl

theorem pay12_eq (v1 : FVec Ideal S512x1024 .f32) (v3 : FVec Ideal S256x128 .f32) (v60 : FVec Ideal S512x1024 .f32)
    (v80 : FVec Ideal S512x128 .f32) (v81 v106 : Vec Ideal S128x1024 .bf16) :
    k1_pay12 (F := Ideal) v1 v3 v60 v80 v81 v106
      = addf (addf v60 (projV v80 v81)) (headP 384 slices_S512x1024_o0_384_S512x128 v1 v3 v106) := rfl

theorem pay13_eq (v1 : FVec Ideal S512x1024 .f32) (v3 : FVec Ideal S256x128 .f32) :
    k1_pay13 (F := Ideal) v1 v3
      = expV (headS 512 slices_S512x1024_o0_512_S512x128 v1 v3) (maxV (headS 512 slices_S512x1024_o0_512_S512x128 v1 v3)) := rfl

theorem pay14_eq (v1 : FVec Ideal S512x1024 .f32) (v3 : FVec Ideal S256x128 .f32) :
    k1_pay14 (F := Ideal) v1 v3 = sumV (k1_pay13 v1 v3) := rfl

theorem pay15_eq (v1 : FVec Ideal S512x1024 .f32) (v3 : FVec Ideal S256x128 .f32) (v110 : FVec Ideal S512x1024 .f32)
    (v123 v126 : FVec Ideal S512x256 .f32) (v131 v156 : Vec Ideal S128x1024 .bf16) :
    k1_pay15 (F := Ideal) v1 v3 v110 v123 v126 v131 v156
      = addf (addf v110 (projV (outV (divf v123 v126) v3) v131)) (headP 640 slices_S512x1024_o0_640_S512x128 v1 v3 v156) := rfl

theorem pay16_eq (v1 : FVec Ideal S512x1024 .f32) (v3 : FVec Ideal S256x128 .f32) :
    k1_pay16 (F := Ideal) v1 v3 = headS 768 slices_S512x1024_o0_768_S512x128 v1 v3 := rfl

theorem pay17_eq (v1 : FVec Ideal S512x1024 .f32) (v3 : FVec Ideal S256x128 .f32) :
    k1_pay17 (F := Ideal) v1 v3 = maxV (k1_pay16 v1 v3) := rfl

theorem pay18_eq (v1 : FVec Ideal S512x1024 .f32) (v3 : FVec Ideal S256x128 .f32) (v5 : FVec Ideal S1x1024 .f32)
    (v160 : FVec Ideal S512x1024 .f32) (v166 : FVec Ideal S512x256 .f32) (v169 : FVec Ideal S512 .f32)
    (v181 v206 : Vec Ideal S128x1024 .bf16) :
    k1_pay18 (F := Ideal) v1 v3 v5 v160 v166 v169 v181 v206
      = addf (addf (addf v160 (projV (outV (divf (expV v166 v169) (sumV (expV v166 v169))) v3) v181))
            (headP 896 slices_S512x1024_o0_896_S512x128 v1 v3 v206))
          (broadcastTo S512x1024 v5 broadcasts_S1x1024_S512x1024) := rfl

theorem pay19_eq (v1 : FVec Ideal S512x1024 .f32) (v3 : FVec Ideal S256x128 .f32) (v5 : FVec Ideal S1x1024 .f32)
    (v160 : FVec Ideal S512x1024 .f32) (v166 : FVec Ideal S512x256 .f32) (v169 : FVec Ideal S512 .f32)
    (v181 v206 : Vec Ideal S128x1024 .bf16) :
    k1_pay19 (F := Ideal) v1 v3 v5 v160 v166 v169 v181 v206
      = shapeCast S512x1
          (multiReduction .add [1] S512 (k1_pay18 v1 v3 v5 v160 v166 v169 v181 v206) 0x00000000#32 reduces_S512x1024_S512 (.inl rfl) rfl)
          shapeCasts_S512_S512x1 := rfl

/-! ## The pieces at an entry of row `p`, against the specification -/

section Pieces

variable (qr : Fin 1024 → EReal) (kpf : Fin 256 → Fin 128 → EReal) (p : Fin 512)
variable (v1 : FVec Ideal S512x1024 .f32) (v3 : FVec Ideal S256x128 .f32)
variable (hq : ∀ j : Fin 1024, v1 (ix2 p j) = qr j) (hk : ∀ (k : Fin 256) (e : Fin 128), v3 (ix2 k e) = kpf k e)

/-- Head 0 into the zero accumulator. -/
theorem pay7_row (v0 : Vec Ideal S512x1024 .f32) (v2 : Vec Ideal S256x128 .f32) (v31 : FVec Ideal S128x1024 .bf16)
    (hq0 : ∀ j : Fin 1024, k1_pay2 (F := Ideal) v0 (ix2 p j) = qr j)
    (hk0 : ∀ (k : Fin 256) (e : Fin 128), k1_pay3 (F := Ideal) v2 (ix2 k e) = kpf k e) (c : Fin 1024) :
    k1_pay7 (F := Ideal) v0 v2 v31 (ix2 p c)
      = Ideal.ofBits .f32 0x00000000#32 + ∑ e : Fin 128, Spec.headOut qr kpf 0 e * v31 (ix2 e c) :=
  (congrFun (pay7_eq v0 v2 v31) (ix2 p c)).trans
    (congrArg (Ideal.ofBits .f32 0x00000000#32 + ·)
      (headP_row qr kpf p _ _ hq0 hk0 0 0 slices_S512x1024_o0_0_S512x128 (by decide) v31 c))

include hk in
/-- Head 1 onto the accumulator. -/
theorem pay10_row (v35 : FVec Ideal S512x1024 .f32) (v37 : FVec Ideal S256x128 .bf16) (v38 : FVec Ideal S512x128 .bf16)
    (v56 : FVec Ideal S128x1024 .bf16) (h37 : ∀ (k : Fin 256) (e : Fin 128), v37 (ix2 k e) = kpf k e)
    (h38 : ∀ e : Fin 128, v38 (ix2 p e) = qr (Spec.hd 1 e)) (c : Fin 1024) :
    k1_pay10 (F := Ideal) v3 v35 v37 v38 v56 (ix2 p c)
      = v35 (ix2 p c) + ∑ e : Fin 128, Spec.headOut qr kpf 1 e * v56 (ix2 e c) :=
  (congrFun (pay10_eq v3 v35 v37 v38 v56) (ix2 p c)).trans
    (congrArg (v35 (ix2 p c) + ·)
      (proj_row qr kpf 1 p _ v56
        (out_row qr kpf 1 p _ v3 (attnV_row qr kpf 1 p _ (score_row qr kpf 1 p v38 v37 h38 h37)) hk) c))

include hq hk in
/-- Head 2's output before the projection. -/
theorem pay11_row (e : Fin 128) : k1_pay11 (F := Ideal) v1 v3 (ix2 p e) = Spec.headOut qr kpf 2 e :=
  (congrFun (pay11_eq v1 v3) (ix2 p e)).trans
    (out_row qr kpf 2 p _ v3
      (attnV_row qr kpf 2 p _ (headS_row qr kpf p v1 v3 hq hk 2 256 slices_S512x1024_o0_256_S512x128 (by decide))) hk e)

include hq hk in
/-- Heads 2 and 3 onto the accumulator. -/
theorem pay12_row (v60 : FVec Ideal S512x1024 .f32) (v80 : FVec Ideal S512x128 .f32) (v81 v106 : FVec Ideal S128x1024 .bf16)
    (h80 : ∀ e : Fin 128, v80 (ix2 p e) = Spec.headOut qr kpf 2 e) (c : Fin 1024) :
    k1_pay12 (F := Ideal) v1 v3 v60 v80 v81 v106 (ix2 p c)
      = (v60 (ix2 p c) + ∑ e : Fin 128, Spec.headOut qr kpf 2 e * v81 (ix2 e c))
        + ∑ e : Fin 128, Spec.headOut qr kpf 3 e * v106 (ix2 e c) :=
  (congrFun (pay12_eq v1 v3 v60 v80 v81 v106) (ix2 p c)).trans
    (congrArg₂ (· + ·) (congrArg (v60 (ix2 p c) + ·) (proj_row qr kpf 2 p v80 v81 h80 c))
      (headP_row qr kpf p v1 v3 hq hk 3 384 slices_S512x1024_o0_384_S512x128 (by decide) v106 c))

include hq hk in
/-- Head 4's shifted exponentials. -/
theorem pay13_row (k : Fin 256) :
    k1_pay13 (F := Ideal) v1 v3 (ix2 p k) = expShift Spec.negInf (Spec.score qr kpf 4) k :=
  (congrFun (pay13_eq v1 v3) (ix2 p k)).trans
    (exp_row qr kpf 4 p _ _ (headS_row qr kpf p v1 v3 hq hk 4 512 slices_S512x1024_o0_512_S512x128 (by decide))
      (max_row qr kpf 4 p _ (headS_row qr kpf p v1 v3 hq hk 4 512 slices_S512x1024_o0_512_S512x128 (by decide))) k)

include hq hk in
/-- Head 4's row sum of them. -/
theorem pay14_row (k : Fin 256) :
    k1_pay14 (F := Ideal) v1 v3 (ix2 p k) = ∑ k' : Fin 256, expShift Spec.negInf (Spec.score qr kpf 4) k' :=
  (congrFun (pay14_eq v1 v3) (ix2 p k)).trans (sum_row qr kpf 4 p _ (pay13_row qr kpf p v1 v3 hq hk) k)

include hq hk in
/-- Heads 4 and 5 onto the accumulator. -/
theorem pay15_row (v110 : FVec Ideal S512x1024 .f32) (v123 v126 : FVec Ideal S512x256 .f32)
    (v131 v156 : FVec Ideal S128x1024 .bf16)
    (h123 : ∀ k : Fin 256, v123 (ix2 p k) = expShift Spec.negInf (Spec.score qr kpf 4) k)
    (h126 : ∀ k : Fin 256, v126 (ix2 p k) = ∑ k' : Fin 256, expShift Spec.negInf (Spec.score qr kpf 4) k') (c : Fin 1024) :
    k1_pay15 (F := Ideal) v1 v3 v110 v123 v126 v131 v156 (ix2 p c)
      = (v110 (ix2 p c) + ∑ e : Fin 128, Spec.headOut qr kpf 4 e * v131 (ix2 e c))
        + ∑ e : Fin 128, Spec.headOut qr kpf 5 e * v156 (ix2 e c) :=
  (congrFun (pay15_eq v1 v3 v110 v123 v126 v131 v156) (ix2 p c)).trans
    (congrArg₂ (· + ·)
      (congrArg (v110 (ix2 p c) + ·)
        (proj_row qr kpf 4 p _ v131 (out_row qr kpf 4 p _ v3 (attn_row qr kpf 4 p v123 v126 h123 h126) hk) c))
      (headP_row qr kpf p v1 v3 hq hk 5 640 slices_S512x1024_o0_640_S512x128 (by decide) v156 c))

include hq hk in
/-- Head 6's scaled scores. -/
theorem pay16_row (k : Fin 256) : k1_pay16 (F := Ideal) v1 v3 (ix2 p k) = Spec.score qr kpf 6 k :=
  (congrFun (pay16_eq v1 v3) (ix2 p k)).trans
    (headS_row qr kpf p v1 v3 hq hk 6 768 slices_S512x1024_o0_768_S512x128 (by decide) k)

include hq hk in
/-- Head 6's row maximum. -/
theorem pay17_row : k1_pay17 (F := Ideal) v1 v3 (ix1 p) = rowMax Spec.negInf (Spec.score qr kpf 6) :=
  (congrFun (pay17_eq v1 v3) (ix1 p)).trans (max_row qr kpf 6 p _ (pay16_row qr kpf p v1 v3 hq hk))

include hq hk in
/-- Heads 6 and 7 onto the accumulator, and the bias row. -/
theorem pay18_row (v5 : FVec Ideal S1x1024 .f32) (v160 : FVec Ideal S512x1024 .f32) (v166 : FVec Ideal S512x256 .f32)
    (v169 : FVec Ideal S512 .f32) (v181 v206 : FVec Ideal S128x1024 .bf16)
    (h166 : ∀ k : Fin 256, v166 (ix2 p k) = Spec.score qr kpf 6 k)
    (h169 : v169 (ix1 p) = rowMax Spec.negInf (Spec.score qr kpf 6)) (c : Fin 1024) :
    k1_pay18 (F := Ideal) v1 v3 v5 v160 v166 v169 v181 v206 (ix2 p c)
      = ((v160 (ix2 p c) + ∑ e : Fin 128, Spec.headOut qr kpf 6 e * v181 (ix2 e c))
          + ∑ e : Fin 128, Spec.headOut qr kpf 7 e * v206 (ix2 e c))
        + v5 (ix2 0 c) :=
  (congrFun (pay18_eq v1 v3 v5 v160 v166 v169 v181 v206) (ix2 p c)).trans
    (congrArg₂ (· + ·)
      (congrArg₂ (· + ·)
        (congrArg (v160 (ix2 p c) + ·)
          (proj_row qr kpf 6 p _ v181
            (out_row qr kpf 6 p _ v3
              (attn_row qr kpf 6 p _ _ (exp_row qr kpf 6 p v166 v169 h166 h169)
                (sum_row qr kpf 6 p _ (exp_row qr kpf 6 p v166 v169 h166 h169))) hk) c))
        (headP_row qr kpf p v1 v3 hq hk 7 896 slices_S512x1024_o0_896_S512x128 (by decide) v206 c))
      (broadcastTo_1b_ab_apply (a := 512) (b := 1024) v5 broadcasts_S1x1024_S512x1024 p c))

/-- The row sums of that, kept as a column. -/
theorem pay19_row (v5 : FVec Ideal S1x1024 .f32) (v160 : FVec Ideal S512x1024 .f32) (v166 : FVec Ideal S512x256 .f32)
    (v169 : FVec Ideal S512 .f32) (v181 v206 : Vec Ideal S128x1024 .bf16) :
    k1_pay19 (F := Ideal) v1 v3 v5 v160 v166 v169 v181 v206 (ix2 p 0)
      = ∑ c : Fin 1024, k1_pay18 (F := Ideal) v1 v3 v5 v160 v166 v169 v181 v206 (ix2 p c) :=
  (congrFun (pay19_eq v1 v3 v5 v160 v166 v169 v181 v206) (ix2 p 0)).trans
    ((Cert.LibSoftmaxRow.shapeCast_a_a1_apply (a := 512) _ shapeCasts_S512_S512x1 p 0).trans
      (Cert.LibSoftmaxRow.multiReduction_add_row (a := 512) (n := 1024) _ 0x00000000#32 reduces_S512x1024_S512 (.inl rfl) rfl p))

end Pieces

/-! ## The accumulator over the eight heads -/

/-- The accumulator after head 0, from the block of rows, the projected keys and band 0. -/
def acc1 (x0 : Vec Ideal S512x1024 .f32) (x1 : Vec Ideal S256x128 .f32) (w0 : Vec Ideal S128x1024 .bf16) :
    FVec Ideal S512x1024 .f32 :=
  k1_pay7 x0 x1 w0

/-- After head 1. -/
def acc2 (x0 : Vec Ideal S512x1024 .f32) (x1 : Vec Ideal S256x128 .f32) (w0 w1 : Vec Ideal S128x1024 .bf16) :
    FVec Ideal S512x1024 .f32 :=
  k1_pay10 (k1_pay3 x1) (acc1 x0 x1 w0) (k1_pay8 x1) (k1_pay9 x0) w1

/-- After heads 2 and 3. -/
def acc4 (x0 : Vec Ideal S512x1024 .f32) (x1 : Vec Ideal S256x128 .f32) (w0 w1 w2 w3 : Vec Ideal S128x1024 .bf16) :
    FVec Ideal S512x1024 .f32 :=
  k1_pay12 (k1_pay2 x0) (k1_pay3 x1) (acc2 x0 x1 w0 w1) (k1_pay11 (k1_pay2 x0) (k1_pay3 x1)) w2 w3

/-- After heads 4 and 5. -/
def acc6 (x0 : Vec Ideal S512x1024 .f32) (x1 : Vec Ideal S256x128 .f32) (w0 w1 w2 w3 w4 w5 : Vec Ideal S128x1024 .bf16) :
    FVec Ideal S512x1024 .f32 :=
  k1_pay15 (k1_pay2 x0) (k1_pay3 x1) (acc4 x0 x1 w0 w1 w2 w3) (k1_pay13 (k1_pay2 x0) (k1_pay3 x1))
    (k1_pay14 (k1_pay2 x0) (k1_pay3 x1)) w4 w5

/-- After heads 6 and 7, with the bias row: the row that goes into the layer norm. -/
def accB (x0 : Vec Ideal S512x1024 .f32) (x1 : Vec Ideal S256x128 .f32) (x3 : Vec Ideal S1x1024 .f32)
    (w0 w1 w2 w3 w4 w5 w6 w7 : Vec Ideal S128x1024 .bf16) : FVec Ideal S512x1024 .f32 :=
  k1_pay18 (k1_pay2 x0) (k1_pay3 x1) (k1_pay4 x3) (acc6 x0 x1 w0 w1 w2 w3 w4 w5) (k1_pay16 (k1_pay2 x0) (k1_pay3 x1))
    (k1_pay17 (k1_pay2 x0) (k1_pay3 x1)) w6 w7

/-- Its row sums as a column. -/
def colB (x0 : Vec Ideal S512x1024 .f32) (x1 : Vec Ideal S256x128 .f32) (x3 : Vec Ideal S1x1024 .f32)
    (w0 w1 w2 w3 w4 w5 w6 w7 : Vec Ideal S128x1024 .bf16) : FVec Ideal S512x1 .f32 :=
  k1_pay19 (k1_pay2 x0) (k1_pay3 x1) (k1_pay4 x3) (acc6 x0 x1 w0 w1 w2 w3 w4 w5) (k1_pay16 (k1_pay2 x0) (k1_pay3 x1))
    (k1_pay17 (k1_pay2 x0) (k1_pay3 x1)) w6 w7

theorem colB_row (x0 : Vec Ideal S512x1024 .f32) (x1 : Vec Ideal S256x128 .f32) (x3 : Vec Ideal S1x1024 .f32)
    (w0 w1 w2 w3 w4 w5 w6 w7 : Vec Ideal S128x1024 .bf16) (p : Fin 512) :
    colB x0 x1 x3 w0 w1 w2 w3 w4 w5 w6 w7 (ix2 p 0) = ∑ c : Fin 1024, accB x0 x1 x3 w0 w1 w2 w3 w4 w5 w6 w7 (ix2 p c) :=
  pay19_row p _ _ _ _ _ _ _ _

/-- The accumulated row with the bias is the attention output through the output projection: the eight bands are
    the 1024 rows of `wo`, band `h` holding rows `h·128 … h·128+127`. -/
theorem accB_row (x0 : FVec Ideal S512x1024 .f32) (x1 : FVec Ideal S256x128 .f32) (x3 : FVec Ideal S1x1024 .f32)
    (w0 w1 w2 w3 w4 w5 w6 w7 : FVec Ideal S128x1024 .bf16) (wo : Spec.M2 1024 1024)
    (hw0 : ∀ (e : Fin 128) (c : Fin 1024), w0 (ix2 e c) = wo (ix2 (Spec.hd 0 e) c))
    (hw1 : ∀ (e : Fin 128) (c : Fin 1024), w1 (ix2 e c) = wo (ix2 (Spec.hd 1 e) c))
    (hw2 : ∀ (e : Fin 128) (c : Fin 1024), w2 (ix2 e c) = wo (ix2 (Spec.hd 2 e) c))
    (hw3 : ∀ (e : Fin 128) (c : Fin 1024), w3 (ix2 e c) = wo (ix2 (Spec.hd 3 e) c))
    (hw4 : ∀ (e : Fin 128) (c : Fin 1024), w4 (ix2 e c) = wo (ix2 (Spec.hd 4 e) c))
    (hw5 : ∀ (e : Fin 128) (c : Fin 1024), w5 (ix2 e c) = wo (ix2 (Spec.hd 5 e) c))
    (hw6 : ∀ (e : Fin 128) (c : Fin 1024), w6 (ix2 e c) = wo (ix2 (Spec.hd 6 e) c))
    (hw7 : ∀ (e : Fin 128) (c : Fin 1024), w7 (ix2 e c) = wo (ix2 (Spec.hd 7 e) c))
    (p : Fin 512) (c : Fin 1024) :
    accB x0 x1 x3 w0 w1 w2 w3 w4 w5 w6 w7 (ix2 p c)
      = Spec.xattn (fun j => x0 (ix2 p j)) (fun k e => x1 (ix2 k e)) wo (fun j => x3 (ix2 0 j)) c := by
  have hq : ∀ j : Fin 1024, k1_pay2 (F := Ideal) x0 (ix2 p j) = (fun j => x0 (ix2 p j)) j := fun j =>
    congrFun (shapeCast_self x0 shapeCasts_S512x1024_S512x1024) (ix2 p j)
  have hk : ∀ (k : Fin 256) (e : Fin 128), k1_pay3 (F := Ideal) x1 (ix2 k e) = (fun k e => x1 (ix2 k e)) k e := fun k e =>
    congrFun (shapeCast_self x1 shapeCasts_S256x128_S256x128) (ix2 k e)
  have hb : k1_pay4 (F := Ideal) x3 (ix2 0 c) = x3 (ix2 0 c) :=
    congrFun (shapeCast_self x3 shapeCasts_S1x1024_S1x1024) (ix2 0 c)
  have e1 := pay7_row (fun j => x0 (ix2 p j)) (fun k e => x1 (ix2 k e)) p x0 x1 w0 hq hk c
  have e2 := pay10_row (fun j => x0 (ix2 p j)) (fun k e => x1 (ix2 k e)) p (k1_pay3 x1) hk (acc1 x0 x1 w0) (k1_pay8 x1)
    (k1_pay9 x0) w1 (fun k e => hk k e)
    (fun e => (congrFun (pay9_eq x0) (ix2 p e)).trans
      (sliceV_row (fun j => x0 (ix2 p j)) p (k1_pay2 x0) hq 1 128 slices_S512x1024_o0_128_S512x128 (by decide) e)) c
  have e4 := pay12_row (fun j => x0 (ix2 p j)) (fun k e => x1 (ix2 k e)) p (k1_pay2 x0) (k1_pay3 x1) hq hk
    (acc2 x0 x1 w0 w1) _ w2 w3 (pay11_row (fun j => x0 (ix2 p j)) (fun k e => x1 (ix2 k e)) p _ _ hq hk) c
  have e6 := pay15_row (fun j => x0 (ix2 p j)) (fun k e => x1 (ix2 k e)) p (k1_pay2 x0) (k1_pay3 x1) hq hk
    (acc4 x0 x1 w0 w1 w2 w3) _ _ w4 w5 (pay13_row (fun j => x0 (ix2 p j)) (fun k e => x1 (ix2 k e)) p _ _ hq hk)
    (pay14_row (fun j => x0 (ix2 p j)) (fun k e => x1 (ix2 k e)) p _ _ hq hk) c
  have e8 := pay18_row (fun j => x0 (ix2 p j)) (fun k e => x1 (ix2 k e)) p (k1_pay2 x0) (k1_pay3 x1) hq hk (k1_pay4 x3)
    (acc6 x0 x1 w0 w1 w2 w3 w4 w5) _ _ w6 w7 (pay16_row (fun j => x0 (ix2 p j)) (fun k e => x1 (ix2 k e)) p _ _ hq hk)
    (pay17_row (fun j => x0 (ix2 p j)) (fun k e => x1 (ix2 k e)) p _ _ hq hk) c
  have a0 := Finset.sum_congr (s₁ := (Finset.univ : Finset (Fin 128))) rfl fun e _ =>
    congrArg (Spec.headOut (fun j => x0 (ix2 p j)) (fun k e => x1 (ix2 k e)) 0 e * ·) (hw0 e c)
  have a1 := Finset.sum_congr (s₁ := (Finset.univ : Finset (Fin 128))) rfl fun e _ =>
    congrArg (Spec.headOut (fun j => x0 (ix2 p j)) (fun k e => x1 (ix2 k e)) 1 e * ·) (hw1 e c)
  have a2 := Finset.sum_congr (s₁ := (Finset.univ : Finset (Fin 128))) rfl fun e _ =>
    congrArg (Spec.headOut (fun j => x0 (ix2 p j)) (fun k e => x1 (ix2 k e)) 2 e * ·) (hw2 e c)
  have a3 := Finset.sum_congr (s₁ := (Finset.univ : Finset (Fin 128))) rfl fun e _ =>
    congrArg (Spec.headOut (fun j => x0 (ix2 p j)) (fun k e => x1 (ix2 k e)) 3 e * ·) (hw3 e c)
  have a4 := Finset.sum_congr (s₁ := (Finset.univ : Finset (Fin 128))) rfl fun e _ =>
    congrArg (Spec.headOut (fun j => x0 (ix2 p j)) (fun k e => x1 (ix2 k e)) 4 e * ·) (hw4 e c)
  have a5 := Finset.sum_congr (s₁ := (Finset.univ : Finset (Fin 128))) rfl fun e _ =>
    congrArg (Spec.headOut (fun j => x0 (ix2 p j)) (fun k e => x1 (ix2 k e)) 5 e * ·) (hw5 e c)
  have a6 := Finset.sum_congr (s₁ := (Finset.univ : Finset (Fin 128))) rfl fun e _ =>
    congrArg (Spec.headOut (fun j => x0 (ix2 p j)) (fun k e => x1 (ix2 k e)) 6 e * ·) (hw6 e c)
  have a7 := Finset.sum_congr (s₁ := (Finset.univ : Finset (Fin 128))) rfl fun e _ =>
    congrArg (Spec.headOut (fun j => x0 (ix2 p j)) (fun k e => x1 (ix2 k e)) 7 e * ·) (hw7 e c)
  refine (e8.trans (congrArg₂ (· + ·) (congrArg₂ (· + ·) (congrArg₂ (· + ·) (e6.trans (congrArg₂ (· + ·) (congrArg₂ (· + ·)
    (e4.trans (congrArg₂ (· + ·) (congrArg₂ (· + ·) (e2.trans (congrArg₂ (· + ·) (e1.trans (congrArg (_ + ·) a0)) a1)) a2) a3))
    a4) a5)) a6) a7) hb)).trans ?_
  exact congrArg (· + x3 (ix2 0 c))
    ((Cert.HeadSum.acc_eq fun h e =>
        Spec.headOut (fun j => x0 (ix2 p j)) (fun k e => x1 (ix2 k e)) h e * wo (ix2 (Spec.hd h e) c)).trans
      (Finset.sum_congr rfl fun j _ => by rw [Cert.HeadSum.hd_hOf_eOf]))

/-! ## The stored entry -/

/-- Band `h` of the output projection, loaded from row `h·128`, holds the rows of head `h`. -/
theorem band_hd (x2 : Vec Ideal S1024x1024 .bf16) (e : Fin 128) (c : Fin 1024) :
    View.ld x2 r1_3 (ix2 e c) = x2 (ix2 (Spec.hd 0 e) c) ∧
    View.ld x2 r1_4 (ix2 e c) = x2 (ix2 (Spec.hd 1 e) c) ∧
    View.ld x2 r1_5 (ix2 e c) = x2 (ix2 (Spec.hd 2 e) c) ∧
    View.ld x2 r1_6 (ix2 e c) = x2 (ix2 (Spec.hd 3 e) c) ∧
    View.ld x2 r1_7 (ix2 e c) = x2 (ix2 (Spec.hd 4 e) c) ∧
    View.ld x2 r1_8 (ix2 e c) = x2 (ix2 (Spec.hd 5 e) c) ∧
    View.ld x2 r1_9 (ix2 e c) = x2 (ix2 (Spec.hd 6 e) c) ∧
    View.ld x2 r1_10 (ix2 e c) = x2 (ix2 (Spec.hd 7 e) c) :=
  ⟨(Cert.NodeLoads.band3 x2 e c).trans (congrArg (fun r => x2 (ix2 r c)) (Fin.ext rfl)),
   (Cert.NodeLoads.band4 x2 e c).trans (congrArg (fun r => x2 (ix2 r c)) (Fin.ext rfl)),
   (Cert.NodeLoads.band5 x2 e c).trans (congrArg (fun r => x2 (ix2 r c)) (Fin.ext rfl)),
   (Cert.NodeLoads.band6 x2 e c).trans (congrArg (fun r => x2 (ix2 r c)) (Fin.ext rfl)),
   (Cert.NodeLoads.band7 x2 e c).trans (congrArg (fun r => x2 (ix2 r c)) (Fin.ext rfl)),
   (Cert.NodeLoads.band8 x2 e c).trans (congrArg (fun r => x2 (ix2 r c)) (Fin.ext rfl)),
   (Cert.NodeLoads.band9 x2 e c).trans (congrArg (fun r => x2 (ix2 r c)) (Fin.ext rfl)),
   (Cert.NodeLoads.band10 x2 e c).trans (congrArg (fun r => x2 (ix2 r c)) (Fin.ext rfl))⟩

/-- THE STORED BLOCK AT AN ENTRY: row `p`, column `c` of what the body leaves in the output window's buffer is the node row
    of the specification, from row `p` of the q block, the projected keys, the output projection, the three rows and row `p`
    of the node features. -/
theorem out_apply (x0 : Vec Ideal S512x1024 .f32) (x1 : Vec Ideal S256x128 .f32) (x2 : Vec Ideal S1024x1024 .bf16)
    (x3 x4 x5 : Vec Ideal S1x1024 .f32) (x6 : Vec Ideal S512x1024 .f32) (p : Fin 512) (c : Fin 1024) :
    out1_7 (F := Ideal) x0 x1 x2 x3 x4 x5 x6 (ix2 p c)
      = Spec.nodeRow (fun j => x0 (ix2 p j)) (fun k e => x1 (ix2 k e)) x2 (fun j => x3 (ix2 0 j)) (fun j => x4 (ix2 0 j))
          (fun j => x5 (ix2 0 j)) (fun k => x6 (ix2 p k)) c := by
  have hopen : out1_7 (F := Ideal) x0 x1 x2 x3 x4 x5 x6
      = k1_pay1 (k1_pay5 x4) (k1_pay6 x5)
          (accB x0 x1 x3 (View.ld x2 r1_3) (View.ld x2 r1_4) (View.ld x2 r1_5) (View.ld x2 r1_6) (View.ld x2 r1_7)
            (View.ld x2 r1_8) (View.ld x2 r1_9) (View.ld x2 r1_10))
          (colB x0 x1 x3 (View.ld x2 r1_3) (View.ld x2 r1_4) (View.ld x2 r1_5) (View.ld x2 r1_6) (View.ld x2 r1_7)
            (View.ld x2 r1_8) (View.ld x2 r1_9) (View.ld x2 r1_10)) x6 :=
    Cert.NodeLoads.out_open x0 x1 x2 x3 x4 x5 x6
  have hrow : (fun k : Fin 1024 => accB x0 x1 x3 (View.ld x2 r1_3) (View.ld x2 r1_4) (View.ld x2 r1_5) (View.ld x2 r1_6)
        (View.ld x2 r1_7) (View.ld x2 r1_8) (View.ld x2 r1_9) (View.ld x2 r1_10) (ix2 p k))
      = Spec.xattn (fun j => x0 (ix2 p j)) (fun k e => x1 (ix2 k e)) x2 (fun j => x3 (ix2 0 j)) :=
    funext fun k => accB_row x0 x1 x3 _ _ _ _ _ _ _ _ x2
      (fun e c => (band_hd x2 e c).1) (fun e c => (band_hd x2 e c).2.1) (fun e c => (band_hd x2 e c).2.2.1)
      (fun e c => (band_hd x2 e c).2.2.2.1) (fun e c => (band_hd x2 e c).2.2.2.2.1)
      (fun e c => (band_hd x2 e c).2.2.2.2.2.1) (fun e c => (band_hd x2 e c).2.2.2.2.2.2.1)
      (fun e c => (band_hd x2 e c).2.2.2.2.2.2.2) p k
  have hg : (fun j : Fin 1024 => k1_pay5 (F := Ideal) x4 (ix2 0 j)) = fun j => x4 (ix2 0 j) :=
    funext fun j => congrFun (shapeCast_self x4 shapeCasts_S1x1024_S1x1024) (ix2 0 j)
  have hs : (fun j : Fin 1024 => k1_pay6 (F := Ideal) x5 (ix2 0 j)) = fun j => x5 (ix2 0 j) :=
    funext fun j => congrFun (shapeCast_self x5 shapeCasts_S1x1024_S1x1024) (ix2 0 j)
  refine (congrFun hopen (ix2 p c)).trans ?_
  refine (Cert.NodeTail.tail_apply (k1_pay5 x4) (k1_pay6 x5) _ _ x6
    (fun p' => colB_row x0 x1 x3 _ _ _ _ _ _ _ _ p') p c).trans ?_
  rw [hrow, hg, hs]
  rfl

end Cert.NodeKernel

end
-- ==== Proof.EdgeKernel.lean ====
/-
  The edge kernel's stored value, read one entry at a time.

  For the row p of the block the kernel forms m[p, ·] = ef[p, ·]·We + be (the feature row narrowed to bf16, which on the
  extended reals changes nothing; the product accumulated from the zero word, which is 0), the row's sum kept as a column
  and divided by the word of 1024, the centred row, the sum of its squares divided by the same word, rsqrt(var + eps)
  spread back over the row, the scale row, the shift row, and the edge's own features added.  Each of these stages is a
  function of the array before it; read at the entry (p, c) they are the specification's row functions of the row
  m[p, ·], so the stored value at (p, c) is the specification's edge row at column c.
-/
import proofs.«163990_j74371653697775_2_alg».proof.Proof.Gen.KernelIdeal.Skeleton
import proofs.«163990_j74371653697775_2_alg».proof.Proof.Spec
import proofs.«163990_j74371653697775_2_alg».proof.Proof.LibDense
import proofs.«163990_j74371653697775_2_alg».proof.Proof.LibSoftmaxRow
import Idealize.ShloMosaic.Lib.ValueLayout

noncomputable section

namespace Cert.EdgeKernel

open Idealize.ShloMosaic Idealize.ShloMosaic.ValueIdx Cert.KernelIdeal Cert.KernelIdeal.Gen Cert.Spec

/-! ## The stages as functions of the array before them -/

/-- The linear stage: the product with the weights from the zero accumulator, plus the bias row. -/
def linV (x0 : FVec Ideal S1024x1024 .f32) (x1 : FVec Ideal S1024x1024 .bf16) (x2 : FVec Ideal S1x1024 .f32) :
    FVec Ideal S1024x1024 .f32 :=
  addf (matmul dot_S1024x1024_S1024x1024_S1024x1024_1_0_0_1_n_n none (truncf .bf16 x0 bitsLt_bf16_f32)
      (shapeCast S1024x1024 x1 shapeCasts_S1024x1024_S1024x1024) (constant (F := Ideal) S1024x1024 .f32 0x00000000#32))
    (broadcastTo S1024x1024 (shapeCast S1x1024 x2 shapeCasts_S1x1024_S1x1024) broadcasts_S1x1024_S1024x1024)

/-- Each row's sum, kept as a column. -/
def rowSumCol (v : FVec Ideal S1024x1024 .f32) : FVec Ideal S1024x1 .f32 :=
  shapeCast S1024x1 (multiReduction (F := Ideal) .add [1] S1024 v 0x00000000#32 reduces_S1024x1024_S1024 (.inl rfl) rfl)
    shapeCasts_S1024_S1024x1

/-- Each row's sum divided by the word of 1024. -/
def avgCol (v : FVec Ideal S1024x1024 .f32) : FVec Ideal S1024x1 .f32 :=
  divf (rowSumCol v) (broadcast S1024x1 (Scalar.ofBits (F := Ideal) .f32 0x44800000#32))

/-- The array minus each row's mean. -/
def centred (v : FVec Ideal S1024x1024 .f32) : FVec Ideal S1024x1024 .f32 :=
  subf v (broadcastTo S1024x1024 (avgCol v) broadcasts_S1024x1_S1024x1024)

/-- Each row's variance. -/
def varCol (v : FVec Ideal S1024x1024 .f32) : FVec Ideal S1024x1 .f32 :=
  avgCol (mulf (centred v) (centred v))

/-- The reciprocal square root of each row's variance plus epsilon. -/
def rstdCol (v : FVec Ideal S1024x1024 .f32) : FVec Ideal S1024x1 .f32 :=
  rsqrt (addf (varCol v) (broadcast S1024x1 (Scalar.ofBits (F := Ideal) .f32 0x3727C5AC#32)))

/-- The layer norm of the array `v` with scale row `x3` and shift row `x4`, plus `x0`. -/
def outV (x0 v : FVec Ideal S1024x1024 .f32) (x3 x4 : FVec Ideal S1x1024 .f32) : FVec Ideal S1024x1024 .f32 :=
  addf (addf (mulf (mulf (centred v) (broadcastTo S1024x1024 (rstdCol v) broadcasts_S1024x1_S1024x1024))
        (broadcastTo S1024x1024 (shapeCast S1x1024 x3 shapeCasts_S1x1024_S1x1024) broadcasts_S1x1024_S1024x1024))
      (broadcastTo S1024x1024 (shapeCast S1x1024 x4 shapeCasts_S1x1024_S1x1024) broadcasts_S1x1024_S1024x1024)) x0

/-- The stored value is the stages composed. -/
theorem pay_eq (x0 : Vec Ideal S1024x1024 .f32) (x1 : Vec Ideal S1024x1024 .bf16) (x2 x3 x4 : Vec Ideal S1x1024 .f32) :
    k2_pay1 (F := Ideal) x0 x1 x2 x3 x4 = outV x0 (linV x0 x1 x2) x3 x4 := rfl

/-! ## The stages at an entry -/

/-- The linear stage at (p, c). -/
theorem linV_apply (x0 : FVec Ideal S1024x1024 .f32) (x1 : FVec Ideal S1024x1024 .bf16) (x2 : FVec Ideal S1x1024 .f32)
    (p c : Fin 1024) :
    linV x0 x1 x2 (ix2 p c) = rowLin (fun k => x0 (ix2 p k)) x1 c + x2 (ix2 0 c) := by
  unfold linV
  rw [addf_apply]
  refine congrArg₂ (· + ·) ?_ ?_
  · refine (Cert.LibDense.matmul_plain (M := 1024) (K := 1024) (N := 1024) (truncf .bf16 x0 bitsLt_bf16_f32)
      (shapeCast S1024x1024 x1 shapeCasts_S1024x1024_S1024x1024) (ix2 p c)).trans ?_
    rw [shapeCast_self]
    rfl
  · refine (broadcastTo_1b_ab_apply _ broadcasts_S1x1024_S1024x1024 p c).trans ?_
    rw [shapeCast_self]

/-- A row's sum, at (p, u). -/
theorem rowSumCol_apply (v : FVec Ideal S1024x1024 .f32) (p : Fin 1024) (u : Fin 1) :
    rowSumCol v (ix2 p u) = ∑ k : Fin 1024, v (ix2 p k) := by
  unfold rowSumCol
  refine (Cert.LibSoftmaxRow.shapeCast_a_a1_apply _ shapeCasts_S1024_S1024x1 p u).trans ?_
  exact Cert.LibSoftmaxRow.multiReduction_add_row v _ reduces_S1024x1024_S1024 (.inl rfl) rfl p

/-- A row's mean, at (p, u). -/
theorem avgCol_apply (v : FVec Ideal S1024x1024 .f32) (p : Fin 1024) (u : Fin 1) :
    avgCol v (ix2 p u) = mean (fun k => v (ix2 p k)) := by
  unfold avgCol
  rw [divf_apply, rowSumCol_apply]
  rfl

/-- The centred array at (p, c). -/
theorem centred_apply (v : FVec Ideal S1024x1024 .f32) (p c : Fin 1024) :
    centred v (ix2 p c) = v (ix2 p c) - mean (fun k => v (ix2 p k)) := by
  unfold centred
  rw [subf_apply, Cert.LibSoftmaxRow.broadcastTo_a1_ab_apply, avgCol_apply]

/-- A row's variance, at (p, u). -/
theorem varCol_apply (v : FVec Ideal S1024x1024 .f32) (p : Fin 1024) (u : Fin 1) :
    varCol v (ix2 p u) = var (fun k => v (ix2 p k)) := by
  unfold varCol
  refine (avgCol_apply _ p u).trans ?_
  show Ideal.div (∑ k : Fin 1024, mulf (centred v) (centred v) (ix2 p k)) cnt
    = Ideal.div (∑ k : Fin 1024, (v (ix2 p k) - mean (fun j => v (ix2 p j))) * (v (ix2 p k) - mean (fun j => v (ix2 p j)))) cnt
  refine congrArg (fun s => Ideal.div s cnt) (Finset.sum_congr rfl fun k _ => ?_)
  rw [mulf_apply, centred_apply]

/-- The reciprocal square root of a row's variance plus epsilon, at (p, u). -/
theorem rstdCol_apply (v : FVec Ideal S1024x1024 .f32) (p : Fin 1024) (u : Fin 1) :
    rstdCol v (ix2 p u) = Ideal.rsqrt (var (fun k => v (ix2 p k)) + eps) := by
  unfold rstdCol
  show Ideal.rsqrt (varCol v (ix2 p u) + eps) = _
  rw [varCol_apply]

/-- The last stage at (p, c): the layer norm of row p of `v`, plus `x0` there. -/
theorem outV_apply (x0 v : FVec Ideal S1024x1024 .f32) (x3 x4 : FVec Ideal S1x1024 .f32) (p c : Fin 1024) :
    outV x0 v x3 x4 (ix2 p c)
      = lnRow (fun k => v (ix2 p k)) (fun j => x3 (ix2 0 j)) (fun j => x4 (ix2 0 j)) c + x0 (ix2 p c) := by
  unfold outV
  rw [addf_apply, addf_apply, mulf_apply, mulf_apply, centred_apply, Cert.LibSoftmaxRow.broadcastTo_a1_ab_apply,
    rstdCol_apply, broadcastTo_1b_ab_apply, broadcastTo_1b_ab_apply, shapeCast_self, shapeCast_self]
  rfl

/-! ## The stored value at an entry -/

/-- The edge kernel's stored value at (p, c) is the specification's edge row of the block's row p, at column c. -/
theorem pay_apply (x0 : Vec Ideal S1024x1024 .f32) (x1 : Vec Ideal S1024x1024 .bf16) (x2 x3 x4 : Vec Ideal S1x1024 .f32)
    (p c : Fin 1024) :
    Cert.KernelIdeal.Gen.k2_pay1 (F := Ideal) x0 x1 x2 x3 x4 (ValueIdx.ix2 p c)
      = Cert.Spec.edgeRow (fun k => x0 (ValueIdx.ix2 p k)) x1 (fun j => x2 (ValueIdx.ix2 0 j))
          (fun j => x3 (ValueIdx.ix2 0 j)) (fun j => x4 (ValueIdx.ix2 0 j)) c := by
  rw [pay_eq, outV_apply]
  have h : (fun k => linV x0 x1 x2 (ix2 p k))
      = fun j => rowLin (fun k => x0 (ix2 p k)) x1 j + x2 (ix2 0 j) := funext fun k => linV_apply x0 x1 x2 p k
  rw [h]
  rfl

end Cert.EdgeKernel

end
-- ==== Proof.NodeRef.lean ====
/-
  The reference program's node path, read one entry at a time on the extended reals.

  Every stage of the reference is a function of its arguments; read at a literal index it is a sum, a product, a maximum or
  a quotient of earlier stages at literal indices. Followed from the first projection to the residual, the entry (r, c) of the
  node result is: the query projection xq = nf·Wq + bq, its two further projections q and kv, the projected keys
  kp[k,e] = Σₙ pk[n,k]·kv[n,e], for each head the scaled scores of a node's row of q against the projected keys, their
  softmax along the 256 keys (the maximum folded from −∞, the sum started from 0), the heads' outputs laid side by side
  (column j is head j / 128, lane j % 128), the output projection plus its bias, the layer norm of that row (mean and variance
  as sums divided by 1024) with its scale and shift, and the node's own features added.
-/
import proofs.«163990_j74371653697775_2_alg».proof.Proof.Gen.ReferenceIdeal.Read
import proofs.«163990_j74371653697775_2_alg».proof.Proof.Spec
import proofs.«163990_j74371653697775_2_alg».proof.Proof.LibSoftmaxRow

noncomputable section

namespace Cert.NodeRef

open Cert.ReferenceIdeal Cert.ReferenceIdeal.Gen Cert.ReferenceIdeal.Read Idealize.ShloMosaic Idealize.ShloMosaic.ValueIdx
open Cert.Spec (M2 V1)

/-- Two indices built by cases on the axis are equal when they agree on every axis. -/
local macro "idx_eq" : tactic => `(tactic| (funext a; fin_cases a <;> rfl))

/-! ## The three projections and the projected keys -/

theorem lidx0 (r j k : Fin 1024) : lidx_main_v0 (ix2 r j) k = ix2 r k := by idx_eq
theorem ridx0 (r j k : Fin 1024) : ridx_main_v0 (ix2 r j) k = ix2 k j := by idx_eq
theorem idx12 (r j : Fin 1024) : idx_main_v1 (idx_main_v2 (ix2 r j)) = ix1 j := by idx_eq

/-- The query projection at (r, j). -/
theorem v3_ix (x0 x2 : M2 1024 1024) (x3 : V1 1024) (r j : Fin 1024) :
    val_main_v3 (F := Ideal) x0 x2 x3 (ix2 r j) = Cert.Spec.xq x0 x2 x3 r j := by
  rw [val_main_v3_apply, val_main_v0_apply, val_main_v2_apply, val_main_v1_apply]
  simp only [lidx0, ridx0, idx12]
  rfl

theorem lidx4 (r j k : Fin 1024) : lidx_main_v4 (ix2 r j) k = ix2 r k := by idx_eq
theorem ridx4 (r j k : Fin 1024) : ridx_main_v4 (ix2 r j) k = ix2 k j := by idx_eq

/-- The projection q at (r, j). -/
theorem v4_ix (x0 x2 : M2 1024 1024) (x3 : V1 1024) (x6 : M2 1024 1024) (r j : Fin 1024) :
    val_main_v4 (F := Ideal) x0 x2 x3 x6 (ix2 r j) = Cert.Spec.q x0 x2 x3 x6 r j := by
  rw [val_main_v4_apply]
  simp only [lidx4, ridx4, v3_ix]
  rfl

theorem lidx5 (r : Fin 1024) (e : Fin 128) (k : Fin 1024) : lidx_main_v5 (ix2 r e) k = ix2 r k := by idx_eq
theorem ridx5 (r : Fin 1024) (e : Fin 128) (k : Fin 1024) : ridx_main_v5 (ix2 r e) k = ix2 k e := by idx_eq

/-- The projection kv at (r, e). -/
theorem v5_ix (x0 x2 : M2 1024 1024) (x3 : V1 1024) (x7 : M2 1024 128) (r : Fin 1024) (e : Fin 128) :
    val_main_v5 (F := Ideal) x0 x2 x3 x7 (ix2 r e) = Cert.Spec.kv x0 x2 x3 x7 r e := by
  rw [val_main_v5_apply]
  simp only [lidx5, ridx5, v3_ix]
  rfl

theorem lidx6 (k : Fin 256) (e : Fin 128) (n : Fin 1024) : lidx_main_v6 (ix2 k e) n = ix2 n k := by idx_eq
theorem ridx6 (k : Fin 256) (e : Fin 128) (n : Fin 1024) : ridx_main_v6 (ix2 k e) n = ix2 n e := by idx_eq

/-- The projected keys at (k, e): the node axis contracted. -/
theorem v6_ix (x0 x2 : M2 1024 1024) (x3 : V1 1024) (x7 : M2 1024 128) (x8 : M2 1024 256) (k : Fin 256) (e : Fin 128) :
    val_main_v6 (F := Ideal) x0 x2 x3 x7 x8 (ix2 k e) = Cert.Spec.kpA x0 x2 x3 x7 x8 k e := by
  rw [val_main_v6_apply]
  simp only [lidx6, ridx6, v5_ix]
  rfl

/-! ## The heads of q, and the scores -/

theorem idx78 (h : Fin 8) (n : Fin 1024) (e : Fin 128) :
    idx_main_v7 (idx_main_v8 (ix3 h n e)) = ix2 n (Cert.Spec.hd h e) := by
  have h1 := h.isLt; have h2 := n.isLt; have h3 := e.isLt
  funext a
  fin_cases a
  · apply Fin.ext
    show ((n.val * 8 + h.val) * 128 + e.val) / 1024 = n.val
    omega
  · apply Fin.ext
    show ((n.val * 8 + h.val) * 128 + e.val) % 1024 = h.val * 128 + e.val
    omega

/-- The row-major split of q's columns into eight heads of 128 lanes, heads first: entry (h, n, e) is q at column h·128 + e. -/
theorem v8_ix (x0 x2 : M2 1024 1024) (x3 : V1 1024) (x6 : M2 1024 1024) (h : Fin 8) (n : Fin 1024) (e : Fin 128) :
    val_main_v8 (F := Ideal) x0 x2 x3 x6 (ix3 h n e) = Cert.Spec.q x0 x2 x3 x6 n (Cert.Spec.hd h e) := by
  rw [val_main_v8_apply, val_main_v7_apply, idx78, v4_ix]

theorem lidx9 (h : Fin 8) (n : Fin 1024) (k : Fin 256) (e : Fin 128) : lidx_main_v9 (ix3 h n k) e = ix3 h n e := by idx_eq
theorem ridx9 (h : Fin 8) (n : Fin 1024) (k : Fin 256) (e : Fin 128) : ridx_main_v9 (ix3 h n k) e = ix2 k e := by idx_eq

/-- The scaled scores at (h, n, k). -/
theorem v11_ix (x0 x2 : M2 1024 1024) (x3 : V1 1024) (x6 : M2 1024 1024) (x7 : M2 1024 128) (x8 : M2 1024 256)
    (h : Fin 8) (n : Fin 1024) (k : Fin 256) :
    val_main_v11 (F := Ideal) x0 x2 x3 x6 x7 x8 (ix3 h n k)
      = Cert.Spec.score (Cert.Spec.q x0 x2 x3 x6 n) (Cert.Spec.kpA x0 x2 x3 x7 x8) h k := by
  rw [val_main_v11_apply, val_main_v9_apply, val_main_v10_apply, val_main_cst_apply]
  simp only [lidx9, ridx9, v8_ix, v6_ix]
  rfl

/-! ## The softmax along the keys -/

/-- The maximum of a row of scores, folded from −∞. -/
theorem v12_ix (x0 x2 : M2 1024 1024) (x3 : V1 1024) (x6 : M2 1024 1024) (x7 : M2 1024 128) (x8 : M2 1024 256)
    (h : Fin 8) (n : Fin 1024) :
    val_main_v12 (F := Ideal) x0 x2 x3 x6 x7 x8 (ix2 h n)
      = Cert.LibSoftmaxRow.rowMax Cert.Spec.negInf
          (Cert.Spec.score (Cert.Spec.q x0 x2 x3 x6 n) (Cert.Spec.kpA x0 x2 x3 x7 x8) h) := by
  unfold val_main_v12
  refine (Cert.LibSoftmaxRow.hostReduce_max_row _ _ _ (by decide) _ h n).trans ?_
  simp only [v11_ix]
  rfl

theorem v14_ix (x0 x2 : M2 1024 1024) (x3 : V1 1024) (x6 : M2 1024 1024) (x7 : M2 1024 128) (x8 : M2 1024 256)
    (h : Fin 8) (n : Fin 1024) :
    val_main_v14 (F := Ideal) x0 x2 x3 x6 x7 x8 (ix2 h n)
      = Cert.LibSoftmaxRow.rowMax Cert.Spec.negInf
          (Cert.Spec.score (Cert.Spec.q x0 x2 x3 x6 n) (Cert.Spec.kpA x0 x2 x3 x7 x8) h) := by
  rw [val_main_v14_apply, val_main_v13_apply, val_main_cst_1_apply, v12_ix]
  exact Cert.LibSoftmaxRow.max_negInf _

theorem idx1516 (h : Fin 8) (n : Fin 1024) (k : Fin 256) : idx_main_v15 (idx_main_v16 (ix3 h n k)) = ix2 h n := by idx_eq

/-- A shifted exponential at (h, n, k). -/
theorem v18_ix (x0 x2 : M2 1024 1024) (x3 : V1 1024) (x6 : M2 1024 1024) (x7 : M2 1024 128) (x8 : M2 1024 256)
    (h : Fin 8) (n : Fin 1024) (k : Fin 256) :
    val_main_v18 (F := Ideal) x0 x2 x3 x6 x7 x8 (ix3 h n k)
      = Cert.LibSoftmaxRow.expShift Cert.Spec.negInf
          (Cert.Spec.score (Cert.Spec.q x0 x2 x3 x6 n) (Cert.Spec.kpA x0 x2 x3 x7 x8) h) k := by
  rw [val_main_v18_apply, val_main_v17_apply, val_main_v16_apply, val_main_v15_apply, idx1516, v14_ix, v11_ix]
  rfl

theorem idx19 (h : Fin 8) (n : Fin 1024) (k : Fin 256) : idx_main_v19 (ix2 h n) k = ix3 h n k := by idx_eq

/-- The sum of a row's shifted exponentials, started from the word of 0. -/
theorem v19_ix (x0 x2 : M2 1024 1024) (x3 : V1 1024) (x6 : M2 1024 1024) (x7 : M2 1024 128) (x8 : M2 1024 256)
    (h : Fin 8) (n : Fin 1024) :
    val_main_v19 (F := Ideal) x0 x2 x3 x6 x7 x8 (ix2 h n)
      = ∑ k : Fin 256, Cert.LibSoftmaxRow.expShift Cert.Spec.negInf
          (Cert.Spec.score (Cert.Spec.q x0 x2 x3 x6 n) (Cert.Spec.kpA x0 x2 x3 x7 x8) h) k := by
  rw [val_main_v19_apply, val_main_cst_2_apply]
  simp only [idx19, v18_ix]
  rw [Ideal.ofBits_def, Ideal.ofBits_zero_f32, zero_add]

theorem idx2021 (h : Fin 8) (n : Fin 1024) (k : Fin 256) : idx_main_v20 (idx_main_v21 (ix3 h n k)) = ix2 h n := by idx_eq

/-- The attention weights at (h, n, k). -/
theorem v22_ix (x0 x2 : M2 1024 1024) (x3 : V1 1024) (x6 : M2 1024 1024) (x7 : M2 1024 128) (x8 : M2 1024 256)
    (h : Fin 8) (n : Fin 1024) (k : Fin 256) :
    val_main_v22 (F := Ideal) x0 x2 x3 x6 x7 x8 (ix3 h n k)
      = Cert.Spec.attn (Cert.Spec.q x0 x2 x3 x6 n) (Cert.Spec.kpA x0 x2 x3 x7 x8) h k := by
  rw [val_main_v22_apply, val_main_v21_apply, val_main_v20_apply, idx2021, v19_ix, v18_ix]
  rfl

/-! ## The heads' outputs, side by side, through the output projection -/

theorem lidx23 (h : Fin 8) (n : Fin 1024) (e : Fin 128) (k : Fin 256) : lidx_main_v23 (ix3 h n e) k = ix3 h n k := by idx_eq
theorem ridx23 (h : Fin 8) (n : Fin 1024) (e : Fin 128) (k : Fin 256) : ridx_main_v23 (ix3 h n e) k = ix2 k e := by idx_eq

/-- A head's output at (h, n, e). -/
theorem v23_ix (x0 x2 : M2 1024 1024) (x3 : V1 1024) (x6 : M2 1024 1024) (x7 : M2 1024 128) (x8 : M2 1024 256)
    (h : Fin 8) (n : Fin 1024) (e : Fin 128) :
    val_main_v23 (F := Ideal) x0 x2 x3 x6 x7 x8 (ix3 h n e)
      = Cert.Spec.headOut (Cert.Spec.q x0 x2 x3 x6 n) (Cert.Spec.kpA x0 x2 x3 x7 x8) h e := by
  rw [val_main_v23_apply]
  simp only [lidx23, ridx23, v22_ix, v6_ix]
  rfl

theorem idx2425 (n j : Fin 1024) :
    idx_main_v24 (idx_main_v25 (ix2 n j)) = ix3 (Cert.Spec.hOf j) n (Cert.Spec.eOf j) := by
  have h1 := n.isLt; have h2 := j.isLt
  funext a
  fin_cases a
  · apply Fin.ext
    show (n.val * 1024 + j.val) / 128 % 8 = j.val / 128
    omega
  · apply Fin.ext
    show (n.val * 1024 + j.val) / 1024 = n.val
    omega
  · apply Fin.ext
    show (n.val * 1024 + j.val) % 128 = j.val % 128
    omega

/-- The heads laid side by side: column j of row n is head j / 128 at lane j % 128. -/
theorem v25_ix (x0 x2 : M2 1024 1024) (x3 : V1 1024) (x6 : M2 1024 1024) (x7 : M2 1024 128) (x8 : M2 1024 256)
    (n j : Fin 1024) :
    val_main_v25 (F := Ideal) x0 x2 x3 x6 x7 x8 (ix2 n j)
      = Cert.Spec.headOut (Cert.Spec.q x0 x2 x3 x6 n) (Cert.Spec.kpA x0 x2 x3 x7 x8) (Cert.Spec.hOf j) (Cert.Spec.eOf j) := by
  rw [val_main_v25_apply, val_main_v24_apply, idx2425, v23_ix]

theorem lidx26 (r j k : Fin 1024) : lidx_main_v26 (ix2 r j) k = ix2 r k := by idx_eq
theorem ridx26 (r j k : Fin 1024) : ridx_main_v26 (ix2 r j) k = ix2 k j := by idx_eq
theorem idx2728 (r j : Fin 1024) : idx_main_v27 (idx_main_v28 (ix2 r j)) = ix1 j := by idx_eq

/-- The output projection plus its bias at (n, c). -/
theorem v29_ix (x0 x2 : M2 1024 1024) (x3 : V1 1024) (x6 : M2 1024 1024) (x7 : M2 1024 128) (x8 : M2 1024 256)
    (x9 : M2 1024 1024) (x10 : V1 1024) (n c : Fin 1024) :
    val_main_v29 (F := Ideal) x0 x2 x3 x6 x7 x8 x9 x10 (ix2 n c)
      = Cert.Spec.xattn (Cert.Spec.q x0 x2 x3 x6 n) (Cert.Spec.kpA x0 x2 x3 x7 x8) x9 (fun j => x10 (ix1 j)) c := by
  rw [val_main_v29_apply, val_main_v26_apply, val_main_v28_apply, val_main_v27_apply]
  simp only [lidx26, ridx26, idx2728, v25_ix]
  rfl

/-! ## The layer norm of a row and the residual -/

theorem idx34 (n k : Fin 1024) : idx_main_v34 (ix1 n) k = ix2 n k := by idx_eq
theorem idx35 (n : Fin 1024) (u : Fin 1) : idx_main_v35 (ix2 n u) = ix1 n := by idx_eq

/-- The mean of row n, kept as a column. -/
theorem v37_ix (x0 x2 : M2 1024 1024) (x3 : V1 1024) (x6 : M2 1024 1024) (x7 : M2 1024 128) (x8 : M2 1024 256)
    (x9 : M2 1024 1024) (x10 : V1 1024) (n : Fin 1024) (u : Fin 1) :
    val_main_v37 (F := Ideal) x0 x2 x3 x6 x7 x8 x9 x10 (ix2 n u)
      = Cert.Spec.mean (Cert.Spec.xattn (Cert.Spec.q x0 x2 x3 x6 n) (Cert.Spec.kpA x0 x2 x3 x7 x8) x9 (fun j => x10 (ix1 j))) := by
  rw [val_main_v37_apply, val_main_v35_apply, val_main_v36_apply, val_main_cst_4_apply, idx35, val_main_v34_apply,
    val_main_cst_3_apply]
  simp only [idx34, v29_ix]
  rw [Ideal.ofBits_def, Ideal.ofBits_zero_f32, zero_add]
  rfl

theorem idx38 (n c : Fin 1024) : idx_main_v38 (ix2 n c) = ix2 n (0 : Fin 1) := by idx_eq
theorem idx45 (n c : Fin 1024) : idx_main_v45 (ix2 n c) = ix2 n (0 : Fin 1) := by idx_eq
theorem idx50 (n c : Fin 1024) : idx_main_v50 (ix2 n c) = ix2 n (0 : Fin 1) := by idx_eq

/-- An entry of row n minus the row's mean (the copy the variance squares). -/
theorem v39_ix (x0 x2 : M2 1024 1024) (x3 : V1 1024) (x6 : M2 1024 1024) (x7 : M2 1024 128) (x8 : M2 1024 256)
    (x9 : M2 1024 1024) (x10 : V1 1024) (n c : Fin 1024) :
    val_main_v39 (F := Ideal) x0 x2 x3 x6 x7 x8 x9 x10 (ix2 n c)
      = Cert.Spec.xattn (Cert.Spec.q x0 x2 x3 x6 n) (Cert.Spec.kpA x0 x2 x3 x7 x8) x9 (fun j => x10 (ix1 j)) c
        - Cert.Spec.mean (Cert.Spec.xattn (Cert.Spec.q x0 x2 x3 x6 n) (Cert.Spec.kpA x0 x2 x3 x7 x8) x9 (fun j => x10 (ix1 j))) := by
  rw [val_main_v39_apply, val_main_v38_apply, idx38, v37_ix, v29_ix]
  rfl

theorem idx41 (n k : Fin 1024) : idx_main_v41 (ix1 n) k = ix2 n k := by idx_eq
theorem idx42 (n : Fin 1024) (u : Fin 1) : idx_main_v42 (ix2 n u) = ix1 n := by idx_eq

/-- The variance of row n, kept as a column. -/
theorem v44_ix (x0 x2 : M2 1024 1024) (x3 : V1 1024) (x6 : M2 1024 1024) (x7 : M2 1024 128) (x8 : M2 1024 256)
    (x9 : M2 1024 1024) (x10 : V1 1024) (n : Fin 1024) (u : Fin 1) :
    val_main_v44 (F := Ideal) x0 x2 x3 x6 x7 x8 x9 x10 (ix2 n u)
      = Cert.Spec.var (Cert.Spec.xattn (Cert.Spec.q x0 x2 x3 x6 n) (Cert.Spec.kpA x0 x2 x3 x7 x8) x9 (fun j => x10 (ix1 j))) := by
  rw [val_main_v44_apply, val_main_v42_apply, val_main_v43_apply, val_main_cst_6_apply, idx42, val_main_v41_apply,
    val_main_cst_5_apply]
  simp only [idx41, val_main_v40_apply, v39_ix]
  rw [Ideal.ofBits_def, Ideal.ofBits_zero_f32, zero_add]
  rfl

/-- The reciprocal square root of the variance plus epsilon, kept as a column. -/
theorem v49_ix (x0 x2 : M2 1024 1024) (x3 : V1 1024) (x6 : M2 1024 1024) (x7 : M2 1024 128) (x8 : M2 1024 256)
    (x9 : M2 1024 1024) (x10 : V1 1024) (n : Fin 1024) (u : Fin 1) :
    val_main_v49 (F := Ideal) x0 x2 x3 x6 x7 x8 x9 x10 (ix2 n u)
      = Ideal.rsqrt (Cert.Spec.var (Cert.Spec.xattn (Cert.Spec.q x0 x2 x3 x6 n) (Cert.Spec.kpA x0 x2 x3 x7 x8) x9
          (fun j => x10 (ix1 j))) + Cert.Spec.eps) := by
  rw [val_main_v49_apply, val_main_v48_apply, val_main_v47_apply, val_main_cst_7_apply, v44_ix]
  rfl

theorem idx5253 (r j : Fin 1024) : idx_main_v52 (idx_main_v53 (ix2 r j)) = ix1 j := by idx_eq
theorem idx5556 (r j : Fin 1024) : idx_main_v55 (idx_main_v56 (ix2 r j)) = ix1 j := by idx_eq

/-- The node result at (n, c). -/
theorem v58_ix (x0 x2 : M2 1024 1024) (x3 : V1 1024) (x6 : M2 1024 1024) (x7 : M2 1024 128) (x8 : M2 1024 256)
    (x9 : M2 1024 1024) (x10 x11 x12 : V1 1024) (n c : Fin 1024) :
    val_main_v58 (F := Ideal) x0 x2 x3 x6 x7 x8 x9 x10 x11 x12 (ix2 n c)
      = Cert.Spec.nodeRow (Cert.Spec.q x0 x2 x3 x6 n) (Cert.Spec.kpA x0 x2 x3 x7 x8) x9 (fun j => x10 (ix1 j))
          (fun j => x11 (ix1 j)) (fun j => x12 (ix1 j)) (fun k => x0 (ix2 n k)) c := by
  rw [val_main_v58_apply, val_main_v57_apply, val_main_v54_apply, val_main_v51_apply, val_main_v46_apply,
    val_main_v45_apply, idx45, v37_ix, val_main_v50_apply, idx50, v49_ix, v29_ix,
    val_main_v53_apply, val_main_v52_apply, idx5253, val_main_v56_apply, val_main_v55_apply, idx5556]
  rfl

/-! ## The whole node result -/

/-- The reference's node result is the node path's mathematics, entry by entry. -/
theorem ref_eq (x0 x2 : Cert.Spec.M2 1024 1024) (x3 : Cert.Spec.V1 1024) (x6 : Cert.Spec.M2 1024 1024)
    (x7 : Cert.Spec.M2 1024 128) (x8 : Cert.Spec.M2 1024 256) (x9 : Cert.Spec.M2 1024 1024)
    (x10 x11 x12 : Cert.Spec.V1 1024) :
    Cert.ReferenceIdeal.Read.val_main_v58 (F := Ideal) x0 x2 x3 x6 x7 x8 x9 x10 x11 x12
      = Cert.Spec.nodeOut x0 x2 x3 x6 x7 x8 x9 x10 x11 x12 := by
  funext i
  obtain ⟨n, c, rfl⟩ : ∃ n c, i = ix2 n c := ⟨_, _, eq_ix2 i⟩
  rw [v58_ix]
  rfl

end Cert.NodeRef

end
-- ==== Proof.EdgeRef.lean ====
/-
  The reference's edge path, read one entry at a time.

  For an edge r the reference forms the row m[r, ·] = ef[r, ·]·We + be, takes its mean and its variance as sums over the
  1024 columns divided by the word of 1024 (each sum started from the zero word, which is 0), multiplies the centred row by
  rsqrt(var + eps), scales by ge, shifts by bte, and adds the edge's own features.  Every stage is read at the entry (r, c):
  the broadcast stages read their operand at the coordinates the broadcast keeps, the two sums run over the column
  coordinate.  The result is the specification's edge output, entry by entry.
-/
import proofs.«163990_j74371653697775_2_alg».proof.Proof.Gen.ReferenceIdeal.Read
import proofs.«163990_j74371653697775_2_alg».proof.Proof.Spec

noncomputable section

namespace Cert.EdgeRef

open Idealize.ShloMosaic Idealize.ShloMosaic.ValueIdx Cert.ReferenceIdeal Cert.ReferenceIdeal.Read Cert.Spec

variable (x1 : M2 32768 1024) (x4 : M2 1024 1024) (x5 x13 x14 : V1 1024)

/-- Row r of the linear stage: the feature row times the weights, plus the bias. -/
def lin (r : Fin 32768) : Fin 1024 → EReal :=
  fun j => rowLin (fun k => x1 (ix2 r k)) x4 j + x5 (ix1 j)

/-- The linear stage at (r, c). -/
theorem v33_at (r : Fin 32768) (c : Fin 1024) :
    val_main_v33 (F := Ideal) x1 x4 x5 (ix2 r c) = lin x1 x4 x5 r c := by
  rw [val_main_v33_apply, val_main_v30_apply, val_main_v32_apply, val_main_v31_apply, Ideal.addf_def]
  have el : ∀ k : Fin 1024, lidx_main_v30 (ix2 r c) k = ix2 r k := fun k => funext fun a => by
    match a with
    | ⟨0, _⟩ => rfl
    | ⟨1, _⟩ => rfl
  have er : ∀ k : Fin 1024, ridx_main_v30 (ix2 r c) k = ix2 k c := fun k => funext fun a => by
    match a with
    | ⟨0, _⟩ => rfl
    | ⟨1, _⟩ => rfl
  have eb : idx_main_v31 (idx_main_v32 (ix2 r c)) = ix1 c := funext fun a => by
    match a with
    | ⟨0, _⟩ => rfl
  unfold lin rowLin
  refine congrArg₂ (· + ·) (Finset.sum_congr rfl fun k _ => ?_) (congrArg x5 eb)
  rw [el k, er k]

/-- The sum of row r of the linear stage. -/
theorem v59_at (r : Fin 32768) :
    val_main_v59 (F := Ideal) x1 x4 x5 (ix1 r) = ∑ k : Fin 1024, lin x1 x4 x5 r k := by
  rw [val_main_v59_apply, val_main_cst_8_apply, Ideal.ofBits_def, Ideal.ofBits_zero_f32, zero_add]
  refine Finset.sum_congr rfl fun k _ => ?_
  have e : idx_main_v59 (ix1 r) k = ix2 r k := funext fun a => by
    match a with
    | ⟨0, _⟩ => rfl
    | ⟨1, _⟩ => rfl
  rw [e, v33_at]

/-- The mean of row r. -/
theorem v62_at (r : Fin 32768) (z : Fin 1) :
    val_main_v62 (F := Ideal) x1 x4 x5 (ix2 r z) = mean (lin x1 x4 x5 r) := by
  rw [val_main_v62_apply, val_main_v60_apply, val_main_v61_apply, val_main_cst_9_apply]
  have e : idx_main_v60 (ix2 r z) = ix1 r := funext fun a => by
    match a with
    | ⟨0, _⟩ => rfl
  rw [e, v59_at]
  rfl

/-- The centred row at (r, c), as the variance's sum reads it. -/
theorem v64_at (r : Fin 32768) (c : Fin 1024) :
    val_main_v64 (F := Ideal) x1 x4 x5 (ix2 r c) = lin x1 x4 x5 r c - mean (lin x1 x4 x5 r) := by
  rw [val_main_v64_apply, val_main_v63_apply, v33_at, Ideal.subf_def]
  have e : idx_main_v63 (ix2 r c) = ix2 r ⟨0, Nat.one_pos⟩ := funext fun a => by
    match a with
    | ⟨0, _⟩ => rfl
    | ⟨1, _⟩ => rfl
  rw [e, v62_at]

/-- The sum of the squared centred row. -/
theorem v66_at (r : Fin 32768) :
    val_main_v66 (F := Ideal) x1 x4 x5 (ix1 r)
      = ∑ k : Fin 1024, (lin x1 x4 x5 r k - mean (lin x1 x4 x5 r)) * (lin x1 x4 x5 r k - mean (lin x1 x4 x5 r)) := by
  rw [val_main_v66_apply, val_main_cst_10_apply, Ideal.ofBits_def, Ideal.ofBits_zero_f32, zero_add]
  refine Finset.sum_congr rfl fun k _ => ?_
  have e : idx_main_v66 (ix1 r) k = ix2 r k := funext fun a => by
    match a with
    | ⟨0, _⟩ => rfl
    | ⟨1, _⟩ => rfl
  rw [e, val_main_v65_apply, v64_at, Ideal.mulf_def]

/-- The variance of row r. -/
theorem v69_at (r : Fin 32768) (z : Fin 1) :
    val_main_v69 (F := Ideal) x1 x4 x5 (ix2 r z) = var (lin x1 x4 x5 r) := by
  rw [val_main_v69_apply, val_main_v67_apply, val_main_v68_apply, val_main_cst_11_apply]
  have e : idx_main_v67 (ix2 r z) = ix1 r := funext fun a => by
    match a with
    | ⟨0, _⟩ => rfl
  rw [e, v66_at]
  rfl

/-- The centred row at (r, c), as the normalisation reads it. -/
theorem v71_at (r : Fin 32768) (c : Fin 1024) :
    val_main_v71 (F := Ideal) x1 x4 x5 (ix2 r c) = lin x1 x4 x5 r c - mean (lin x1 x4 x5 r) := by
  rw [val_main_v71_apply, val_main_v70_apply, v33_at, Ideal.subf_def]
  have e : idx_main_v70 (ix2 r c) = ix2 r ⟨0, Nat.one_pos⟩ := funext fun a => by
    match a with
    | ⟨0, _⟩ => rfl
    | ⟨1, _⟩ => rfl
  rw [e, v62_at]

/-- The reciprocal square root of the variance plus epsilon, for row r. -/
theorem v74_at (r : Fin 32768) (z : Fin 1) :
    val_main_v74 (F := Ideal) x1 x4 x5 (ix2 r z) = Ideal.rsqrt (var (lin x1 x4 x5 r) + eps) := by
  rw [val_main_v74_apply, val_main_v73_apply, val_main_v72_apply, val_main_cst_12_apply, v69_at]
  rfl

/-- The normalised row at (r, c). -/
theorem v76_at (r : Fin 32768) (c : Fin 1024) :
    val_main_v76 (F := Ideal) x1 x4 x5 (ix2 r c)
      = (lin x1 x4 x5 r c - mean (lin x1 x4 x5 r)) * Ideal.rsqrt (var (lin x1 x4 x5 r) + eps) := by
  rw [val_main_v76_apply, val_main_v75_apply, v71_at, Ideal.mulf_def]
  have e : idx_main_v75 (ix2 r c) = ix2 r ⟨0, Nat.one_pos⟩ := funext fun a => by
    match a with
    | ⟨0, _⟩ => rfl
    | ⟨1, _⟩ => rfl
  rw [e, v74_at]

/-- The scale row at (r, c). -/
theorem v78_at (r : Fin 32768) (c : Fin 1024) :
    val_main_v78 (F := Ideal) x13 (ix2 r c) = x13 (ix1 c) := by
  rw [val_main_v78_apply, val_main_v77_apply]
  exact congrArg x13 (funext fun a => by
    match a with
    | ⟨0, _⟩ => rfl)

/-- The shift row at (r, c). -/
theorem v81_at (r : Fin 32768) (c : Fin 1024) :
    val_main_v81 (F := Ideal) x14 (ix2 r c) = x14 (ix1 c) := by
  rw [val_main_v81_apply, val_main_v80_apply]
  exact congrArg x14 (funext fun a => by
    match a with
    | ⟨0, _⟩ => rfl)

/-- The reference's edge output is the specification's. -/
theorem ref_eq (x1 : Cert.Spec.M2 32768 1024) (x4 : Cert.Spec.M2 1024 1024) (x5 x13 x14 : Cert.Spec.V1 1024) :
    Cert.ReferenceIdeal.Read.val_main_v83 (F := Ideal) x1 x4 x5 x13 x14 = Cert.Spec.edgeOut x1 x4 x5 x13 x14 := by
  funext i
  obtain ⟨r, c, rfl⟩ : ∃ (r : Fin 32768) (c : Fin 1024), i = ix2 r c := ⟨i 0, i 1, eq_ix2 i⟩
  rw [val_main_v83_apply, val_main_v82_apply, val_main_v79_apply, v76_at, v78_at, v81_at, Ideal.addf_def, Ideal.addf_def,
    Ideal.mulf_def]
  rfl

end Cert.EdgeRef

end
-- ==== Proof.lean ====
/-
  The claim: the kernel and its idealization run and keep their arguments (the generated frames), the idealization
  rewrote no operation, and on the extended reals the idealized kernel and the idealized reference end with equal
  results.  Both programs' results are the same two functions of the fifteen arguments (the node output and the edge
  output of the specification): the kernel's by its three regions read back to the arguments, the reference's by its
  host operations read one at a time.  Every law used is commutativity and associativity of sums and products of
  extended reals, so the precondition is never opened.
-/
import proofs.«163990_j74371653697775_2_alg».proof.Defs
import proofs.«163990_j74371653697775_2_alg».proof.Proof.Gen.Kernel
import proofs.«163990_j74371653697775_2_alg».proof.Proof.Gen.Kernel.Frame
import proofs.«163990_j74371653697775_2_alg».proof.Proof.Gen.KernelIdeal
import proofs.«163990_j74371653697775_2_alg».proof.Proof.Gen.KernelIdeal.Frame
import proofs.«163990_j74371653697775_2_alg».proof.Proof.Gen.ReferenceIdeal
import proofs.«163990_j74371653697775_2_alg».proof.Proof.Gen.Pre_finite_inputs
import proofs.«163990_j74371653697775_2_alg».proof.Proof.Gen.ReferenceIdeal.Run
import proofs.«163990_j74371653697775_2_alg».proof.Proof.Gen.ReferenceIdeal.Read
import proofs.«163990_j74371653697775_2_alg».proof.Proof.Whole
import proofs.«163990_j74371653697775_2_alg».proof.Proof.NodeKernel
import proofs.«163990_j74371653697775_2_alg».proof.Proof.EdgeKernel
import proofs.«163990_j74371653697775_2_alg».proof.Proof.NodeRef
import proofs.«163990_j74371653697775_2_alg».proof.Proof.EdgeRef
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both runs end with the node output and the edge output of the arguments. -/
theorem algebraic : Cert.algebraic_KernelIdeal_ReferenceIdeal := by
  intro m ρ m' ρ' _ hagree
  refine ⟨_, _, Cert.KernelIdeal.Whole.run m ρ (fun x0 x1 x2 x3 x4 x5 x6 p c => Cert.NodeKernel.out_apply x0 x1 x2 x3 x4 x5 x6 p c)
      (fun x0 x1 x2 x3 x4 p c => Cert.EdgeKernel.pay_apply x0 x1 x2 x3 x4 p c), ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14⟩ := hagree c
  refine ⟨?_, ?_, (h c).2.2⟩
  · refine (h c).1.trans ?_
    refine (Cert.ReferenceIdeal.Read.val_main_v58_eq (F := Ideal) m' c).trans ?_
    refine (Cert.NodeRef.ref_eq _ _ _ _ _ _ _ _ _ _).trans ?_
    rw [a0, a2, a3, a6, a7, a8, a9, a10, a11, a12]
  · refine (h c).2.1.trans ?_
    refine (Cert.ReferenceIdeal.Read.val_main_v83_eq (F := Ideal) _ _ _ _ _).trans ?_
    refine (Cert.EdgeRef.ref_eq _ _ _ _ _).trans ?_
    rw [a1, a4, a5, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
